-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v41)) (v2 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_v42) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_v124) = v1 c
          ∧ r.2.mem ((c.tc : Thread Cert.ReferenceIdeal.nD Cert.ReferenceIdeal.τ).loc Cert.ReferenceIdeal.main_v129) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x3 : Shape := ⟨2, ![65536, 3]⟩
abbrev S5000 : Shape := ⟨1, ![5000]⟩
abbrev S2x65536 : Shape := ⟨2, ![2, 65536]⟩
abbrev S119x64 : Shape := ⟨2, ![119, 64]⟩
abbrev S128x64 : Shape := ⟨2, ![128, 64]⟩
abbrev S32x192 : Shape := ⟨2, ![32, 192]⟩
abbrev S192 : Shape := ⟨1, ![192]⟩
abbrev S32 : Shape := ⟨1, ![32]⟩
abbrev S_ : Shape := ⟨0, ![]⟩

class Facts : Prop where
  bcast_S_S65536x3 : S_.BroadcastsInDim S65536x3 (![] : Fin 0 → Fin S65536x3.rank)
  reducesTo_S65536x3_S_d0_1 : S65536x3.ReducesTo [0, 1] S_
  h_S_ : 0 < S_.numel
  bcast_S_S119x64 : S_.BroadcastsInDim S119x64 (![] : Fin 0 → Fin S119x64.rank)
  reducesTo_S119x64_S_d0_1 : S119x64.ReducesTo [0, 1] S_
  bcast_S_S128x64 : S_.BroadcastsInDim S128x64 (![] : Fin 0 → Fin S128x64.rank)
  reducesTo_S128x64_S_d0_1 : S128x64.ReducesTo [0, 1] S_
  bcast_S_S32x192 : S_.BroadcastsInDim S32x192 (![] : Fin 0 → Fin S32x192.rank)
  reducesTo_S32x192_S_d0_1 : S32x192.ReducesTo [0, 1] S_
  bcast_S_S192 : S_.BroadcastsInDim S192 (![] : Fin 0 → Fin S192.rank)
  reducesTo_S192_S_d0 : S192.ReducesTo [0] S_
  bcast_S_S32 : S_.BroadcastsInDim S32 (![] : Fin 0 → Fin S32.rank)
  reducesTo_S32_S_d0 : S32.ReducesTo [0] S_

variable [Facts]

def fn_part1 {F : FTy → Type} [FloatOps F] (main_arg6 : FVec F S192 .f32) (main_arg7 : FVec F S32 .f32) (main_arg8 : FVec F S32 .f32) (main_v13 : IVec S_ 1) (main_v16 : IVec S32x192 1) : IVec S_ 1 :=
  let main_c_5 : IVec S_ 1 := constantI S_ 1 1#1
  let main_v17 : IVec S_ 1 := (fun x v => Host.reduce IntOp.andi x v reducesTo_S32x192_S_d0_1 h_S_) main_v16 main_c_5
  let main_v18 : IVec S_ 1 := andi main_v13 main_v17
  let main_v19 : FVec F S192 .f32 := Host.absf main_arg6
  let main_cst_6 : FVec F S_ .f32 := constant S_ .f32 0x7F800000#32
  let main_v20 : FVec F S192 .f32 := broadcastInDim S192 ![] bcast_S_S192 main_cst_6
  let main_v21 : IVec S192 1 := cmpf .olt main_v19 main_v20
  let main_c_7 : IVec S_ 1 := constantI S_ 1 1#1
  let main_v22 : IVec S_ 1 := (fun x v => Host.reduce IntOp.andi x v reducesTo_S192_S_d0 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S65536x3 .f32) (main_arg1 : IVec S5000 32) (main_arg2 : IVec S2x65536 32) (main_arg3 : FVec F S119x64 .f32) (main_arg4 : FVec F S128x64 .f32) (main_arg5 : FVec F S32x192 .f32) (main_arg6 : FVec F S192 .f32) (main_arg7 : FVec F S32 .f32) (main_arg8 : FVec F S32 .f32) : IVec S_ 1 :=
  let main_v0 : FVec F S65536x3 .f32 := Host.absf main_arg0
  let main_cst : FVec F S_ .f32 := constant S_ .f32 0x7F800000#32
  let main_v1 : FVec F S65536x3 .f32 := broadcastInDim S65536x3 ![] bcast_S_S65536x3 main_cst
  let main_v2 : IVec S65536x3 1 := cmpf .olt main_v0 main_v1
  let main_c : IVec S_ 1 := constantI S_ 1 1#1
  let main_v3 : IVec S_ 1 := (fun x v => Host.reduce IntOp.andi x v reducesTo_S65536x3_S_d0_1 h_S_) main_v2 main_c
  let main_v4 : FVec F S119x64 .f32 := Host.absf main_arg3
  let main_cst_0 : FVec F S_ .f32 := constant S_ .f32 0x7F800000#32
  let main_v5 : FVec F S119x64 .f32 := broadcastInDim S119x64 ![] bcast_S_S119x64 main_cst_0
  let main_v6 : IVec S119x64 1 := cmpf .olt main_v4 main_v5
  let main_c_1 : IVec S_ 1 := constantI S_ 1 1#1
  let main_v7 : IVec S_ 1 := (fun x v => Host.reduce IntOp.andi x v reducesTo_S119x64_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S32x192 .f32 := Host.absf main_arg5
  let main_cst_4 : FVec F S_ .f32 := constant S_ .f32 0x7F800000#32
  let main_v15 : FVec F S32x192 .f32 := broadcastInDim S32x192 ![] bcast_S_S32x192 main_cst_4
  let main_v16 : IVec S32x192 1 := cmpf .olt main_v14 main_v15
  fn_part1 (F := F) main_arg6 main_arg7 main_arg8 main_v13 main_v16
-- ==== Kernel.lean ====
abbrev S65536x3 : Shape := ⟨2, ![65536, 3]⟩
abbrev S5000 : Shape := ⟨1, ![5000]⟩
abbrev S2x65536 : Shape := ⟨2, ![2, 65536]⟩
abbrev S119x64 : Shape := ⟨2, ![119, 64]⟩
abbrev S128x64 : Shape := ⟨2, ![128, 64]⟩
abbrev S32x192 : Shape := ⟨2, ![32, 192]⟩
abbrev S192 : Shape := ⟨1, ![192]⟩
abbrev S32 : Shape := ⟨1, ![32]⟩
abbrev S_ : Shape := ⟨0, ![]⟩
abbrev S5000x1 : Shape := ⟨2, ![5000, 1]⟩
abbrev S5000x64 : Shape := ⟨2, ![5000, 64]⟩
abbrev S1x65536 : Shape := ⟨2, ![1, 65536]⟩
abbrev S65536 : Shape := ⟨1, ![65536]⟩
abbrev S65536x1 : Shape := ⟨2, ![65536, 1]⟩
abbrev S65536x64 : Shape := ⟨2, ![65536, 64]⟩
abbrev S65536x128 : Shape := ⟨2, ![65536, 128]⟩
abbrev S3x3 : Shape := ⟨2, ![3, 3]⟩
abbrev S1x9 : Shape := ⟨2, ![1, 9]⟩
abbrev S1x32 : Shape := ⟨2, ![1, 32]⟩
abbrev S1x192 : Shape := ⟨2, ![1, 192]⟩
abbrev S65536x64x9 : Shape := ⟨3, ![65536, 64, 9]⟩
abbrev S128x3 : Shape := ⟨2, ![128, 3]⟩
abbrev S128x128 : Shape := ⟨2, ![128, 128]⟩
abbrev S128x64x9 : Shape := ⟨3, ![128, 64, 9]⟩
abbrev S128 : Shape := ⟨1, ![128]⟩
abbrev S128x1 : Shape := ⟨2, ![128, 1]⟩
abbrev S128x9 : Shape := ⟨2, ![128, 9]⟩
abbrev S128x32 : Shape := ⟨2, ![128, 32]⟩
abbrev S128x192 : Shape := ⟨2, ![128, 192]⟩
abbrev S128x64x1 : Shape := ⟨3, ![128, 64, 1]⟩
abbrev S1x1x9 : Shape := ⟨3, ![1, 1, 9]⟩
abbrev S128x1x9 : Shape := ⟨3, ![128, 1, 9]⟩
abbrev S65536x64x3x3 : Shape := ⟨4, ![65536, 64, 3, 3]⟩

abbrev nBuf : Space → Nat
  | .hbm => 61
  | .vmem => 16
  | .smem => 0
  | _ => 0

abbrev bufTy : (tb : Table) → Fin (tcTables nBuf tb) → BufTy
  | .hbm, ⟨0, _⟩ => ⟨S65536x3, .f32⟩
  | .hbm, ⟨1, _⟩ => ⟨S5000, .i32⟩
  | .hbm, ⟨2, _⟩ => ⟨S2x65536, .i32⟩
  | .hbm, ⟨3, _⟩ => ⟨S119x64, .f32⟩
  | .hbm, ⟨4, _⟩ => ⟨S128x64, .f32⟩
  | .hbm, ⟨5, _⟩ => ⟨S32x192, .f32⟩
  | .hbm, ⟨6, _⟩ => ⟨S192, .f32⟩
  | .hbm, ⟨7, _⟩ => ⟨S32, .f32⟩
  | .hbm, ⟨8, _⟩ => ⟨S32, .f32⟩
  | .hbm, ⟨9, _⟩ => ⟨S_, .i32⟩
  | .hbm, ⟨10, _⟩ => ⟨S5000, .i32⟩
  | .hbm, ⟨11, _⟩ => ⟨S5000, .i1⟩
  | .hbm, ⟨12, _⟩ => ⟨S_, .i32⟩
  | .hbm, ⟨13, _⟩ => ⟨S5000, .i32⟩
  | .hbm, ⟨14, _⟩ => ⟨S5000, .i32⟩
  | .hbm, ⟨15, _⟩ => ⟨S5000, .i32⟩
  | .hbm, ⟨16, _⟩ => ⟨S5000x1, .i32⟩
  | .hbm, ⟨17, _⟩ => ⟨S5000x64, .f32⟩
  | .hbm, ⟨18, _⟩ => ⟨S1x65536, .i32⟩
  | .hbm, ⟨19, _⟩ => ⟨S65536, .i32⟩
  | .hbm, ⟨20, _⟩ => ⟨S_, .i32⟩
  | .hbm, ⟨21, _⟩ => ⟨S65536, .i32⟩
  | .hbm, ⟨22, _⟩ => ⟨S65536, .i1⟩
  | .hbm, ⟨23, _⟩ => ⟨S_, .i32⟩
  | .hbm, ⟨24, _⟩ => ⟨S65536, .i32⟩
  | .hbm, ⟨25, _⟩ => ⟨S65536, .i32⟩
  | .hbm, ⟨26, _⟩ => ⟨S65536, .i32⟩
  | .hbm, ⟨27, _⟩ => ⟨S65536x1, .i32⟩
  | .hbm, ⟨28, _⟩ => ⟨S65536x64, .f32⟩
  | .hbm, ⟨29, _⟩ => ⟨S1x65536, .i32⟩
  | .hbm, ⟨30, _⟩ => ⟨S65536, .i32⟩
  | .hbm, ⟨31, _⟩ => ⟨S_, .i32⟩
  | .hbm, ⟨32, _⟩ => ⟨S65536, .i32⟩
  | .hbm, ⟨33, _⟩ => ⟨S65536, .i1⟩
  | .hbm, ⟨34, _⟩ => ⟨S_, .i32⟩
  | .hbm, ⟨35, _⟩ => ⟨S65536, .i32⟩
  | .hbm, ⟨36, _⟩ => ⟨S65536, .i32⟩
  | .hbm, ⟨37, _⟩ => ⟨S65536, .i32⟩
  | .hbm, ⟨38, _⟩ => ⟨S65536x1, .i32⟩
  | .hbm, ⟨39, _⟩ => ⟨S65536x64, .f32⟩
  | .hbm, ⟨40, _⟩ => ⟨S65536x128, .f32⟩
  | .hbm, ⟨41, _⟩ => ⟨S65536x128, .bf16⟩
  | .hbm, ⟨42, _⟩ => ⟨S128x64, .bf16⟩
  | .hbm, ⟨43, _⟩ => ⟨S32x192, .bf16⟩
  | .hbm, ⟨44, _⟩ => ⟨S3x3, .i32⟩
  | .hbm, ⟨45, _⟩ => ⟨S3x3, .i32⟩
  | .hbm, ⟨46, _⟩ => ⟨S_, .i32⟩
  | .hbm, ⟨47, _⟩ => ⟨S3x3, .i32⟩
  | .hbm, ⟨48, _⟩ => ⟨S3x3, .i32⟩
  | .hbm, ⟨49, _⟩ => ⟨S3x3, .i1⟩
  | .hbm, ⟨50, _⟩ => ⟨S3x3, .f32⟩
  | .hbm, ⟨51, _⟩ => ⟨S1x9, .f32⟩
  | .hbm, ⟨52, _⟩ => ⟨S1x32, .f32⟩
  | .hbm, ⟨53, _⟩ => ⟨S1x32, .f32⟩
  | .hbm, ⟨54, _⟩ => ⟨S1x192, .f32⟩
  | .hbm, ⟨55, _⟩ => ⟨S65536x64x9, .f32⟩
  | .hbm, ⟨56, _⟩ => ⟨S65536x64x9, .f32⟩
  | .hbm, ⟨57, _⟩ => ⟨S65536x64x9, .f32⟩
  | .hbm, ⟨58, _⟩ => ⟨S65536x64x3x3, .f32⟩
  | .hbm, ⟨59, _⟩ => ⟨S65536x64x3x3, .f32⟩
  | .hbm, ⟨60, _⟩ => ⟨S65536x64x3x3, .f32⟩
  | .local _ .vmem, ⟨0, _⟩ => ⟨S128x3, .f32⟩
  | .local _ .vmem, ⟨1, _⟩ => ⟨S128x3, .f32⟩
  | .local _ .vmem, ⟨2, _⟩ => ⟨S128x128, .bf16⟩
  | .local _ .vmem, ⟨3, _⟩ => ⟨S128x128, .bf16⟩
  | .local _ .vmem, ⟨4, _⟩ => ⟨S128x64, .bf16⟩
  | .local _ .vmem, ⟨5, _⟩ => ⟨S32x192, .bf16⟩
  | .local _ .vmem, ⟨6, _⟩ => ⟨S1x192, .f32⟩
  | .local _ .vmem, ⟨7, _⟩ => ⟨S1x32, .f32⟩
  | .local _ .vmem, ⟨8, _⟩ => ⟨S1x32, .f32⟩
  | .local _ .vmem, ⟨9, _⟩ => ⟨S1x9, .f32⟩
  | .local _ .vmem, ⟨10, _⟩ => ⟨S128x64x9, .f32⟩
  | .local _ .vmem, ⟨11, _⟩ => ⟨S128x64x9, .f32⟩
  | .local _ .vmem, ⟨12, _⟩ => ⟨S128x64x9, .f32⟩
  | .local _ .vmem, ⟨13, _⟩ => ⟨S128x64x9, .f32⟩
  | .local _ .vmem, ⟨14, _⟩ => ⟨S128x64x9, .f32⟩
  | .local _ .vmem, ⟨15, _⟩ => ⟨S128x64x9, .f32⟩
  | _, _ => ⟨S65536x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39_0 : Ref sig .tc := ⟨.hbm, 55, rfl⟩
abbrev main_v39_1 : Ref sig .tc := ⟨.hbm, 56, rfl⟩
abbrev main_v39_2 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x9 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x64x9 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x64x9 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x64x9 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S5000 : S_.BroadcastsInDim S5000 (![] : Fin 0 → Fin S5000.rank)
  bcast_S5000_S5000x1_0 : S5000.BroadcastsInDim S5000x1 (![0] : Fin 1 → Fin S5000x1.rank)
  slices_S2x65536_S1x65536_0_0 : S2x65536.Slices ![0, 0] S1x65536
  shapeCasts_S1x65536_S65536 : S1x65536.ShapeCasts S65536
  bcast_S_S65536 : S_.BroadcastsInDim S65536 (![] : Fin 0 → Fin S65536.rank)
  bcast_S65536_S65536x1_0 : S65536.BroadcastsInDim S65536x1 (![0] : Fin 1 → Fin S65536x1.rank)
  slices_S2x65536_S1x65536_1_0 : S2x65536.Slices ![1, 0] S1x65536
  concatenates_S65536x64_S65536x64_S65536x128_d1 : Shape.Concatenates [S65536x64, S65536x64] S65536x128 1
  bitsLt_bf16_f32 : FTy.bits .bf16 < FTy.bits .f32
  bcast_S_S3x3 : S_.BroadcastsInDim S3x3 (![] : Fin 0 → Fin S3x3.rank)
  shapeCasts_S3x3_S1x9 : S3x3.ShapeCasts S1x9
  shapeCasts_S32_S1x32 : S32.ShapeCasts S1x32
  shapeCasts_S192_S1x192 : S192.ShapeCasts S1x192
  inb_S128x3_S128x3_0_0 : ∀ a, (![0, 0] : Fin 2 → Nat) a + S128x3.size a ≤ S128x3.size a
  h_S128x3 : 0 < S128x3.numel
  reduces_S128x3_S128 : S128x3.Reduces [1] S128
  shapeCasts_S128_S128x1 : S128.ShapeCasts S128x1
  broadcasts_S128x1_S128x3 : S128x1.Broadcasts S128x3
  slices_S128x3_o0_0_S128x1 : S128x3.Slices ![0, 0] S128x1
  slices_S128x3_o0_1_S128x1 : S128x3.Slices ![0, 1] S128x1
  slices_S128x3_o0_2_S128x1 : S128x3.Slices ![0, 2] S128x1
  concatenates_S128x1_S128x1_S128x1_S128x1_S128x1_S128x1_S128x1_S128x1_S128x1_S128x9_d1 : Shape.Concatenates [S128x1, S128x1, S128x1, S128x1, S128x1, S128x1, S128x1, S128x1, S128x1] S128x9 1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S128x1_S128x32 : S128x1.Broadcasts S128x32
  broadcasts_S1x32_S128x32 : S1x32.Broadcasts S128x32
  inb_S32x192_S32x192_0_0 : ∀ a, (![0, 0] : Fin 2 → Nat) a + S32x192.size a ≤ S32x192.size a
  h_S32x192 : 0 < S32x192.numel
  shapeCasts_S32x192_S32x192 : S32x192.ShapeCasts S32x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S128x192 : S1x192.Broadcasts S128x192
  broadcasts_S128x1_S128x192 : S128x1.Broadcasts S128x192
  slices_S128x192_o0_0_S128x64 : S128x192.Slices ![0, 0] S128x64
  slices_S128x192_o0_64_S128x64 : S128x192.Slices ![0, 64] S128x64
  slices_S128x192_o0_128_S128x64 : S128x192.Slices ![0, 128] S128x64
  inb_S1x9_S1x9_0_0 : ∀ a, (![0, 0] : Fin 2 → Nat) a + S1x9.size a ≤ S1x9.size a
  h_S1x9 : 0 < S1x9.numel
  shapeCasts_S1x9_S1x9 : S1x9.ShapeCasts S1x9
  shapeCasts_S128x64_S128x64x1 : S128x64.ShapeCasts S128x64x1
  shapeCasts_S1x9_S1x1x9 : S1x9.ShapeCasts S1x1x9
  broadcasts_S128x64x1_S128x64x9 : S128x64x1.Broadcasts S128x64x9
  broadcasts_S1x1x9_S128x64x9 : S1x1x9.Broadcasts S128x64x9
  inb_S128x64x9_S128x64x9_0_0_0 : ∀ a, (![0, 0, 0] : Fin 3 → Nat) a + S128x64x9.size a ≤ S128x64x9.size a
  h_S128x64x9 : 0 < S128x64x9.numel
  shapeCasts_S128x9_S128x1x9 : S128x9.ShapeCasts S128x1x9
  broadcasts_S128x1x9_S128x64x9 : S128x1x9.Broadcasts S128x64x9
  shapeCasts_S65536x64x9_S65536x64x3x3 : S65536x64x9.ShapeCasts S65536x64x3x3
  gather_S119x64_S5000x1_S5000x64_1_0_n_n_0_1_164_wf : GatherDims.WF S119x64 S5000x1 S5000x64 [1] [0] [] [0] [] 1 ![1, 64]
  gather_S5000x64_S65536x1_S65536x64_1_0_n_n_0_1_164_wf : GatherDims.WF S5000x64 S65536x1 S65536x64 [1] [0] [] [0] [] 1 ![1, 64]
  dot_S128x128_S128x64_S128x64_1_0_0_1_n_n_wf : DotDims.WF S128x128 S128x64 S128x64 [1] [0] [0] [1] [] []
  dot_S128x32_S32x192_S128x192_1_0_0_1_n_n_wf : DotDims.WF S128x32 S32x192 S128x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x3.size a ≤ S65536x3.size a
  hwx0_0 : ∀ i : grid0.Coords, EltTy.bits .f32 = 32 ∨ (Rect.block (s := S65536x3) S128x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S65536x128.size a
  hwx0_1 : ∀ i : grid0.Coords, EltTy.bits .bf16 = 32 ∨ (Rect.block (s := S65536x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .bf16 = 32 ∨ (Rect.block (s := S128x64) S128x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x192.size a ≤ S32x192.size a
  hwx0_3 : ∀ i : grid0.Coords, EltTy.bits .bf16 = 32 ∨ (Rect.block (s := S32x192) S32x192.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x192.size a ≤ S1x192.size a
  hwx0_4 : ∀ i : grid0.Coords, EltTy.bits .f32 = 32 ∨ (Rect.block (s := S1x192) S1x192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x9.size a ≤ S1x9.size a
  hwx0_7 : ∀ i : grid0.Coords, EltTy.bits .f32 = 32 ∨ (Rect.block (s := S1x9) S1x9.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x64x9.size a ≤ S65536x64x9.size a
  hwx0_8 : ∀ i : grid0.Coords, EltTy.bits .f32 = 32 ∨ (Rect.block (s := S65536x64x9) S128x64x9.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x64x9.size a ≤ S65536x64x9.size a
  hwx0_9 : ∀ i : grid0.Coords, EltTy.bits .f32 = 32 ∨ (Rect.block (s := S65536x64x9) S128x64x9.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x64x9.size a ≤ S65536x64x9.size a
  hwx0_10 : ∀ i : grid0.Coords, EltTy.bits .f32 = 32 ∨ (Rect.block (s := S65536x64x9) S128x64x9.size (cc0_transform_10 i) (hinb0_10 i)).WholeWords (EltTy.packing .f32)

variable [Facts₀]

def gather_S119x64_S5000x1_S5000x64_1_0_n_n_0_1_164 : GatherDims S119x64 S5000x1 S5000x64 where
  offsetDims := [1]
  collapsedSliceDims := [0]
  operandBatchingDims := []
  startIndicesBatchingDims := []
  startIndexMap := [0]
  indexVectorDim := 1
  sliceSizes := ![1, 64]
  wf := gather_S119x64_S5000x1_S5000x64_1_0_n_n_0_1_164_wf
def gather_S5000x64_S65536x1_S65536x64_1_0_n_n_0_1_164 : GatherDims S5000x64 S65536x1 S65536x64 where
  offsetDims := [1]
  collapsedSliceDims := [0]
  operandBatchingDims := []
  startIndicesBatchingDims := []
  startIndexMap := [0]
  indexVectorDim := 1
  sliceSizes := ![1, 64]
  wf := gather_S5000x64_S65536x1_S65536x64_1_0_n_n_0_1_164_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def dot_S128x32_S32x192_S128x192_1_0_0_1_n_n : DotDims S128x32 S32x192 S128x192 where
  lhsContracting := [1]
  rhsContracting := [0]
  lhsNonContracting := [0]
  rhsNonContracting := [1]
  lhsBatch := []
  rhsBatch := []
  wf := dot_S128x32_S32x192_S128x192_1_0_0_1_n_n_wf

abbrev win0_0 : Pipeline.Window sig grid0 :=
  Pipeline.Window.ofSpec (Memref.whole main_arg0) S128x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S32x192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S1x192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v37) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35) S1x9.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v39_0) S128x64x9.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v39_1) S128x64x9.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v39_2) S128x64x9.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S65536x3 : Shape := ⟨2, ![65536, 3]⟩
abbrev S5000 : Shape := ⟨1, ![5000]⟩
abbrev S2x65536 : Shape := ⟨2, ![2, 65536]⟩
abbrev S119x64 : Shape := ⟨2, ![119, 64]⟩
abbrev S128x64 : Shape := ⟨2, ![128, 64]⟩
abbrev S32x192 : Shape := ⟨2, ![32, 192]⟩
abbrev S192 : Shape := ⟨1, ![192]⟩
abbrev S32 : Shape := ⟨1, ![32]⟩
abbrev S3x3 : Shape := ⟨2, ![3, 3]⟩
abbrev S_ : Shape := ⟨0, ![]⟩
abbrev S65536 : Shape := ⟨1, ![65536]⟩
abbrev S65536x1 : Shape := ⟨2, ![65536, 1]⟩
abbrev S65536x9 : Shape := ⟨2, ![65536, 9]⟩
abbrev S65536x3x3 : Shape := ⟨3, ![65536, 3, 3]⟩
abbrev S65536x3x1 : Shape := ⟨3, ![65536, 3, 1]⟩
abbrev S65536x1x3 : Shape := ⟨3, ![65536, 1, 3]⟩
abbrev S65536x1x1 : Shape := ⟨3, ![65536, 1, 1]⟩
abbrev S1x3x3 : Shape := ⟨3, ![1, 3, 3]⟩
abbrev S5000x1 : Shape := ⟨2, ![5000, 1]⟩
abbrev S5000x64 : Shape := ⟨2, ![5000, 64]⟩
abbrev S1x65536 : Shape := ⟨2, ![1, 65536]⟩
abbrev S65536x64 : Shape := ⟨2, ![65536, 64]⟩
abbrev S65536x128 : Shape := ⟨2, ![65536, 128]⟩
abbrev S1x32 : Shape := ⟨2, ![1, 32]⟩
abbrev S65536x32 : Shape := ⟨2, ![65536, 32]⟩
abbrev S65536x192 : Shape := ⟨2, ![65536, 192]⟩
abbrev S1x192 : Shape := ⟨2, ![1, 192]⟩
abbrev S1x65536x1x64 : Shape := ⟨4, ![1, 65536, 1, 64]⟩
abbrev S1x65536x3x64 : Shape := ⟨4, ![1, 65536, 3, 64]⟩
abbrev S65536x64x1x1 : Shape := ⟨4, ![65536, 64, 1, 1]⟩
abbrev S1x1x3x3 : Shape := ⟨4, ![1, 1, 3, 3]⟩
abbrev S65536x64x3x3 : Shape := ⟨4, ![65536, 64, 3, 3]⟩
abbrev S65536x1x3x3 : Shape := ⟨4, ![65536, 1, 3, 3]⟩

abbrev nBuf : Space → Nat
  | .hbm => 171
  | .vmem => 0
  | .smem => 0
  | _ => 0

abbrev hbmTy0_0 (i : Nat) : BufTy := match i % 128 with
  | 0 => ⟨S65536x3, .f32⟩
  | 1 => ⟨S5000, .i32⟩
  | 2 => ⟨S2x65536, .i32⟩
  | 3 => ⟨S119x64, .f32⟩
  | 4 => ⟨S128x64, .f32⟩
  | 5 => ⟨S32x192, .f32⟩
  | 6 => ⟨S192, .f32⟩
  | 7 => ⟨S32, .f32⟩
  | 8 => ⟨S32, .f32⟩
  | 9 => ⟨S3x3, .i32⟩
  | 10 => ⟨S3x3, .i32⟩
  | 11 => ⟨S_, .i32⟩
  | 12 => ⟨S3x3, .i32⟩
  | 13 => ⟨S3x3, .i32⟩
  | 14 => ⟨S3x3, .i1⟩
  | 15 => ⟨S3x3, .f32⟩
  | 16 => ⟨S65536x3, .f32⟩
  | 17 => ⟨S_, .f32⟩
  | 18 => ⟨S65536, .f32⟩
  | 19 => ⟨S65536, .f32⟩
  | 20 => ⟨S65536x1, .f32⟩
  | 21 => ⟨S65536x3, .f32⟩
  | 22 => ⟨S65536x3, .f32⟩
  | 23 => ⟨S65536x1, .f32⟩
  | 24 => ⟨S65536, .f32⟩
  | 25 => ⟨S65536x1, .f32⟩
  | 26 => ⟨S65536, .f32⟩
  | 27 => ⟨S65536x1, .f32⟩
  | 28 => ⟨S65536, .f32⟩
  | 29 => ⟨S_, .f32⟩
  | 30 => ⟨S65536, .f32⟩
  | 31 => ⟨S65536, .f32⟩
  | 32 => ⟨S65536, .f32⟩
  | 33 => ⟨S65536, .f32⟩
  | 34 => ⟨S65536x1, .f32⟩
  | 35 => ⟨S65536x1, .f32⟩
  | 36 => ⟨S65536x1, .f32⟩
  | 37 => ⟨S65536x1, .f32⟩
  | 38 => ⟨S65536x1, .f32⟩
  | 39 => ⟨S65536x1, .f32⟩
  | 40 => ⟨S65536x1, .f32⟩
  | 41 => ⟨S65536x1, .f32⟩
  | 42 => ⟨S65536x1, .f32⟩
  | 43 => ⟨S65536x9, .f32⟩
  | 44 => ⟨S65536x3x3, .f32⟩
  | 45 => ⟨S65536x3x1, .f32⟩
  | 46 => ⟨S65536x1x3, .f32⟩
  | 47 => ⟨S65536x3x3, .f32⟩
  | 48 => ⟨S65536x3x3, .f32⟩
  | 49 => ⟨S65536x3x3, .f32⟩
  | 50 => ⟨S3x3, .i32⟩
  | 51 => ⟨S3x3, .i32⟩
  | 52 => ⟨S_, .i32⟩
  | 53 => ⟨S3x3, .i32⟩
  | 54 => ⟨S3x3, .i32⟩
  | 55 => ⟨S3x3, .i1⟩
  | 56 => ⟨S_, .f32⟩
  | 57 => ⟨S65536x3x3, .f32⟩
  | 58 => ⟨S65536x3x3, .i1⟩
  | 59 => ⟨S65536x3x3, .f32⟩
  | 60 => ⟨S_, .f32⟩
  | 61 => ⟨S65536, .f32⟩
  | 62 => ⟨S_, .f32⟩
  | 63 => ⟨S65536, .f32⟩
  | 64 => ⟨S65536, .f32⟩
  | 65 => ⟨S65536x3x3, .f32⟩
  | 66 => ⟨S65536x3x3, .f32⟩
  | 67 => ⟨S_, .f32⟩
  | 68 => ⟨S65536x3x3, .f32⟩
  | 69 => ⟨S65536x3x3, .f32⟩
  | 70 => ⟨S65536x1x1, .f32⟩
  | 71 => ⟨S1x3x3, .f32⟩
  | 72 => ⟨S65536x3x3, .f32⟩
  | 73 => ⟨S65536x3x3, .f32⟩
  | 74 => ⟨S65536x3x3, .f32⟩
  | 75 => ⟨S65536x3x3, .f32⟩
  | 76 => ⟨S_, .i32⟩
  | 77 => ⟨S5000, .i32⟩
  | 78 => ⟨S5000, .i1⟩
  | 79 => ⟨S_, .i32⟩
  | 80 => ⟨S5000, .i32⟩
  | 81 => ⟨S5000, .i32⟩
  | 82 => ⟨S5000, .i32⟩
  | 83 => ⟨S5000x1, .i32⟩
  | 84 => ⟨S5000x64, .f32⟩
  | 85 => ⟨S1x65536, .i32⟩
  | 86 => ⟨S65536, .i32⟩
  | 87 => ⟨S_, .i32⟩
  | 88 => ⟨S65536, .i32⟩
  | 89 => ⟨S65536, .i1⟩
  | 90 => ⟨S_, .i32⟩
  | 91 => ⟨S65536, .i32⟩
  | 92 => ⟨S65536, .i32⟩
  | 93 => ⟨S65536, .i32⟩
  | 94 => ⟨S65536x1, .i32⟩
  | 95 => ⟨S65536x64, .f32⟩
  | 96 => ⟨S1x65536, .i32⟩
  | 97 => ⟨S65536, .i32⟩
  | 98 => ⟨S_, .i32⟩
  | 99 => ⟨S65536, .i32⟩
  | 100 => ⟨S65536, .i1⟩
  | 101 => ⟨S_, .i32⟩
  | 102 => ⟨S65536, .i32⟩
  | 103 => ⟨S65536, .i32⟩
  | 104 => ⟨S65536, .i32⟩
  | 105 => ⟨S65536x1, .i32⟩
  | 106 => ⟨S65536x64, .f32⟩
  | 107 => ⟨S65536x128, .f32⟩
  | 108 => ⟨S65536x64, .f32⟩
  | 109 => ⟨S32, .f32⟩
  | 110 => ⟨S65536, .f32⟩
  | 111 => ⟨S65536, .f32⟩
  | 112 => ⟨S65536x1, .f32⟩
  | 113 => ⟨S1x32, .f32⟩
  | 114 => ⟨S65536x32, .f32⟩
  | 115 => ⟨S65536x32, .f32⟩
  | 116 => ⟨S65536x32, .f32⟩
  | 117 => ⟨S65536x32, .f32⟩
  | 118 => ⟨S1x32, .f32⟩
  | 119 => ⟨S65536x32, .f32⟩
  | 120 => ⟨S65536x32, .f32⟩
  | 121 => ⟨S65536x32, .f32⟩
  | 122 => ⟨S_, .f32⟩
  | 123 => ⟨S65536, .f32⟩
  | 124 => ⟨S65536, .i1⟩
  | 125 => ⟨S_, .f32⟩
  | 126 => ⟨S65536, .f32⟩
  | 127 => ⟨S65536, .f32⟩
  | _ => ⟨S65536x3, .f32⟩

abbrev hbmTy0_1 (i : Nat) : BufTy := match i % 128 with
  | 0 => ⟨S_, .f32⟩
  | 1 => ⟨S65536, .f32⟩
  | 2 => ⟨S65536, .f32⟩
  | 3 => ⟨S65536, .f32⟩
  | 4 => ⟨S_, .f32⟩
  | 5 => ⟨S65536, .f32⟩
  | 6 => ⟨S65536, .f32⟩
  | 7 => ⟨S_, .f32⟩
  | 8 => ⟨S65536, .f32⟩
  | 9 => ⟨S65536, .f32⟩
  | 10 => ⟨S_, .f32⟩
  | 11 => ⟨S_, .f32⟩
  | 12 => ⟨S65536, .f32⟩
  | 13 => ⟨S65536, .f32⟩
  | 14 => ⟨S65536x192, .f32⟩
  | 15 => ⟨S1x192, .f32⟩
  | 16 => ⟨S65536x192, .f32⟩
  | 17 => ⟨S65536x192, .f32⟩
  | 18 => ⟨S65536x1, .f32⟩
  | 19 => ⟨S65536x192, .f32⟩
  | 20 => ⟨S65536x192, .f32⟩
  | 21 => ⟨S1x65536x1x64, .f32⟩
  | 22 => ⟨S1x65536x3x64, .f32⟩
  | 23 => ⟨S65536x192, .f32⟩
  | 24 => ⟨S65536x192, .f32⟩
  | 25 => ⟨S65536x64, .f32⟩
  | 26 => ⟨S65536x64, .f32⟩
  | 27 => ⟨S65536x64, .f32⟩
  | 28 => ⟨S65536x64x1x1, .f32⟩
  | 29 => ⟨S1x1x3x3, .f32⟩
  | 30 => ⟨S65536x64x3x3, .f32⟩
  | 31 => ⟨S65536x64x3x3, .f32⟩
  | 32 => ⟨S65536x64x3x3, .f32⟩
  | 33 => ⟨S65536x64x1x1, .f32⟩
  | 34 => ⟨S65536x1x3x3, .f32⟩
  | 35 => ⟨S65536x64x3x3, .f32⟩
  | 36 => ⟨S65536x64x3x3, .f32⟩
  | 37 => ⟨S65536x64x3x3, .f32⟩
  | 38 => ⟨S65536x64x1x1, .f32⟩
  | 39 => ⟨S65536x1x3x3, .f32⟩
  | 40 => ⟨S65536x64x3x3, .f32⟩
  | 41 => ⟨S65536x64x3x3, .f32⟩
  | 42 => ⟨S65536x64x3x3, .f32⟩
  | _ => ⟨S65536x3, .f32⟩

abbrev hbmTy (i : Nat) : BufTy := match i / 128 with
  | 0 => hbmTy0_0 i
  | 1 => hbmTy0_1 i
  | _ => ⟨S65536x3, .f32⟩

abbrev bufTy : (tb : Table) → Fin (tcTables nBuf tb) → BufTy
  | .hbm, ⟨i, _⟩ => hbmTy i
  | _, _ => ⟨S65536x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call0_v0 : Ref sig .tc := ⟨.hbm, 16, rfl⟩
abbrev main_call0_cst : Ref sig .tc := ⟨.hbm, 17, rfl⟩
abbrev main_call0_v1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_call1_v0 : Ref sig .tc := ⟨.hbm, 50, rfl⟩
abbrev main_call1_v1 : Ref sig .tc := ⟨.hbm, 51, rfl⟩
abbrev main_call1_c : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_cst : Ref sig .tc := ⟨.hbm, 56, rfl⟩
abbrev main_call1_v5 : Ref sig .tc := ⟨.hbm, 57, rfl⟩
abbrev main_call1_call0_v0 : Ref sig .tc := ⟨.hbm, 58, rfl⟩
abbrev main_call1_v6 : Ref sig .tc := ⟨.hbm, 59, rfl⟩
abbrev main_call1_cst_0 : Ref sig .tc := ⟨.hbm, 60, rfl⟩
abbrev main_v36 : Ref sig .tc := ⟨.hbm, 61, rfl⟩
abbrev main_cst_0 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_1 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_2 : Ref sig .tc := ⟨.hbm, 76, rfl⟩
abbrev main_v49 : Ref sig .tc := ⟨.hbm, 77, rfl⟩
abbrev main_v50 : Ref sig .tc := ⟨.hbm, 78, rfl⟩
abbrev main_c_3 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_4 : Ref sig .tc := ⟨.hbm, 87, rfl⟩
abbrev main_v58 : Ref sig .tc := ⟨.hbm, 88, rfl⟩
abbrev main_v59 : Ref sig .tc := ⟨.hbm, 89, rfl⟩
abbrev main_c_5 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_6 : Ref sig .tc := ⟨.hbm, 98, rfl⟩
abbrev main_v67 : Ref sig .tc := ⟨.hbm, 99, rfl⟩
abbrev main_v68 : Ref sig .tc := ⟨.hbm, 100, rfl⟩
abbrev main_c_7 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_8 : Ref sig .tc := ⟨.hbm, 122, rfl⟩
abbrev main_v89 : Ref sig .tc := ⟨.hbm, 123, rfl⟩
abbrev main_v90 : Ref sig .tc := ⟨.hbm, 124, rfl⟩
abbrev main_cst_9 : Ref sig .tc := ⟨.hbm, 125, rfl⟩
abbrev main_v91 : Ref sig .tc := ⟨.hbm, 126, rfl⟩
abbrev main_v92 : Ref sig .tc := ⟨.hbm, 127, rfl⟩
abbrev main_cst_10 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_11 : Ref sig .tc := ⟨.hbm, 132, rfl⟩
abbrev main_v96 : Ref sig .tc := ⟨.hbm, 133, rfl⟩
abbrev main_v97 : Ref sig .tc := ⟨.hbm, 134, rfl⟩
abbrev main_cst_12 : Ref sig .tc := ⟨.hbm, 135, rfl⟩
abbrev main_v98 : Ref sig .tc := ⟨.hbm, 136, rfl⟩
abbrev main_v99 : Ref sig .tc := ⟨.hbm, 137, rfl⟩
abbrev main_cst_13 : Ref sig .tc := ⟨.hbm, 138, rfl⟩
abbrev main_call2_v0 : Ref sig .tc := ⟨.hbm, 139, rfl⟩
abbrev main_call2_v1 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩

abbrev nD : Nat := 1
abbrev τ : Topo := Topo.v7x

variable {F : FTy → Type} [FloatOps F]

class Facts₀ : Prop where
  bcast_S_S3x3 : S_.BroadcastsInDim S3x3 (![] : Fin 0 → Fin S3x3.rank)
  reducesTo_S65536x3_S65536_d1 : S65536x3.ReducesTo [1] S65536
  h_S_ : 0 < S_.numel
  bcast_S65536_S65536x1_0 : S65536.BroadcastsInDim S65536x1 (![0] : Fin 1 → Fin S65536x1.rank)
  bcast_S65536x1_S65536x3_0_1 : S65536x1.BroadcastsInDim S65536x3 (![0, 1] : Fin 2 → Fin S65536x3.rank)
  slices_S65536x3_S65536x1_0_0 : S65536x3.Slices ![0, 0] S65536x1
  shapeCasts_S65536x1_S65536 : S65536x1.ShapeCasts S65536
  slices_S65536x3_S65536x1_0_1 : S65536x3.Slices ![0, 1] S65536x1
  slices_S65536x3_S65536x1_0_2 : S65536x3.Slices ![0, 2] S65536x1
  bcast_S_S65536 : S_.BroadcastsInDim S65536 (![] : Fin 0 → Fin S65536.rank)
  concatenates_S65536x1_S65536x1_S65536x1_S65536x1_S65536x1_S65536x1_S65536x1_S65536x1_S65536x1_S65536x9_d1 : Shape.Concatenates [S65536x1, S65536x1, S65536x1, S65536x1, S65536x1, S65536x1, S65536x1, S65536x1, S65536x1] S65536x9 1
  shapeCasts_S65536x9_S65536x3x3 : S65536x9.ShapeCasts S65536x3x3
  bcast_S65536x3_S65536x3x1_0_1 : S65536x3.BroadcastsInDim S65536x3x1 (![0, 1] : Fin 2 → Fin S65536x3x1.rank)
  bcast_S65536x3_S65536x1x3_0_2 : S65536x3.BroadcastsInDim S65536x1x3 (![0, 2] : Fin 2 → Fin S65536x1x3.rank)
  bcast_S65536x3x1_S65536x3x3_0_1_2 : S65536x3x1.BroadcastsInDim S65536x3x3 (![0, 1, 2] : Fin 3 → Fin S65536x3x3.rank)
  bcast_S65536x1x3_S65536x3x3_0_1_2 : S65536x1x3.BroadcastsInDim S65536x3x3 (![0, 1, 2] : Fin 3 → Fin S65536x3x3.rank)
  bcast_S_S65536x3x3 : S_.BroadcastsInDim S65536x3x3 (![] : Fin 0 → Fin S65536x3x3.rank)
  bcast_S3x3_S65536x3x3_1_2 : S3x3.BroadcastsInDim S65536x3x3 (![1, 2] : Fin 2 → Fin S65536x3x3.rank)
  reducesTo_S65536x3x3_S65536_d1_2 : S65536x3x3.ReducesTo [1, 2] S65536
  transposes_S65536x3x3_S65536x3x3_0_2_1 : S65536x3x3.Transposes [0, 2, 1] S65536x3x3
  bcast_S65536_S65536x1x1_0 : S65536.BroadcastsInDim S65536x1x1 (![0] : Fin 1 → Fin S65536x1x1.rank)
  bcast_S3x3_S1x3x3_1_2 : S3x3.BroadcastsInDim S1x3x3 (![1, 2] : Fin 2 → Fin S1x3x3.rank)
  bcast_S65536x1x1_S65536x3x3_0_1_2 : S65536x1x1.BroadcastsInDim S65536x3x3 (![0, 1, 2] : Fin 3 → Fin S65536x3x3.rank)
  bcast_S1x3x3_S65536x3x3_0_1_2 : S1x3x3.BroadcastsInDim S65536x3x3 (![0, 1, 2] : Fin 3 → Fin S65536x3x3.rank)
  bcast_S_S5000 : S_.BroadcastsInDim S5000 (![] : Fin 0 → Fin S5000.rank)
  bcast_S5000_S5000x1_0 : S5000.BroadcastsInDim S5000x1 (![0] : Fin 1 → Fin S5000x1.rank)
  slices_S2x65536_S1x65536_0_0 : S2x65536.Slices ![0, 0] S1x65536
  shapeCasts_S1x65536_S65536 : S1x65536.ShapeCasts S65536
  slices_S2x65536_S1x65536_1_0 : S2x65536.Slices ![1, 0] S1x65536
  concatenates_S65536x64_S65536x64_S65536x128_d1 : Shape.Concatenates [S65536x64, S65536x64] S65536x128 1
  bcast_S32_S1x32_1 : S32.BroadcastsInDim S1x32 (![1] : Fin 1 → Fin S1x32.rank)
  bcast_S65536x1_S65536x32_0_1 : S65536x1.BroadcastsInDim S65536x32 (![0, 1] : Fin 2 → Fin S65536x32.rank)
  bcast_S1x32_S65536x32_0_1 : S1x32.BroadcastsInDim S65536x32 (![0, 1] : Fin 2 → Fin S65536x32.rank)
  bcast_S192_S1x192_1 : S192.BroadcastsInDim S1x192 (![1] : Fin 1 → Fin S1x192.rank)
  bcast_S1x192_S65536x192_0_1 : S1x192.BroadcastsInDim S65536x192 (![0, 1] : Fin 2 → Fin S65536x192.rank)
  bcast_S65536x1_S65536x192_0_1 : S65536x1.BroadcastsInDim S65536x192 (![0, 1] : Fin 2 → Fin S65536x192.rank)
  shapeCasts_S65536x64_S1x65536x1x64 : S65536x64.ShapeCasts S1x65536x1x64
  bcast_S1x65536x1x64_S1x65536x3x64_0_1_2_3 : S1x65536x1x64.BroadcastsInDim S1x65536x3x64 (![0, 1, 2, 3] : Fin 4 → Fin S1x65536x3x64.rank)
  shapeCasts_S1x65536x3x64_S65536x192 : S1x65536x3x64.ShapeCasts S65536x192
  slices_S65536x192_S65536x64_0_0 : S65536x192.Slices ![0, 0] S65536x64
  slices_S65536x192_S65536x64_0_64 : S65536x192.Slices ![0, 64] S65536x64
  slices_S65536x192_S65536x64_0_128 : S65536x192.Slices ![0, 128] S65536x64
  bcast_S65536x64_S65536x64x1x1_0_1 : S65536x64.BroadcastsInDim S65536x64x1x1 (![0, 1] : Fin 2 → Fin S65536x64x1x1.rank)
  bcast_S3x3_S1x1x3x3_2_3 : S3x3.BroadcastsInDim S1x1x3x3 (![2, 3] : Fin 2 → Fin S1x1x3x3.rank)
  bcast_S65536x64x1x1_S65536x64x3x3_0_1_2_3 : S65536x64x1x1.BroadcastsInDim S65536x64x3x3 (![0, 1, 2, 3] : Fin 4 → Fin S65536x64x3x3.rank)
  bcast_S1x1x3x3_S65536x64x3x3_0_1_2_3 : S1x1x3x3.BroadcastsInDim S65536x64x3x3 (![0, 1, 2, 3] : Fin 4 → Fin S65536x64x3x3.rank)
  bcast_S65536x3x3_S65536x1x3x3_0_2_3 : S65536x3x3.BroadcastsInDim S65536x1x3x3 (![0, 2, 3] : Fin 3 → Fin S65536x1x3x3.rank)
  bcast_S65536x1x3x3_S65536x64x3x3_0_1_2_3 : S65536x1x3x3.BroadcastsInDim S65536x64x3x3 (![0, 1, 2, 3] : Fin 4 → Fin S65536x64x3x3.rank)
  gather_S119x64_S5000x1_S5000x64_1_0_n_n_0_1_164_wf : GatherDims.WF S119x64 S5000x1 S5000x64 [1] [0] [] [0] [] 1 ![1, 64]
  gather_S5000x64_S65536x1_S65536x64_1_0_n_n_0_1_164_wf : GatherDims.WF S5000x64 S65536x1 S65536x64 [1] [0] [] [0] [] 1 ![1, 64]
  dot_S65536x128_S128x64_S65536x64_1_0_0_1_n_n_wf : DotDims.WF S65536x128 S128x64 S65536x64 [1] [0] [0] [1] [] []
  dot_S65536x32_S32x192_S65536x192_1_0_0_1_n_n_wf : DotDims.WF S65536x32 S32x192 S65536x192 [1] [0] [0] [1] [] []

variable [Facts₀]

def gather_S119x64_S5000x1_S5000x64_1_0_n_n_0_1_164 : GatherDims S119x64 S5000x1 S5000x64 where
  offsetDims := [1]
  collapsedSliceDims := [0]
  operandBatchingDims := []
  startIndicesBatchingDims := []
  startIndexMap := [0]
  indexVectorDim := 1
  sliceSizes := ![1, 64]
  wf := gather_S119x64_S5000x1_S5000x64_1_0_n_n_0_1_164_wf
def gather_S5000x64_S65536x1_S65536x64_1_0_n_n_0_1_164 : GatherDims S5000x64 S65536x1 S65536x64 where
  offsetDims := [1]
  collapsedSliceDims := [0]
  operandBatchingDims := []
  startIndicesBatchingDims := []
  startIndexMap := [0]
  indexVectorDim := 1
  sliceSizes := ![1, 64]
  wf := gather_S5000x64_S65536x1_S65536x64_1_0_n_n_0_1_164_wf
def dot_S65536x128_S128x64_S65536x64_1_0_0_1_n_n : DotDims S65536x128 S128x64 S65536x64 where
  lhsContracting := [1]
  rhsContracting := [0]
  lhsNonContracting := [0]
  rhsNonContracting := [1]
  lhsBatch := []
  rhsBatch := []
  wf := dot_S65536x128_S128x64_S65536x64_1_0_0_1_n_n_wf
def dot_S65536x32_S32x192_S65536x192_1_0_0_1_n_n : DotDims S65536x32 S32x192 S65536x192 where
  lhsContracting := [1]
  rhsContracting := [0]
  lhsNonContracting := [0]
  rhsNonContracting := [1]
  lhsBatch := []
  rhsBatch := []
  wf := dot_S65536x32_S32x192_S65536x192_1_0_0_1_n_n_wf

class Facts : Prop extends Facts₀ where

variable [Facts]
-- ==== Proof.Spec.lean ====
/-
  One edge's tensor embedding, as both programs compute it.

  For an edge with displacement `v : Fin 3 → EReal`, the unit direction is `d = v / |v|` with
  `|v| = √(v₀² + v₁² + v₂²)`.  From `d` come two 3×3 matrices, read row-major as nine entries `q = 3·i + j`:
  the skew matrix `[[0, -d₂, d₁], [d₂, 0, -d₀], [-d₁, d₀, 0]]` and the traceless symmetric matrix
  `d dᵀ - (tr (d dᵀ) / 3) · I`.  A radial basis `exp (-βₖ · (e^{-|v|} - μₖ)²)` is sent through a dense layer
  `Wr, br` and damped by the cosine cutoff `½ (cos (π |v| / 5) + 1)` inside radius 5 (zero outside); the edge's
  pair embedding `h` is sent through `Wz`.  The three outputs are, channel by channel, the product of the two
  dense results times the identity, the skew matrix and the symmetric matrix.

  Everything is stated on the extended reals with the float literals kept as the words both programs print;
  nothing here needs the arguments to be finite.  The one law proved is that the symmetric matrix written as
  `½ (M + Mᵀ) - t · I` is the matrix written entry by entry.
-/
import Idealize.ShloMosaic.PureOps.Ideal
import Idealize.ShloMosaic.PureOps.Ideal.Laws
import Idealize.ShloMosaic.Lib.ValueIdx

noncomputable section

namespace Cert.EdgeSpec

open Idealize.ShloMosaic

/-- The float literals of the two programs, as the extended reals their words denote. -/
abbrev three : EReal := Ideal.ofBits .f32 0x40400000#32
abbrev five : EReal := Ideal.ofBits .f32 0x40A00000#32
abbrev piW : EReal := Ideal.ofBits .f32 0x40490FDB#32
abbrev one : EReal := Ideal.ofBits .f32 0x3F800000#32
abbrev half : EReal := Ideal.ofBits .f32 0x3F000000#32

section Geometry
variable (v : Fin 3 → EReal)

/-- The edge's length: the square root of the sum of the squared coordinates. -/
def len : EReal := Ideal.sqrt (∑ k : Fin 3, v k * v k)

/-- The unit direction's coordinate `k`. -/
def dir (k : Fin 3) : EReal := Ideal.div (v k) (len v)

/-- A third of the trace of `d dᵀ`. -/
def tr3 : EReal := Ideal.div (dir v 0 * dir v 0 + dir v 1 * dir v 1 + dir v 2 * dir v 2) three

/-- The skew matrix of the direction, row-major. -/
def skew (q : Fin 9) : EReal :=
  ![0, -(dir v 2), dir v 1, dir v 2, 0, -(dir v 0), -(dir v 1), dir v 0, 0] q

/-- The traceless symmetric matrix of the direction, row-major, entry by entry. -/
def sym (q : Fin 9) : EReal :=
  ![dir v 0 * dir v 0 - tr3 v, dir v 0 * dir v 1, dir v 0 * dir v 2,
    dir v 0 * dir v 1, dir v 1 * dir v 1 - tr3 v, dir v 1 * dir v 2,
    dir v 0 * dir v 2, dir v 1 * dir v 2, dir v 2 * dir v 2 - tr3 v] q

/-- The cosine cutoff at radius five. -/
def envelope : EReal :=
  Scalar.select (Ideal.cmp .olt (len v) five) (half * (Ideal.cos (Ideal.div (piW * len v) five) + one)) 0

/-- The radial basis function `k`. -/
def radial (beta mu : Fin 32 → EReal) (k : Fin 32) : EReal :=
  Ideal.exp (-(beta k) * ((Ideal.exp (-(len v)) - mu k) * (Ideal.exp (-(len v)) - mu k)))

/-- The dense layer over the radial basis, damped by the cutoff. -/
def dense (Wr : Fin 32 → Fin 192 → EReal) (br : Fin 192 → EReal) (beta mu : Fin 32 → EReal) (j : Fin 192) : EReal :=
  (∑ k : Fin 32, radial v beta mu k * Wr k j + br j) * envelope v

end Geometry

/-- The identity matrix, row-major. -/
def eye (q : Fin 9) : EReal := if q.val / 3 = q.val % 3 then 1 else 0

/-- The pair embedding sent through `Wz`. -/
def species (h : Fin 128 → EReal) (Wz : Fin 128 → Fin 64 → EReal) (c : Fin 64) : EReal :=
  ∑ k : Fin 128, h k * Wz k c

/-- Channel `c` of the third `s` of the dense result, times the species channel. -/
def coef (v : Fin 3 → EReal) (h : Fin 128 → EReal) (Wz : Fin 128 → Fin 64 → EReal) (Wr : Fin 32 → Fin 192 → EReal)
    (br : Fin 192 → EReal) (beta mu : Fin 32 → EReal) (s : Fin 3) (c : Fin 64) : EReal :=
  dense v Wr br beta mu ⟨64 * s.val + c.val, by have := s.isLt; have := c.isLt; omega⟩ * species h Wz c

/-- The three outputs at one edge, channel `c`, matrix entry `q`. -/
def outI (v : Fin 3 → EReal) (h : Fin 128 → EReal) (Wz : Fin 128 → Fin 64 → EReal) (Wr : Fin 32 → Fin 192 → EReal)
    (br : Fin 192 → EReal) (beta mu : Fin 32 → EReal) (c : Fin 64) (q : Fin 9) : EReal :=
  coef v h Wz Wr br beta mu 0 c * eye q
def outA (v : Fin 3 → EReal) (h : Fin 128 → EReal) (Wz : Fin 128 → Fin 64 → EReal) (Wr : Fin 32 → Fin 192 → EReal)
    (br : Fin 192 → EReal) (beta mu : Fin 32 → EReal) (c : Fin 64) (q : Fin 9) : EReal :=
  coef v h Wz Wr br beta mu 1 c * skew v q
def outS (v : Fin 3 → EReal) (h : Fin 128 → EReal) (Wz : Fin 128 → Fin 64 → EReal) (Wr : Fin 32 → Fin 192 → EReal)
    (br : Fin 192 → EReal) (beta mu : Fin 32 → EReal) (c : Fin 64) (q : Fin 9) : EReal :=
  coef v h Wz Wr br beta mu 2 c * sym v q

/-- The row-major entry of a 3×3 index. -/
def q9 (i j : Fin 3) : Fin 9 := ⟨3 * i.val + j.val, by have := i.isLt; have := j.isLt; omega⟩

/-! ## The law: `½ (M + Mᵀ) - t · I` is the matrix entry by entry -/

/-- The word `0x3F000000` is one half. -/
theorem half_val : half = ((1 / 2 : ℝ) : EReal) := by
  simp [half, Ideal.ofBits, Ideal.ieee, -EReal.coe_mul]; norm_num

/-- Half of a doubled extended real is that extended real, at the infinities too. -/
theorem half_mul_add_self (a : EReal) : half * (a + a) = a := by
  rw [half_val]
  induction a using EReal.rec with
  | bot => rw [EReal.bot_add]; exact EReal.coe_mul_bot_of_pos (by norm_num)
  | top => rw [EReal.top_add_top]; exact EReal.coe_mul_top_of_pos (by norm_num)
  | coe r => rw [← EReal.coe_add, ← EReal.coe_mul]; congr 1; ring

/-- The diagonal of a 3×3 family, summed over all nine entries with the off-diagonal ones replaced by zero. -/
theorem sum_diag (M : Fin 3 → Fin 3 → EReal) :
    ∑ i : Fin 3, ∑ j : Fin 3, (if i = j then M i j else 0) = M 0 0 + M 1 1 + M 2 2 := by
  simp [Fin.sum_univ_three]

/-- The symmetric matrix as `½ (d dᵀ + (d dᵀ)ᵀ) - t · I` is the matrix entry by entry, whatever extended reals
    the direction's coordinates are: halving a doubled product gives it back, `t · 0 = 0`, `t · 1 = t`. -/
theorem sym_of_halves (v : Fin 3 → EReal) (i j : Fin 3) (δ t : EReal) (hδ : δ = if i = j then 1 else 0)
    (ht : t = tr3 v) :
    half * (dir v i * dir v j + dir v j * dir v i) - t * δ = sym v (q9 i j) := by
  subst hδ ht
  rw [mul_comm (dir v j) (dir v i), half_mul_add_self]
  fin_cases i <;> fin_cases j <;>
    simp [sym, q9] <;> exact mul_comm _ _

end Cert.EdgeSpec

end
-- ==== Proof.RefStages.lean ====
/-
  The reference's value, stage by stage: each definition is a stretch of the reference's host operations
  composed into one term of the argument arrays, in the operations' own spelling.  The unit direction
  `v / |v|`, its skew matrix and outer product, the trace through the masked sum, the traceless symmetric
  matrix as `½ (M + Mᵀ) - (tr M / 3) · I`, the pair embedding gathered from the species table, the radial
  basis, the cosine cutoff, the dense layer, and the three products that are the results.
-/
import proofs.«124262_j40570261078234_1_alg».proof.ReferenceIdeal

noncomputable section

namespace Cert.ReferenceIdeal.Stage

open Idealize.ShloMosaic Cert.ReferenceIdeal Cert.ReferenceIdeal.Facts₀

variable {F : FTy → Type} [FloatOps F] [Facts]

/-- The contents of a host tensor of shape `S` and element type `e`. -/
abbrev C (F : FTy → Type) (S : Shape) (e : EltTy) : Type := (⟨S, e⟩ : BufTy).Contents (Elt F)

/-- Where the row index equals the column index, as bits. -/
def eyeMask : C F S3x3 .i1 :=
  cmpi .eq (addi (iotaInDim S3x3 32 0) (broadcastInDim S3x3 ![] bcast_S_S3x3 (constantI S_ 32 0#32))) (iotaInDim S3x3 32 1)

/-- The 3×3 identity. -/
def eye3 : C F S3x3 .f32 := uitofp .f32 (eyeMask (F := F))

/-- A float literal splat over the edges. -/
def splat (b : BitVec 32) : C F S65536 .f32 := broadcastInDim S65536 ![] bcast_S_S65536 (constant S_ .f32 b)

/-- The edges' lengths. -/
def norm (a0 : C F S65536x3 .f32) : C F S65536 .f32 :=
  Host.sqrt (Host.reduceAdd (mulf a0 a0) (constant S_ .f32 0x00000000#32) reducesTo_S65536x3_S65536_d1 h_S_)

/-- A per-edge value as a column. -/
def colB {e : EltTy} (x : C F S65536 e) : C F S65536x1 e := broadcastInDim S65536x1 ![0] bcast_S65536_S65536x1_0 x

/-- The unit directions. -/
def unit (a0 : C F S65536x3 .f32) : C F S65536x3 .f32 :=
  Host.divf a0 (broadcastInDim S65536x3 ![0, 1] bcast_S65536x1_S65536x3_0_1 (colB (norm a0)))

/-- The directions' three coordinates, each over the edges. -/
def col0 (a0 : C F S65536x3 .f32) : C F S65536 .f32 :=
  shapeCast S65536 (extractStridedSlice S65536x1 ![0, 0] (unit a0) slices_S65536x3_S65536x1_0_0) shapeCasts_S65536x1_S65536
def col1 (a0 : C F S65536x3 .f32) : C F S65536 .f32 :=
  shapeCast S65536 (extractStridedSlice S65536x1 ![0, 1] (unit a0) slices_S65536x3_S65536x1_0_1) shapeCasts_S65536x1_S65536
def col2 (a0 : C F S65536x3 .f32) : C F S65536 .f32 :=
  shapeCast S65536 (extractStridedSlice S65536x1 ![0, 2] (unit a0) slices_S65536x3_S65536x1_0_2) shapeCasts_S65536x1_S65536

/-- The skew matrices, nine columns joined and cut into 3×3. -/
def skew3 (a0 : C F S65536x3 .f32) : C F S65536x3x3 .f32 :=
  shapeCast S65536x3x3
    (concatenate S65536x9 1
      [⟨S65536x1, colB (splat 0x00000000#32)⟩, ⟨S65536x1, colB (Host.negf (col2 a0))⟩, ⟨S65536x1, colB (col1 a0)⟩,
       ⟨S65536x1, colB (col2 a0)⟩, ⟨S65536x1, colB (splat 0x00000000#32)⟩, ⟨S65536x1, colB (Host.negf (col0 a0))⟩,
       ⟨S65536x1, colB (Host.negf (col1 a0))⟩, ⟨S65536x1, colB (col0 a0)⟩, ⟨S65536x1, colB (splat 0x00000000#32)⟩]
      concatenates_S65536x1_S65536x1_S65536x1_S65536x1_S65536x1_S65536x1_S65536x1_S65536x1_S65536x1_S65536x9_d1)
    shapeCasts_S65536x9_S65536x3x3

/-- The outer products `d dᵀ`. -/
def outer (a0 : C F S65536x3 .f32) : C F S65536x3x3 .f32 :=
  mulf
    (broadcastInDim S65536x3x3 ![0, 1, 2] bcast_S65536x3x1_S65536x3x3_0_1_2
      (broadcastInDim S65536x3x1 ![0, 1] bcast_S65536x3_S65536x3x1_0_1 (unit a0)))
    (broadcastInDim S65536x3x3 ![0, 1, 2] bcast_S65536x1x3_S65536x3x3_0_1_2
      (broadcastInDim S65536x1x3 ![0, 2] bcast_S65536x3_S65536x1x3_0_2 (unit a0)))

/-- The traces: the diagonal kept, the rest zeroed, all nine entries summed. -/
def trace (a0 : C F S65536x3 .f32) : C F S65536 .f32 :=
  Host.reduceAdd
    (select (broadcastInDim S65536x3x3 ![1, 2] bcast_S3x3_S65536x3x3_1_2 (eyeMask (F := F))) (outer a0)
      (broadcastInDim S65536x3x3 ![] bcast_S_S65536x3x3 (constant S_ .f32 0x00000000#32)))
    (constant S_ .f32 0x00000000#32) reducesTo_S65536x3x3_S65536_d1_2 h_S_

/-- A third of the traces. -/
def third (a0 : C F S65536x3 .f32) : C F S65536 .f32 := Host.divf (trace a0) (splat 0x40400000#32)

/-- The traceless symmetric matrices as `½ (M + Mᵀ) - (tr M / 3) · I`. -/
def symm3 (a0 : C F S65536x3 .f32) : C F S65536x3x3 .f32 :=
  subf
    (mulf (broadcastInDim S65536x3x3 ![] bcast_S_S65536x3x3 (constant S_ .f32 0x3F000000#32))
      (addf (outer a0) (transpose S65536x3x3 [0, 2, 1] (outer a0) transposes_S65536x3x3_S65536x3x3_0_2_1)))
    (mulf
      (broadcastInDim S65536x3x3 ![0, 1, 2] bcast_S65536x1x1_S65536x3x3_0_1_2
        (broadcastInDim S65536x1x1 ![0] bcast_S65536_S65536x1x1_0 (third a0)))
      (broadcastInDim S65536x3x3 ![0, 1, 2] bcast_S1x3x3_S65536x3x3_0_1_2
        (broadcastInDim S1x3x3 ![1, 2] bcast_S3x3_S1x3x3_1_2 (eye3 (F := F)))))

/-- The atoms' species rows: the table gathered at the species numbers (a negative number counted from the end). -/
def atoms (a3 : C F S119x64 .f32) (a1 : C F S5000 .i32) : C F S5000x64 .f32 :=
  Host.gather gather_S119x64_S5000x1_S5000x64_1_0_n_n_0_1_164 a3
    (broadcastInDim S5000x1 ![0] bcast_S5000_S5000x1_0
      (select (cmpi .slt a1 (broadcastInDim S5000 ![] bcast_S_S5000 (constantI S_ 32 0#32)))
        (addi a1 (broadcastInDim S5000 ![] bcast_S_S5000 (constantI S_ 32 119#32))) a1))

/-- One end's atom numbers over the edges, as gather indices (a negative number counted from the end). -/
def endIdx (r : C F S65536 .i32) : C F S65536x1 .i32 :=
  colB (select (cmpi .slt r (broadcastInDim S65536 ![] bcast_S_S65536 (constantI S_ 32 0#32)))
    (addi r (broadcastInDim S65536 ![] bcast_S_S65536 (constantI S_ 32 5000#32))) r)

/-- The edges' pair embeddings: the two ends' species rows side by side. -/
def pairEmbed (a3 : C F S119x64 .f32) (a1 : C F S5000 .i32) (a2 : C F S2x65536 .i32) : C F S65536x128 .f32 :=
  concatenate S65536x128 1
    [⟨S65536x64, Host.gather gather_S5000x64_S65536x1_S65536x64_1_0_n_n_0_1_164 (atoms a3 a1)
        (endIdx (shapeCast S65536 (extractStridedSlice S1x65536 ![0, 0] a2 slices_S2x65536_S1x65536_0_0) shapeCasts_S1x65536_S65536))⟩,
     ⟨S65536x64, Host.gather gather_S5000x64_S65536x1_S65536x64_1_0_n_n_0_1_164 (atoms a3 a1)
        (endIdx (shapeCast S65536 (extractStridedSlice S1x65536 ![1, 0] a2 slices_S2x65536_S1x65536_1_0) shapeCasts_S1x65536_S65536))⟩]
    concatenates_S65536x64_S65536x64_S65536x128_d1

/-- The pair embeddings through `Wz`. -/
def species (hE : C F S65536x128 .f32) (a4 : C F S128x64 .f32) : C F S65536x64 .f32 :=
  Host.dotGeneral dot_S65536x128_S128x64_S65536x64_1_0_0_1_n_n none hE a4

/-- A row of 32 over every edge. -/
def row32 (x : C F S32 .f32) : C F S65536x32 .f32 :=
  broadcastInDim S65536x32 ![0, 1] bcast_S1x32_S65536x32_0_1 (broadcastInDim S1x32 ![1] bcast_S32_S1x32_1 x)

/-- `e^{-|v|} - μ`. -/
def gap (a0 : C F S65536x3 .f32) (a8 : C F S32 .f32) : C F S65536x32 .f32 :=
  subf (broadcastInDim S65536x32 ![0, 1] bcast_S65536x1_S65536x32_0_1 (colB (Host.exp (Host.negf (norm a0))))) (row32 a8)

/-- The radial basis. -/
def rbf (a0 : C F S65536x3 .f32) (a7 a8 : C F S32 .f32) : C F S65536x32 .f32 :=
  Host.exp (mulf (row32 (Host.negf a7)) (mulf (gap a0 a8) (gap a0 a8)))

/-- The cosine cutoff. -/
def env (a0 : C F S65536x3 .f32) : C F S65536 .f32 :=
  select (cmpf .olt (norm a0) (splat 0x40A00000#32))
    (mulf (splat 0x3F000000#32)
      (addf (Host.cos (Host.divf (mulf (splat 0x40490FDB#32) (norm a0)) (splat 0x40A00000#32))) (splat 0x3F800000#32)))
    (broadcastInDim S65536 ![] bcast_S_S65536 (id (constant S_ .f32 0x00000000#32)))

/-- The dense layer over the radial basis, damped by the cutoff. -/
def dense (a0 : C F S65536x3 .f32) (a5 : C F S32x192 .f32) (a6 : C F S192 .f32) (a7 a8 : C F S32 .f32) : C F S65536x192 .f32 :=
  mulf
    (addf (Host.dotGeneral dot_S65536x32_S32x192_S65536x192_1_0_0_1_n_n none (rbf a0 a7 a8) a5)
      (broadcastInDim S65536x192 ![0, 1] bcast_S1x192_S65536x192_0_1 (broadcastInDim S1x192 ![1] bcast_S192_S1x192_1 a6)))
    (broadcastInDim S65536x192 ![0, 1] bcast_S65536x1_S65536x192_0_1 (colB (env a0)))

/-- 64 channels repeated three times along the row. -/
def tiled (z : C F S65536x64 .f32) : C F S65536x192 .f32 :=
  shapeCast S65536x192
    (broadcastInDim S1x65536x3x64 ![0, 1, 2, 3] bcast_S1x65536x1x64_S1x65536x3x64_0_1_2_3
      (shapeCast S1x65536x1x64 z shapeCasts_S65536x64_S1x65536x1x64))
    shapeCasts_S1x65536x3x64_S65536x192

/-- The 192 coefficients of every edge. -/
def coefAll (a0 : C F S65536x3 .f32) (hE : C F S65536x128 .f32) (a4 : C F S128x64 .f32) (a5 : C F S32x192 .f32)
    (a6 : C F S192 .f32) (a7 a8 : C F S32 .f32) : C F S65536x192 .f32 :=
  mulf (dense a0 a5 a6 a7 a8) (tiled (species hE a4))

/-- A per-edge, per-channel value over the 3×3 entries. -/
def lift (x : C F S65536x64 .f32) : C F S65536x64x3x3 .f32 :=
  broadcastInDim S65536x64x3x3 ![0, 1, 2, 3] bcast_S65536x64x1x1_S65536x64x3x3_0_1_2_3
    (broadcastInDim S65536x64x1x1 ![0, 1] bcast_S65536x64_S65536x64x1x1_0_1 x)

/-- A per-edge 3×3 matrix over the channels. -/
def spread (M : C F S65536x3x3 .f32) : C F S65536x64x3x3 .f32 :=
  broadcastInDim S65536x64x3x3 ![0, 1, 2, 3] bcast_S65536x1x3x3_S65536x64x3x3_0_1_2_3
    (broadcastInDim S65536x1x3x3 ![0, 2, 3] bcast_S65536x3x3_S65536x1x3x3_0_2_3 M)

/-- The three results. -/
def outI (a0 : C F S65536x3 .f32) (hE : C F S65536x128 .f32) (a4 : C F S128x64 .f32) (a5 : C F S32x192 .f32)
    (a6 : C F S192 .f32) (a7 a8 : C F S32 .f32) : C F S65536x64x3x3 .f32 :=
  mulf (lift (extractStridedSlice S65536x64 ![0, 0] (coefAll a0 hE a4 a5 a6 a7 a8) slices_S65536x192_S65536x64_0_0))
    (broadcastInDim S65536x64x3x3 ![0, 1, 2, 3] bcast_S1x1x3x3_S65536x64x3x3_0_1_2_3
      (broadcastInDim S1x1x3x3 ![2, 3] bcast_S3x3_S1x1x3x3_2_3 (eye3 (F := F))))
def outA (a0 : C F S65536x3 .f32) (hE : C F S65536x128 .f32) (a4 : C F S128x64 .f32) (a5 : C F S32x192 .f32)
    (a6 : C F S192 .f32) (a7 a8 : C F S32 .f32) : C F S65536x64x3x3 .f32 :=
  mulf (lift (extractStridedSlice S65536x64 ![0, 64] (coefAll a0 hE a4 a5 a6 a7 a8) slices_S65536x192_S65536x64_0_64))
    (spread (skew3 a0))
def outS (a0 : C F S65536x3 .f32) (hE : C F S65536x128 .f32) (a4 : C F S128x64 .f32) (a5 : C F S32x192 .f32)
    (a6 : C F S192 .f32) (a7 a8 : C F S32 .f32) : C F S65536x64x3x3 .f32 :=
  mulf (lift (extractStridedSlice S65536x64 ![0, 128] (coefAll a0 hE a4 a5 a6 a7 a8) slices_S65536x192_S65536x64_0_128))
    (spread (symm3 a0))

end Cert.ReferenceIdeal.Stage

end
-- ==== Proof.RefOps.lean ====
/-
  The reference program as one straight line.  Its entry function is printed in three windows and calls three
  local functions (the length of a vector, the trace of a 3×3 matrix through a masked sum, and a guarded choice
  between a value and a constant); unfolding the windows and the calls gives a single list of 162 host operations,
  each writing one buffer from the contents of earlier ones.  Running the program is folding that list over the
  buffers' contents.
-/
import proofs.«124262_j40570261078234_1_alg».proof.ReferenceIdeal
import Idealize.ShloMosaic.Lib.StableHlo.Run

noncomputable section

namespace Cert.ReferenceIdeal.EdgeRun

open Cert.ReferenceIdeal Cert.ReferenceIdeal.Facts₀ Idealize.ShloMosaic Idealize.ShloMosaic.TcCoe Idealize.SL.Sem Idealize.ShloMosaic.StableHlo

variable {F : FTy → Type} [FloatOps F] [Facts]

/-- The program's host operations in order, each call's body listed at the call over that call's buffers:
    the length of the edge vector (four), the trace through the masked sum (twelve), the guarded cutoff (three),
    and around them the 144 operations of the entry function itself. -/
abbrev ops : List (HloOp τ sig (Elt F)) :=
  [ nullary main_v0 (iotaInDim S3x3 32 0),
    nullary main_v1 (iotaInDim S3x3 32 1),
    nullary main_c (constantI S_ 32 0#32),
    unary main_c main_v2 (broadcastInDim S3x3 ![] bcast_S_S3x3 : (⟨S_, .i32⟩ : BufTy).Contents (Elt F) → (⟨S3x3, .i32⟩ : BufTy).Contents (Elt F)),
    binary main_v0 main_v2 main_v3 (addi : (⟨S3x3, .i32⟩ : BufTy).Contents (Elt F) → (⟨S3x3, .i32⟩ : BufTy).Contents (Elt F) → (⟨S3x3, .i32⟩ : BufTy).Contents (Elt F)),
    binary main_v3 main_v1 main_v4 (cmpi .eq : (⟨S3x3, .i32⟩ : BufTy).Contents (Elt F) → (⟨S3x3, .i32⟩ : BufTy).Contents (Elt F) → (⟨S3x3, .i1⟩ : BufTy).Contents (Elt F)),
    unary main_v4 main_v5 (uitofp .f32 : (⟨S3x3, .i1⟩ : BufTy).Contents (Elt F) → (⟨S3x3, .f32⟩ : BufTy).Contents (Elt F)),
    TRef.binary (.of main_arg0) (.of main_arg0) main_call0.v0 mulf,
    TRef.nullary main_call0.cst (constant S_ .f32 0x00000000#32),
    TRef.binary main_call0.v0 main_call0.cst main_call0.v1 (fun x v => Host.reduceAdd x v reducesTo_S65536x3_S65536_d1 h_S_),
    TRef.unary main_call0.v1 main_call0.v2 Host.sqrt,
    unary main_v6 main_v7 (broadcastInDim S65536x1 ![0] bcast_S65536_S65536x1_0 : (⟨S65536, .f32⟩ : BufTy).Contents (Elt F) → (⟨S65536x1, .f32⟩ : BufTy).Contents (Elt F)),
    unary main_v7 main_v8 (broadcastInDim S65536x3 ![0, 1] bcast_S65536x1_S65536x3_0_1 : (⟨S65536x1, .f32⟩ : BufTy).Contents (Elt F) → (⟨S65536x3, .f32⟩ : BufTy).Contents (Elt F)),
    binary main_arg0 main_v8 main_v9 (Host.divf : (⟨S65536x3, .f32⟩ : BufTy).Contents (Elt F) → (⟨S65536x3, .f32⟩ : BufTy).Contents (Elt F) → (⟨S65536x3, .f32⟩ : BufTy).Contents (Elt F)),
    unary main_v9 main_v10 ((extractStridedSlice S65536x1 ![0, 0] · slices_S65536x3_S65536x1_0_0) : (⟨S65536x3, .f32⟩ : BufTy).Contents (Elt F) → (⟨S65536x1, .f32⟩ : BufTy).Contents (Elt F)),
    reshape main_v10 main_v11 rfl shapeCasts_S65536x1_S65536,
    unary main_v9 main_v12 ((extractStridedSlice S65536x1 ![0, 1] · slices_S65536x3_S65536x1_0_1) : (⟨S65536x3, .f32⟩ : BufTy).Contents (Elt F) → (⟨S65536x1, .f32⟩ : BufTy).Contents (Elt F)),
    reshape main_v12 main_v13 rfl shapeCasts_S65536x1_S65536,
    unary main_v9 main_v14 ((extractStridedSlice S65536x1 ![0, 2] · slices_S65536x3_S65536x1_0_2) : (⟨S65536x3, .f32⟩ : BufTy).Contents (Elt F) → (⟨S65536x1, .f32⟩ : BufTy).Contents (Elt F)),
    reshape main_v14 main_v15 rfl shapeCasts_S65536x1_S65536,
    nullary main_cst (constant S_ .f32 0x00000000#32),
    unary main_cst main_v16 (broadcastInDim S65536 ![] bcast_S_S65536 : (⟨S_, .f32⟩ : BufTy).Contents (Elt F) → (⟨S65536, .f32⟩ : BufTy).Contents (Elt F)),
    unary main_v15 main_v17 (Host.negf : (⟨S65536, .f32⟩ : BufTy).Contents (Elt F) → (⟨S65536, .f32⟩ : BufTy).Contents (Elt F)),
    unary main_v11 main_v18 (Host.negf : (⟨S65536, .f32⟩ : BufTy).Contents (Elt F) → (⟨S65536, .f32⟩ : BufTy).Contents (Elt F)),
    unary main_v13 main_v19 (Host.negf : (⟨S65536, .f32⟩ : BufTy).Contents (Elt F) → (⟨S65536, .f32⟩ : BufTy).Contents (Elt F)),
    unary main_v16 main_v20 (broadcastInDim S65536x1 ![0] bcast_S65536_S65536x1_0 : (⟨S65536, .f32⟩ : BufTy).Contents (Elt F) → (⟨S65536x1, .f32⟩ : BufTy).Contents (Elt F)),
    unary main_v17 main_v21 (broadcastInDim S65536x1 ![0] bcast_S65536_S65536x1_0 : (⟨S65536, .f32⟩ : BufTy).Contents (Elt F) → (⟨S65536x1, .f32⟩ : BufTy).Contents (Elt F)),
    unary main_v13 main_v22 (broadcastInDim S65536x1 ![0] bcast_S65536_S65536x1_0 : (⟨S65536, .f32⟩ : BufTy).Contents (Elt F) → (⟨S65536x1, .f32⟩ : BufTy).Contents (Elt F)),
    unary main_v15 main_v23 (broadcastInDim S65536x1 ![0] bcast_S65536_S65536x1_0 : (⟨S65536, .f32⟩ : BufTy).Contents (Elt F) → (⟨S65536x1, .f32⟩ : BufTy).Contents (Elt F)),
    unary main_v16 main_v24 (broadcastInDim S65536x1 ![0] bcast_S65536_S65536x1_0 : (⟨S65536, .f32⟩ : BufTy).Contents (Elt F) → (⟨S65536x1, .f32⟩ : BufTy).Contents (Elt F)),
    unary main_v18 main_v25 (broadcastInDim S65536x1 ![0] bcast_S65536_S65536x1_0 : (⟨S65536, .f32⟩ : BufTy).Contents (Elt F) → (⟨S65536x1, .f32⟩ : BufTy).Contents (Elt F)),
    unary main_v19 main_v26 (broadcastInDim S65536x1 ![0] bcast_S65536_S65536x1_0 : (⟨S65536, .f32⟩ : BufTy).Contents (Elt F) → (⟨S65536x1, .f32⟩ : BufTy).Contents (Elt F)),
    unary main_v11 main_v27 (broadcastInDim S65536x1 ![0] bcast_S65536_S65536x1_0 : (⟨S65536, .f32⟩ : BufTy).Contents (Elt F) → (⟨S65536x1, .f32⟩ : BufTy).Contents (Elt F)),
    unary main_v16 main_v28 (broadcastInDim S65536x1 ![0] bcast_S65536_S65536x1_0 : (⟨S65536, .f32⟩ : BufTy).Contents (Elt F) → (⟨S65536x1, .f32⟩ : BufTy).Contents (Elt F)),
    nary ![main_v20, main_v21, main_v22, main_v23, main_v24, main_v25, main_v26, main_v27, main_v28] main_v29 (fun u => concatenate S65536x9 1 [⟨S65536x1, u 0⟩, ⟨S65536x1, u 1⟩, ⟨S65536x1, u 2⟩, ⟨S65536x1, u 3⟩, ⟨S65536x1, u 4⟩, ⟨S65536x1, u 5⟩, ⟨S65536x1, u 6⟩, ⟨S65536x1, u 7⟩, ⟨S65536x1, u 8⟩] concatenates_S65536x1_S65536x1_S65536x1_S65536x1_S65536x1_S65536x1_S65536x1_S65536x1_S65536x1_S65536x9_d1),
    reshape main_v29 main_v30 rfl shapeCasts_S65536x9_S65536x3x3,
    unary main_v9 main_v31 (broadcastInDim S65536x3x1 ![0, 1] bcast_S65536x3_S65536x3x1_0_1 : (⟨S65536x3, .f32⟩ : BufTy).Contents (Elt F) → (⟨S65536x3x1, .f32⟩ : BufTy).Contents (Elt F)),
    unary main_v9 main_v32 (broadcastInDim S65536x1x3 ![0, 2] bcast_S65536x3_S65536x1x3_0_2 : (⟨S65536x3, .f32⟩ : BufTy).Contents (Elt F) → (⟨S65536x1x3, .f32⟩ : BufTy).Contents (Elt F)),
    unary main_v31 main_v33 (broadcastInDim S65536x3x3 ![0, 1, 2] bcast_S65536x3x1_S65536x3x3_0_1_2 : (⟨S65536x3x1, .f32⟩ : BufTy).Contents (Elt F) → (⟨S65536x3x3, .f32⟩ : BufTy).Contents (Elt F)),
    unary main_v32 main_v34 (broadcastInDim S65536x3x3 ![0, 1, 2] bcast_S65536x1x3_S65536x3x3_0_1_2 : (⟨S65536x1x3, .f32⟩ : BufTy).Contents (Elt F) → (⟨S65536x3x3, .f32⟩ : BufTy).Contents (Elt F)),
    binary main_v33 main_v34 main_v35 (mulf : (⟨S65536x3x3, .f32⟩ : BufTy).Contents (Elt F) → (⟨S65536x3x3, .f32⟩ : BufTy).Contents (Elt F) → (⟨S65536x3x3, .f32⟩ : BufTy).Contents (Elt F)),
    TRef.nullary main_call1.v0 (iotaInDim S3x3 32 0),
    TRef.nullary main_call1.v1 (iotaInDim S3x3 32 1),
    TRef.nullary main_call1.c (constantI S_ 32 0#32),
    TRef.unary main_call1.c main_call1.v2 (broadcastInDim S3x3 ![] bcast_S_S3x3),
    TRef.binary main_call1.v0 main_call1.v2 main_call1.v3 addi,
    TRef.binary main_call1.v3 main_call1.v1 main_call1.v4 (cmpi .eq),
    TRef.nullary main_call1.cst (constant S_ .f32 0x00000000#32),
    TRef.unary main_call1.cst main_call1.v5 (broadcastInDim S65536x3x3 ![] bcast_S_S65536x3x3),
    TRef.unary main_call1.v4 main_call1.call0.v0 (broadcastInDim S65536x3x3 ![1, 2] bcast_S3x3_S65536x3x3_1_2),
    TRef.ternary main_call1.call0.v0 (.of main_v35) main_call1.v5 main_call1.call0.v1 select,
    TRef.nullary main_call1.cst_0 (constant S_ .f32 0x00000000#32),
    TRef.binary main_call1.call0.v1 main_call1.cst_0 main_call1.v7 (fun x v => Host.reduceAdd x v reducesTo_S65536x3x3_S65536_d1_2 h_S_),
    nullary main_cst_0 (constant S_ .f32 0x40400000#32),
    unary main_cst_0 main_v37 (broadcastInDim S65536 ![] bcast_S_S65536 : (⟨S_, .f32⟩ : BufTy).Contents (Elt F) → (⟨S65536, .f32⟩ : BufTy).Contents (Elt F)),
    binary main_v36 main_v37 main_v38 (Host.divf : (⟨S65536, .f32⟩ : BufTy).Contents (Elt F) → (⟨S65536, .f32⟩ : BufTy).Contents (Elt F) → (⟨S65536, .f32⟩ : BufTy).Contents (Elt F)),
    unary main_v35 main_v39 ((transpose S65536x3x3 [0, 2, 1] · transposes_S65536x3x3_S65536x3x3_0_2_1) : (⟨S65536x3x3, .f32⟩ : BufTy).Contents (Elt F) → (⟨S65536x3x3, .f32⟩ : BufTy).Contents (Elt F)),
    binary main_v35 main_v39 main_v40 (addf : (⟨S65536x3x3, .f32⟩ : BufTy).Contents (Elt F) → (⟨S65536x3x3, .f32⟩ : BufTy).Contents (Elt F) → (⟨S65536x3x3, .f32⟩ : BufTy).Contents (Elt F)),
    nullary main_cst_1 (constant S_ .f32 0x3F000000#32),
    unary main_cst_1 main_v41 (broadcastInDim S65536x3x3 ![] bcast_S_S65536x3x3 : (⟨S_, .f32⟩ : BufTy).Contents (Elt F) → (⟨S65536x3x3, .f32⟩ : BufTy).Contents (Elt F)),
    binary main_v41 main_v40 main_v42 (mulf : (⟨S65536x3x3, .f32⟩ : BufTy).Contents (Elt F) → (⟨S65536x3x3, .f32⟩ : BufTy).Contents (Elt F) → (⟨S65536x3x3, .f32⟩ : BufTy).Contents (Elt F)),
    unary main_v38 main_v43 (broadcastInDim S65536x1x1 ![0] bcast_S65536_S65536x1x1_0 : (⟨S65536, .f32⟩ : BufTy).Contents (Elt F) → (⟨S65536x1x1, .f32⟩ : BufTy).Contents (Elt F)),
    unary main_v5 main_v44 (broadcastInDim S1x3x3 ![1, 2] bcast_S3x3_S1x3x3_1_2 : (⟨S3x3, .f32⟩ : BufTy).Contents (Elt F) → (⟨S1x3x3, .f32⟩ : BufTy).Contents (Elt F)),
    unary main_v43 main_v45 (broadcastInDim S65536x3x3 ![0, 1, 2] bcast_S65536x1x1_S65536x3x3_0_1_2 : (⟨S65536x1x1, .f32⟩ : BufTy).Contents (Elt F) → (⟨S65536x3x3, .f32⟩ : BufTy).Contents (Elt F)),
    unary main_v44 main_v46 (broadcastInDim S65536x3x3 ![0, 1, 2] bcast_S1x3x3_S65536x3x3_0_1_2 : (⟨S1x3x3, .f32⟩ : BufTy).Contents (Elt F) → (⟨S65536x3x3, .f32⟩ : BufTy).Contents (Elt F)),
    binary main_v45 main_v46 main_v47 (mulf : (⟨S65536x3x3, .f32⟩ : BufTy).Contents (Elt F) → (⟨S65536x3x3, .f32⟩ : BufTy).Contents (Elt F) → (⟨S65536x3x3, .f32⟩ : BufTy).Contents (Elt F)),
    binary main_v42 main_v47 main_v48 (subf : (⟨S65536x3x3, .f32⟩ : BufTy).Contents (Elt F) → (⟨S65536x3x3, .f32⟩ : BufTy).Contents (Elt F) → (⟨S65536x3x3, .f32⟩ : BufTy).Contents (Elt F)),
    nullary main_c_2 (constantI S_ 32 0#32),
    unary main_c_2 main_v49 (broadcastInDim S5000 ![] bcast_S_S5000 : (⟨S_, .i32⟩ : BufTy).Contents (Elt F) → (⟨S5000, .i32⟩ : BufTy).Contents (Elt F)),
    binary main_arg1 main_v49 main_v50 (cmpi .slt : (⟨S5000, .i32⟩ : BufTy).Contents (Elt F) → (⟨S5000, .i32⟩ : BufTy).Contents (Elt F) → (⟨S5000, .i1⟩ : BufTy).Contents (Elt F)),
    nullary main_c_3 (constantI S_ 32 119#32),
    unary main_c_3 main_v51 (broadcastInDim S5000 ![] bcast_S_S5000 : (⟨S_, .i32⟩ : BufTy).Contents (Elt F) → (⟨S5000, .i32⟩ : BufTy).Contents (Elt F)),
    binary main_arg1 main_v51 main_v52 (addi : (⟨S5000, .i32⟩ : BufTy).Contents (Elt F) → (⟨S5000, .i32⟩ : BufTy).Contents (Elt F) → (⟨S5000, .i32⟩ : BufTy).Contents (Elt F)),
    ternary main_v50 main_v52 main_arg1 main_v53 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    unary main_v53 main_v54 (broadcastInDim S5000x1 ![0] bcast_S5000_S5000x1_0 : (⟨S5000, .i32⟩ : BufTy).Contents (Elt F) → (⟨S5000x1, .i32⟩ : BufTy).Contents (Elt F)),
    binary main_arg3 main_v54 main_v55 ((fun x i => Host.gather gather_S119x64_S5000x1_S5000x64_1_0_n_n_0_1_164 x i) : (⟨S119x64, .f32⟩ : BufTy).Contents (Elt F) → (⟨S5000x1, .i32⟩ : BufTy).Contents (Elt F) → (⟨S5000x64, .f32⟩ : BufTy).Contents (Elt F)),
    unary main_arg2 main_v56 ((extractStridedSlice S1x65536 ![0, 0] · slices_S2x65536_S1x65536_0_0) : (⟨S2x65536, .i32⟩ : BufTy).Contents (Elt F) → (⟨S1x65536, .i32⟩ : BufTy).Contents (Elt F)),
    reshape main_v56 main_v57 rfl shapeCasts_S1x65536_S65536,
    nullary main_c_4 (constantI S_ 32 0#32),
    unary main_c_4 main_v58 (broadcastInDim S65536 ![] bcast_S_S65536 : (⟨S_, .i32⟩ : BufTy).Contents (Elt F) → (⟨S65536, .i32⟩ : BufTy).Contents (Elt F)),
    binary main_v57 main_v58 main_v59 (cmpi .slt : (⟨S65536, .i32⟩ : BufTy).Contents (Elt F) → (⟨S65536, .i32⟩ : BufTy).Contents (Elt F) → (⟨S65536, .i1⟩ : BufTy).Contents (Elt F)),
    nullary main_c_5 (constantI S_ 32 5000#32),
    unary main_c_5 main_v60 (broadcastInDim S65536 ![] bcast_S_S65536 : (⟨S_, .i32⟩ : BufTy).Contents (Elt F) → (⟨S65536, .i32⟩ : BufTy).Contents (Elt F)),
    binary main_v57 main_v60 main_v61 (addi : (⟨S65536, .i32⟩ : BufTy).Contents (Elt F) → (⟨S65536, .i32⟩ : BufTy).Contents (Elt F) → (⟨S65536, .i32⟩ : BufTy).Contents (Elt F)),
    ternary main_v59 main_v61 main_v57 main_v62 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v62 main_v63 (broadcastInDim S65536x1 ![0] bcast_S65536_S65536x1_0 : (⟨S65536, .i32⟩ : BufTy).Contents (Elt F) → (⟨S65536x1, .i32⟩ : BufTy).Contents (Elt F)),
    binary main_v55 main_v63 main_v64 ((fun x i => Host.gather gather_S5000x64_S65536x1_S65536x64_1_0_n_n_0_1_164 x i) : (⟨S5000x64, .f32⟩ : BufTy).Contents (Elt F) → (⟨S65536x1, .i32⟩ : BufTy).Contents (Elt F) → (⟨S65536x64, .f32⟩ : BufTy).Contents (Elt F)),
    unary main_arg2 main_v65 ((extractStridedSlice S1x65536 ![1, 0] · slices_S2x65536_S1x65536_1_0) : (⟨S2x65536, .i32⟩ : BufTy).Contents (Elt F) → (⟨S1x65536, .i32⟩ : BufTy).Contents (Elt F)),
    reshape main_v65 main_v66 rfl shapeCasts_S1x65536_S65536,
    nullary main_c_6 (constantI S_ 32 0#32),
    unary main_c_6 main_v67 (broadcastInDim S65536 ![] bcast_S_S65536 : (⟨S_, .i32⟩ : BufTy).Contents (Elt F) → (⟨S65536, .i32⟩ : BufTy).Contents (Elt F)),
    binary main_v66 main_v67 main_v68 (cmpi .slt : (⟨S65536, .i32⟩ : BufTy).Contents (Elt F) → (⟨S65536, .i32⟩ : BufTy).Contents (Elt F) → (⟨S65536, .i1⟩ : BufTy).Contents (Elt F)),
    nullary main_c_7 (constantI S_ 32 5000#32),
    unary main_c_7 main_v69 (broadcastInDim S65536 ![] bcast_S_S65536 : (⟨S_, .i32⟩ : BufTy).Contents (Elt F) → (⟨S65536, .i32⟩ : BufTy).Contents (Elt F)),
    binary main_v66 main_v69 main_v70 (addi : (⟨S65536, .i32⟩ : BufTy).Contents (Elt F) → (⟨S65536, .i32⟩ : BufTy).Contents (Elt F) → (⟨S65536, .i32⟩ : BufTy).Contents (Elt F)),
    ternary main_v68 main_v70 main_v66 main_v71 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v71 main_v72 (broadcastInDim S65536x1 ![0] bcast_S65536_S65536x1_0 : (⟨S65536, .i32⟩ : BufTy).Contents (Elt F) → (⟨S65536x1, .i32⟩ : BufTy).Contents (Elt F)),
    binary main_v55 main_v72 main_v73 ((fun x i => Host.gather gather_S5000x64_S65536x1_S65536x64_1_0_n_n_0_1_164 x i) : (⟨S5000x64, .f32⟩ : BufTy).Contents (Elt F) → (⟨S65536x1, .i32⟩ : BufTy).Contents (Elt F) → (⟨S65536x64, .f32⟩ : BufTy).Contents (Elt F)),
    binary main_v64 main_v73 main_v74 ((fun a b => concatenate S65536x128 1 [⟨S65536x64, a⟩, ⟨S65536x64, b⟩] concatenates_S65536x64_S65536x64_S65536x128_d1) : (⟨S65536x64, .f32⟩ : BufTy).Contents (Elt F) → (⟨S65536x64, .f32⟩ : BufTy).Contents (Elt F) → (⟨S65536x128, .f32⟩ : BufTy).Contents (Elt F)),
    binary main_v74 main_arg4 main_v75 ((fun l r => Host.dotGeneral dot_S65536x128_S128x64_S65536x64_1_0_0_1_n_n none l r) : (⟨S65536x128, .f32⟩ : BufTy).Contents (Elt F) → (⟨S128x64, .f32⟩ : BufTy).Contents (Elt F) → (⟨S65536x64, .f32⟩ : BufTy).Contents (Elt F)),
    unary main_arg7 main_v76 (Host.negf : (⟨S32, .f32⟩ : BufTy).Contents (Elt F) → (⟨S32, .f32⟩ : BufTy).Contents (Elt F)),
    unary main_v6 main_v77 (Host.negf : (⟨S65536, .f32⟩ : BufTy).Contents (Elt F) → (⟨S65536, .f32⟩ : BufTy).Contents (Elt F)),
    unary main_v77 main_v78 (Host.exp : (⟨S65536, .f32⟩ : BufTy).Contents (Elt F) → (⟨S65536, .f32⟩ : BufTy).Contents (Elt F)),
    unary main_v78 main_v79 (broadcastInDim S65536x1 ![0] bcast_S65536_S65536x1_0 : (⟨S65536, .f32⟩ : BufTy).Contents (Elt F) → (⟨S65536x1, .f32⟩ : BufTy).Contents (Elt F)),
    unary main_arg8 main_v80 (broadcastInDim S1x32 ![1] bcast_S32_S1x32_1 : (⟨S32, .f32⟩ : BufTy).Contents (Elt F) → (⟨S1x32, .f32⟩ : BufTy).Contents (Elt F)),
    unary main_v79 main_v81 (broadcastInDim S65536x32 ![0, 1] bcast_S65536x1_S65536x32_0_1 : (⟨S65536x1, .f32⟩ : BufTy).Contents (Elt F) → (⟨S65536x32, .f32⟩ : BufTy).Contents (Elt F)),
    unary main_v80 main_v82 (broadcastInDim S65536x32 ![0, 1] bcast_S1x32_S65536x32_0_1 : (⟨S1x32, .f32⟩ : BufTy).Contents (Elt F) → (⟨S65536x32, .f32⟩ : BufTy).Contents (Elt F)),
    binary main_v81 main_v82 main_v83 (subf : (⟨S65536x32, .f32⟩ : BufTy).Contents (Elt F) → (⟨S65536x32, .f32⟩ : BufTy).Contents (Elt F) → (⟨S65536x32, .f32⟩ : BufTy).Contents (Elt F)),
    binary main_v83 main_v83 main_v84 (mulf : (⟨S65536x32, .f32⟩ : BufTy).Contents (Elt F) → (⟨S65536x32, .f32⟩ : BufTy).Contents (Elt F) → (⟨S65536x32, .f32⟩ : BufTy).Contents (Elt F)),
    unary main_v76 main_v85 (broadcastInDim S1x32 ![1] bcast_S32_S1x32_1 : (⟨S32, .f32⟩ : BufTy).Contents (Elt F) → (⟨S1x32, .f32⟩ : BufTy).Contents (Elt F)),
    unary main_v85 main_v86 (broadcastInDim S65536x32 ![0, 1] bcast_S1x32_S65536x32_0_1 : (⟨S1x32, .f32⟩ : BufTy).Contents (Elt F) → (⟨S65536x32, .f32⟩ : BufTy).Contents (Elt F)),
    binary main_v86 main_v84 main_v87 (mulf : (⟨S65536x32, .f32⟩ : BufTy).Contents (Elt F) → (⟨S65536x32, .f32⟩ : BufTy).Contents (Elt F) → (⟨S65536x32, .f32⟩ : BufTy).Contents (Elt F)),
    unary main_v87 main_v88 (Host.exp : (⟨S65536x32, .f32⟩ : BufTy).Contents (Elt F) → (⟨S65536x32, .f32⟩ : BufTy).Contents (Elt F)),
    nullary main_cst_8 (constant S_ .f32 0x40A00000#32),
    unary main_cst_8 main_v89 (broadcastInDim S65536 ![] bcast_S_S65536 : (⟨S_, .f32⟩ : BufTy).Contents (Elt F) → (⟨S65536, .f32⟩ : BufTy).Contents (Elt F)),
    binary main_v6 main_v89 main_v90 (cmpf .olt : (⟨S65536, .f32⟩ : BufTy).Contents (Elt F) → (⟨S65536, .f32⟩ : BufTy).Contents (Elt F) → (⟨S65536, .i1⟩ : BufTy).Contents (Elt F)),
    nullary main_cst_9 (constant S_ .f32 0x40490FDB#32),
    unary main_cst_9 main_v91 (broadcastInDim S65536 ![] bcast_S_S65536 : (⟨S_, .f32⟩ : BufTy).Contents (Elt F) → (⟨S65536, .f32⟩ : BufTy).Contents (Elt F)),
    binary main_v91 main_v6 main_v92 (mulf : (⟨S65536, .f32⟩ : BufTy).Contents (Elt F) → (⟨S65536, .f32⟩ : BufTy).Contents (Elt F) → (⟨S65536, .f32⟩ : BufTy).Contents (Elt F)),
    nullary main_cst_10 (constant S_ .f32 0x40A00000#32),
    unary main_cst_10 main_v93 (broadcastInDim S65536 ![] bcast_S_S65536 : (⟨S_, .f32⟩ : BufTy).Contents (Elt F) → (⟨S65536, .f32⟩ : BufTy).Contents (Elt F)),
    binary main_v92 main_v93 main_v94 (Host.divf : (⟨S65536, .f32⟩ : BufTy).Contents (Elt F) → (⟨S65536, .f32⟩ : BufTy).Contents (Elt F) → (⟨S65536, .f32⟩ : BufTy).Contents (Elt F)),
    unary main_v94 main_v95 (Host.cos : (⟨S65536, .f32⟩ : BufTy).Contents (Elt F) → (⟨S65536, .f32⟩ : BufTy).Contents (Elt F)),
    nullary main_cst_11 (constant S_ .f32 0x3F800000#32),
    unary main_cst_11 main_v96 (broadcastInDim S65536 ![] bcast_S_S65536 : (⟨S_, .f32⟩ : BufTy).Contents (Elt F) → (⟨S65536, .f32⟩ : BufTy).Contents (Elt F)),
    binary main_v95 main_v96 main_v97 (addf : (⟨S65536, .f32⟩ : BufTy).Contents (Elt F) → (⟨S65536, .f32⟩ : BufTy).Contents (Elt F) → (⟨S65536, .f32⟩ : BufTy).Contents (Elt F)),
    nullary main_cst_12 (constant S_ .f32 0x3F000000#32),
    unary main_cst_12 main_v98 (broadcastInDim S65536 ![] bcast_S_S65536 : (⟨S_, .f32⟩ : BufTy).Contents (Elt F) → (⟨S65536, .f32⟩ : BufTy).Contents (Elt F)),
    binary main_v98 main_v97 main_v99 (mulf : (⟨S65536, .f32⟩ : BufTy).Contents (Elt F) → (⟨S65536, .f32⟩ : BufTy).Contents (Elt F) → (⟨S65536, .f32⟩ : BufTy).Contents (Elt F)),
    nullary main_cst_13 (constant S_ .f32 0x00000000#32),
    TRef.unary (.of main_cst_13) main_call2.v0 id,
    TRef.unary main_call2.v0 main_call2.v1 (broadcastInDim S65536 ![] bcast_S_S65536),
    TRef.ternary (.of main_v90) (.of main_v99) main_call2.v1 main_call2.v2 select,
    binary main_v88 main_arg5 main_v101 ((fun l r => Host.dotGeneral dot_S65536x32_S32x192_S65536x192_1_0_0_1_n_n none l r) : (⟨S65536x32, .f32⟩ : BufTy).Contents (Elt F) → (⟨S32x192, .f32⟩ : BufTy).Contents (Elt F) → (⟨S65536x192, .f32⟩ : BufTy).Contents (Elt F)),
    unary main_arg6 main_v102 (broadcastInDim S1x192 ![1] bcast_S192_S1x192_1 : (⟨S192, .f32⟩ : BufTy).Contents (Elt F) → (⟨S1x192, .f32⟩ : BufTy).Contents (Elt F)),
    unary main_v102 main_v103 (broadcastInDim S65536x192 ![0, 1] bcast_S1x192_S65536x192_0_1 : (⟨S1x192, .f32⟩ : BufTy).Contents (Elt F) → (⟨S65536x192, .f32⟩ : BufTy).Contents (Elt F)),
    binary main_v101 main_v103 main_v104 (addf : (⟨S65536x192, .f32⟩ : BufTy).Contents (Elt F) → (⟨S65536x192, .f32⟩ : BufTy).Contents (Elt F) → (⟨S65536x192, .f32⟩ : BufTy).Contents (Elt F)),
    unary main_v100 main_v105 (broadcastInDim S65536x1 ![0] bcast_S65536_S65536x1_0 : (⟨S65536, .f32⟩ : BufTy).Contents (Elt F) → (⟨S65536x1, .f32⟩ : BufTy).Contents (Elt F)),
    unary main_v105 main_v106 (broadcastInDim S65536x192 ![0, 1] bcast_S65536x1_S65536x192_0_1 : (⟨S65536x1, .f32⟩ : BufTy).Contents (Elt F) → (⟨S65536x192, .f32⟩ : BufTy).Contents (Elt F)),
    binary main_v104 main_v106 main_v107 (mulf : (⟨S65536x192, .f32⟩ : BufTy).Contents (Elt F) → (⟨S65536x192, .f32⟩ : BufTy).Contents (Elt F) → (⟨S65536x192, .f32⟩ : BufTy).Contents (Elt F)),
    reshape main_v75 main_v108 rfl shapeCasts_S65536x64_S1x65536x1x64,
    unary main_v108 main_v109 (broadcastInDim S1x65536x3x64 ![0, 1, 2, 3] bcast_S1x65536x1x64_S1x65536x3x64_0_1_2_3 : (⟨S1x65536x1x64, .f32⟩ : BufTy).Contents (Elt F) → (⟨S1x65536x3x64, .f32⟩ : BufTy).Contents (Elt F)),
    reshape main_v109 main_v110 rfl shapeCasts_S1x65536x3x64_S65536x192,
    binary main_v107 main_v110 main_v111 (mulf : (⟨S65536x192, .f32⟩ : BufTy).Contents (Elt F) → (⟨S65536x192, .f32⟩ : BufTy).Contents (Elt F) → (⟨S65536x192, .f32⟩ : BufTy).Contents (Elt F)),
    unary main_v111 main_v112 ((extractStridedSlice S65536x64 ![0, 0] · slices_S65536x192_S65536x64_0_0) : (⟨S65536x192, .f32⟩ : BufTy).Contents (Elt F) → (⟨S65536x64, .f32⟩ : BufTy).Contents (Elt F)),
    unary main_v111 main_v113 ((extractStridedSlice S65536x64 ![0, 64] · slices_S65536x192_S65536x64_0_64) : (⟨S65536x192, .f32⟩ : BufTy).Contents (Elt F) → (⟨S65536x64, .f32⟩ : BufTy).Contents (Elt F)),
    unary main_v111 main_v114 ((extractStridedSlice S65536x64 ![0, 128] · slices_S65536x192_S65536x64_0_128) : (⟨S65536x192, .f32⟩ : BufTy).Contents (Elt F) → (⟨S65536x64, .f32⟩ : BufTy).Contents (Elt F)),
    unary main_v112 main_v115 (broadcastInDim S65536x64x1x1 ![0, 1] bcast_S65536x64_S65536x64x1x1_0_1 : (⟨S65536x64, .f32⟩ : BufTy).Contents (Elt F) → (⟨S65536x64x1x1, .f32⟩ : BufTy).Contents (Elt F)),
    unary main_v5 main_v116 (broadcastInDim S1x1x3x3 ![2, 3] bcast_S3x3_S1x1x3x3_2_3 : (⟨S3x3, .f32⟩ : BufTy).Contents (Elt F) → (⟨S1x1x3x3, .f32⟩ : BufTy).Contents (Elt F)),
    unary main_v115 main_v117 (broadcastInDim S65536x64x3x3 ![0, 1, 2, 3] bcast_S65536x64x1x1_S65536x64x3x3_0_1_2_3 : (⟨S65536x64x1x1, .f32⟩ : BufTy).Contents (Elt F) → (⟨S65536x64x3x3, .f32⟩ : BufTy).Contents (Elt F)),
    unary main_v116 main_v118 (broadcastInDim S65536x64x3x3 ![0, 1, 2, 3] bcast_S1x1x3x3_S65536x64x3x3_0_1_2_3 : (⟨S1x1x3x3, .f32⟩ : BufTy).Contents (Elt F) → (⟨S65536x64x3x3, .f32⟩ : BufTy).Contents (Elt F)),
    binary main_v117 main_v118 main_v119 (mulf : (⟨S65536x64x3x3, .f32⟩ : BufTy).Contents (Elt F) → (⟨S65536x64x3x3, .f32⟩ : BufTy).Contents (Elt F) → (⟨S65536x64x3x3, .f32⟩ : BufTy).Contents (Elt F)),
    unary main_v113 main_v120 (broadcastInDim S65536x64x1x1 ![0, 1] bcast_S65536x64_S65536x64x1x1_0_1 : (⟨S65536x64, .f32⟩ : BufTy).Contents (Elt F) → (⟨S65536x64x1x1, .f32⟩ : BufTy).Contents (Elt F)),
    unary main_v30 main_v121 (broadcastInDim S65536x1x3x3 ![0, 2, 3] bcast_S65536x3x3_S65536x1x3x3_0_2_3 : (⟨S65536x3x3, .f32⟩ : BufTy).Contents (Elt F) → (⟨S65536x1x3x3, .f32⟩ : BufTy).Contents (Elt F)),
    unary main_v120 main_v122 (broadcastInDim S65536x64x3x3 ![0, 1, 2, 3] bcast_S65536x64x1x1_S65536x64x3x3_0_1_2_3 : (⟨S65536x64x1x1, .f32⟩ : BufTy).Contents (Elt F) → (⟨S65536x64x3x3, .f32⟩ : BufTy).Contents (Elt F)),
    unary main_v121 main_v123 (broadcastInDim S65536x64x3x3 ![0, 1, 2, 3] bcast_S65536x1x3x3_S65536x64x3x3_0_1_2_3 : (⟨S65536x1x3x3, .f32⟩ : BufTy).Contents (Elt F) → (⟨S65536x64x3x3, .f32⟩ : BufTy).Contents (Elt F)),
    binary main_v122 main_v123 main_v124 (mulf : (⟨S65536x64x3x3, .f32⟩ : BufTy).Contents (Elt F) → (⟨S65536x64x3x3, .f32⟩ : BufTy).Contents (Elt F) → (⟨S65536x64x3x3, .f32⟩ : BufTy).Contents (Elt F)),
    unary main_v114 main_v125 (broadcastInDim S65536x64x1x1 ![0, 1] bcast_S65536x64_S65536x64x1x1_0_1 : (⟨S65536x64, .f32⟩ : BufTy).Contents (Elt F) → (⟨S65536x64x1x1, .f32⟩ : BufTy).Contents (Elt F)),
    unary main_v48 main_v126 (broadcastInDim S65536x1x3x3 ![0, 2, 3] bcast_S65536x3x3_S65536x1x3x3_0_2_3 : (⟨S65536x3x3, .f32⟩ : BufTy).Contents (Elt F) → (⟨S65536x1x3x3, .f32⟩ : BufTy).Contents (Elt F)),
    unary main_v125 main_v127 (broadcastInDim S65536x64x3x3 ![0, 1, 2, 3] bcast_S65536x64x1x1_S65536x64x3x3_0_1_2_3 : (⟨S65536x64x1x1, .f32⟩ : BufTy).Contents (Elt F) → (⟨S65536x64x3x3, .f32⟩ : BufTy).Contents (Elt F)),
    unary main_v126 main_v128 (broadcastInDim S65536x64x3x3 ![0, 1, 2, 3] bcast_S65536x1x3x3_S65536x64x3x3_0_1_2_3 : (⟨S65536x1x3x3, .f32⟩ : BufTy).Contents (Elt F) → (⟨S65536x64x3x3, .f32⟩ : BufTy).Contents (Elt F)),
    binary main_v127 main_v128 main_v129 (mulf : (⟨S65536x64x3x3, .f32⟩ : BufTy).Contents (Elt F) → (⟨S65536x64x3x3, .f32⟩ : BufTy).Contents (Elt F) → (⟨S65536x64x3x3, .f32⟩ : BufTy).Contents (Elt F)) ]

-- 162 binds re-associated: the rewrite under the chain recurses once per statement
set_option maxRecDepth 8192 in
set_option maxHeartbeats 4000000 in
/-- The entry function is that straight line: with the three windows and the called functions unfolded, both
    sides are one chain of steps once sequencing is re-associated. -/
theorem main_eq (c : Dev nD) : main (F := F) c = seq ops := by
  simp only [main, main_part0, main_part1, main_part2, fn_norm.body, fn_trace.body, fn_where.body, fn_where_0.body,
    seq, bind_assoc, pure_bind]

/-- No buffer and no semaphore of the signature is scoped. -/
theorem scopedRefs_eq : (Finset.univ.filter fun b : Ref sig .tc => b.isScoped) = ∅ := by decide
theorem scopedSems_eq : (Finset.univ.filter fun sm : SemLoc sig => sm.isScoped .tc) = ∅ := by decide

/-- Every operation touches only the TensorCore's buffers. -/
theorem ops_sub : (ops : List (HloOp τ sig (Elt F))).Forall fun op => op.bufs ⊆ tcRefs τ sig :=
  ⟨nullary_bufs_sub .., nullary_bufs_sub .., nullary_bufs_sub .., unary_bufs_sub .., binary_bufs_sub .., binary_bufs_sub ..,
   unary_bufs_sub .., binary_bufs_sub .., nullary_bufs_sub .., binary_bufs_sub .., unary_bufs_sub .., unary_bufs_sub ..,
   unary_bufs_sub .., binary_bufs_sub .., unary_bufs_sub .., reshape_bufs_sub .., unary_bufs_sub .., reshape_bufs_sub ..,
   unary_bufs_sub .., reshape_bufs_sub .., nullary_bufs_sub .., unary_bufs_sub .., unary_bufs_sub .., unary_bufs_sub ..,
   unary_bufs_sub .., unary_bufs_sub .., unary_bufs_sub .., unary_bufs_sub .., unary_bufs_sub .., unary_bufs_sub ..,
   unary_bufs_sub .., unary_bufs_sub .., unary_bufs_sub .., unary_bufs_sub .., nary_bufs_sub .., reshape_bufs_sub ..,
   unary_bufs_sub .., unary_bufs_sub .., unary_bufs_sub .., unary_bufs_sub .., binary_bufs_sub .., nullary_bufs_sub ..,
   nullary_bufs_sub .., nullary_bufs_sub .., unary_bufs_sub .., binary_bufs_sub .., binary_bufs_sub .., nullary_bufs_sub ..,
   unary_bufs_sub .., unary_bufs_sub .., ternary_bufs_sub .., nullary_bufs_sub .., binary_bufs_sub .., nullary_bufs_sub ..,
   unary_bufs_sub .., binary_bufs_sub .., unary_bufs_sub .., binary_bufs_sub .., nullary_bufs_sub .., unary_bufs_sub ..,
   binary_bufs_sub .., unary_bufs_sub .., unary_bufs_sub .., unary_bufs_sub .., unary_bufs_sub .., binary_bufs_sub ..,
   binary_bufs_sub .., nullary_bufs_sub .., unary_bufs_sub .., binary_bufs_sub .., nullary_bufs_sub .., unary_bufs_sub ..,
   binary_bufs_sub .., ternary_bufs_sub .., unary_bufs_sub .., binary_bufs_sub .., unary_bufs_sub .., reshape_bufs_sub ..,
   nullary_bufs_sub .., unary_bufs_sub .., binary_bufs_sub .., nullary_bufs_sub .., unary_bufs_sub .., binary_bufs_sub ..,
   ternary_bufs_sub .., unary_bufs_sub .., binary_bufs_sub .., unary_bufs_sub .., reshape_bufs_sub .., nullary_bufs_sub ..,
   unary_bufs_sub .., binary_bufs_sub .., nullary_bufs_sub .., unary_bufs_sub .., binary_bufs_sub .., ternary_bufs_sub ..,
   unary_bufs_sub .., binary_bufs_sub .., binary_bufs_sub .., binary_bufs_sub .., unary_bufs_sub .., unary_bufs_sub ..,
   unary_bufs_sub .., unary_bufs_sub .., unary_bufs_sub .., unary_bufs_sub .., unary_bufs_sub .., binary_bufs_sub ..,
   binary_bufs_sub .., unary_bufs_sub .., unary_bufs_sub .., binary_bufs_sub .., unary_bufs_sub .., nullary_bufs_sub ..,
   unary_bufs_sub .., binary_bufs_sub .., nullary_bufs_sub .., unary_bufs_sub .., binary_bufs_sub .., nullary_bufs_sub ..,
   unary_bufs_sub .., binary_bufs_sub .., unary_bufs_sub .., nullary_bufs_sub .., unary_bufs_sub .., binary_bufs_sub ..,
   nullary_bufs_sub .., unary_bufs_sub .., binary_bufs_sub .., nullary_bufs_sub .., unary_bufs_sub .., unary_bufs_sub ..,
   ternary_bufs_sub .., binary_bufs_sub .., unary_bufs_sub .., unary_bufs_sub .., binary_bufs_sub .., unary_bufs_sub ..,
   unary_bufs_sub .., binary_bufs_sub .., reshape_bufs_sub .., unary_bufs_sub .., reshape_bufs_sub .., binary_bufs_sub ..,
   unary_bufs_sub .., unary_bufs_sub .., unary_bufs_sub .., unary_bufs_sub .., unary_bufs_sub .., unary_bufs_sub ..,
   unary_bufs_sub .., binary_bufs_sub .., unary_bufs_sub .., unary_bufs_sub .., unary_bufs_sub .., unary_bufs_sub ..,
   binary_bufs_sub .., unary_bufs_sub .., unary_bufs_sub .., unary_bufs_sub .., unary_bufs_sub .., binary_bufs_sub ..⟩

end Cert.ReferenceIdeal.EdgeRun

end
-- ==== Proof.RefRunI.lean ====
/-
  The first result of the reference program, read back from the fold of its operations: the buffer of the last
  product holds the per-edge, per-channel coefficient (first block of 64) times the 3×3 identity, as one term of the
  argument arrays.  Each operation's result at its own buffer is its function of its operands' contents, and at any
  other buffer what was there; what remains is the stage definitions in the operations' own spelling.
-/
import proofs.«124262_j40570261078234_1_alg».proof.Proof.RefOps
import proofs.«124262_j40570261078234_1_alg».proof.Proof.RefStages

noncomputable section

namespace Cert.ReferenceIdeal.EdgeRun

open Cert.ReferenceIdeal Cert.ReferenceIdeal.Facts₀ Idealize.ShloMosaic Idealize.ShloMosaic.TcCoe Idealize.SL.Sem Idealize.ShloMosaic.StableHlo

variable {F : FTy → Type} [FloatOps F] [Facts]

-- the sums and the gathers stay folded: the equation never looks inside them
attribute [local irreducible] Host.reduceAdd Host.gather in
set_option maxRecDepth 8192 in
set_option maxHeartbeats 4000000 in
/-- The identity-weighted result is `Stage.outI` of the arguments' contents. -/
theorem outI_eq (V : Valuation τ sig (Elt F)) :
    after ops V (main_v119 : DevRef τ sig)
      = Stage.outI (V (main_arg0 : DevRef τ sig)) (Stage.pairEmbed (V (main_arg3 : DevRef τ sig)) (V (main_arg1 : DevRef τ sig)) (V (main_arg2 : DevRef τ sig)))
          (V (main_arg4 : DevRef τ sig)) (V (main_arg5 : DevRef τ sig)) (V (main_arg6 : DevRef τ sig)) (V (main_arg7 : DevRef τ sig)) (V (main_arg8 : DevRef τ sig)) := by
  after_results_simp
  rfl

end Cert.ReferenceIdeal.EdgeRun

end
-- ==== Proof.RefRunA.lean ====
/-
  The second result of the reference program, read back from the fold of its operations: the per-edge, per-channel
  coefficient (second block of 64) times the skew matrix of the unit direction, as one term of the argument arrays.
-/
import proofs.«124262_j40570261078234_1_alg».proof.Proof.RefOps
import proofs.«124262_j40570261078234_1_alg».proof.Proof.RefStages

noncomputable section

namespace Cert.ReferenceIdeal.EdgeRun

open Cert.ReferenceIdeal Cert.ReferenceIdeal.Facts₀ Idealize.ShloMosaic Idealize.ShloMosaic.TcCoe Idealize.SL.Sem Idealize.ShloMosaic.StableHlo

variable {F : FTy → Type} [FloatOps F] [Facts]

-- the sums and the gathers stay folded: the equation never looks inside them
attribute [local irreducible] Host.reduceAdd Host.gather in
set_option maxRecDepth 8192 in
set_option maxHeartbeats 4000000 in
/-- The skew-weighted result is `Stage.outA` of the arguments' contents. -/
theorem outA_eq (V : Valuation τ sig (Elt F)) :
    after ops V (main_v124 : DevRef τ sig)
      = Stage.outA (V (main_arg0 : DevRef τ sig)) (Stage.pairEmbed (V (main_arg3 : DevRef τ sig)) (V (main_arg1 : DevRef τ sig)) (V (main_arg2 : DevRef τ sig)))
          (V (main_arg4 : DevRef τ sig)) (V (main_arg5 : DevRef τ sig)) (V (main_arg6 : DevRef τ sig)) (V (main_arg7 : DevRef τ sig)) (V (main_arg8 : DevRef τ sig)) := by
  after_results_simp
  rfl

end Cert.ReferenceIdeal.EdgeRun

end
-- ==== Proof.RefRunS.lean ====
/-
  The third result of the reference program, read back from the fold of its operations: the per-edge, per-channel
  coefficient (third block of 64) times the traceless symmetric matrix of the unit direction, as one term of the
  argument arrays.
-/
import proofs.«124262_j40570261078234_1_alg».proof.Proof.RefOps
import proofs.«124262_j40570261078234_1_alg».proof.Proof.RefStages

noncomputable section

namespace Cert.ReferenceIdeal.EdgeRun

open Cert.ReferenceIdeal Cert.ReferenceIdeal.Facts₀ Idealize.ShloMosaic Idealize.ShloMosaic.TcCoe Idealize.SL.Sem Idealize.ShloMosaic.StableHlo

variable {F : FTy → Type} [FloatOps F] [Facts]

-- the sums and the gathers stay folded: the equation never looks inside them
attribute [local irreducible] Host.reduceAdd Host.gather in
set_option maxRecDepth 8192 in
set_option maxHeartbeats 4000000 in
/-- The symmetric-traceless-weighted result is `Stage.outS` of the arguments' contents. -/
theorem outS_eq (V : Valuation τ sig (Elt F)) :
    after ops V (main_v129 : DevRef τ sig)
      = Stage.outS (V (main_arg0 : DevRef τ sig)) (Stage.pairEmbed (V (main_arg3 : DevRef τ sig)) (V (main_arg1 : DevRef τ sig)) (V (main_arg2 : DevRef τ sig)))
          (V (main_arg4 : DevRef τ sig)) (V (main_arg5 : DevRef τ sig)) (V (main_arg6 : DevRef τ sig)) (V (main_arg7 : DevRef τ sig)) (V (main_arg8 : DevRef τ sig)) := by
  after_results_simp
  rfl

end Cert.ReferenceIdeal.EdgeRun

end
-- ==== Proof.RefRun.lean ====
/-
  The reference program's run, read back as a term of its arguments.  The program is a straight line of 162 host
  operations; every weakly fair execution of it terminates with each buffer at the fold of the operations' results
  over the launch contents.  At the three result buffers that fold is the stage term of the arguments — the
  per-edge, per-channel coefficients times the identity, the skew matrix and the traceless symmetric matrix of the
  unit direction — and no operation writes an argument's buffer, so the arguments keep their contents.
-/
import proofs.«124262_j40570261078234_1_alg».proof.Proof.RefOps
import proofs.«124262_j40570261078234_1_alg».proof.Proof.RefRunI
import proofs.«124262_j40570261078234_1_alg».proof.Proof.RefRunA
import proofs.«124262_j40570261078234_1_alg».proof.Proof.RefRunS

noncomputable section

namespace Cert.ReferenceIdeal.EdgeRun

open Cert.ReferenceIdeal Cert.ReferenceIdeal.Facts₀ Idealize.ShloMosaic Idealize.ShloMosaic.TcCoe Idealize.SL.Sem Idealize.ShloMosaic.StableHlo

variable {F : FTy → Type} [FloatOps F] [Facts]

/-! ## The arguments are never written

Each of the 162 operations writes a buffer other than the nine arguments', so the fold leaves them as they were. -/

set_option maxRecDepth 8192 in
set_option maxHeartbeats 4000000 in
theorem arg0_eq (V : Valuation τ sig (Elt F)) :
    after ops V (main_arg0 : DevRef τ sig) = V (main_arg0 : DevRef τ sig) := by
  after_results_simp

set_option maxRecDepth 8192 in
set_option maxHeartbeats 4000000 in
theorem arg1_eq (V : Valuation τ sig (Elt F)) :
    after ops V (main_arg1 : DevRef τ sig) = V (main_arg1 : DevRef τ sig) := by
  after_results_simp

set_option maxRecDepth 8192 in
set_option maxHeartbeats 4000000 in
theorem arg2_eq (V : Valuation τ sig (Elt F)) :
    after ops V (main_arg2 : DevRef τ sig) = V (main_arg2 : DevRef τ sig) := by
  after_results_simp

set_option maxRecDepth 8192 in
set_option maxHeartbeats 4000000 in
theorem arg3_eq (V : Valuation τ sig (Elt F)) :
    after ops V (main_arg3 : DevRef τ sig) = V (main_arg3 : DevRef τ sig) := by
  after_results_simp

set_option maxRecDepth 8192 in
set_option maxHeartbeats 4000000 in
theorem arg4_eq (V : Valuation τ sig (Elt F)) :
    after ops V (main_arg4 : DevRef τ sig) = V (main_arg4 : DevRef τ sig) := by
  after_results_simp

set_option maxRecDepth 8192 in
set_option maxHeartbeats 4000000 in
theorem arg5_eq (V : Valuation τ sig (Elt F)) :
    after ops V (main_arg5 : DevRef τ sig) = V (main_arg5 : DevRef τ sig) := by
  after_results_simp

set_option maxRecDepth 8192 in
set_option maxHeartbeats 4000000 in
theorem arg6_eq (V : Valuation τ sig (Elt F)) :
    after ops V (main_arg6 : DevRef τ sig) = V (main_arg6 : DevRef τ sig) := by
  after_results_simp

set_option maxRecDepth 8192 in
set_option maxHeartbeats 4000000 in
theorem arg7_eq (V : Valuation τ sig (Elt F)) :
    after ops V (main_arg7 : DevRef τ sig) = V (main_arg7 : DevRef τ sig) := by
  after_results_simp

set_option maxRecDepth 8192 in
set_option maxHeartbeats 4000000 in
theorem arg8_eq (V : Valuation τ sig (Elt F)) :
    after ops V (main_arg8 : DevRef τ sig) = V (main_arg8 : DevRef τ sig) := by
  after_results_simp

/-! ## The run -/

/-- On every device, for any float values, from any memory with zero counters: every weakly fair execution of the
    entry function terminates with the three result buffers at `Stage.outI`, `Stage.outA`, `Stage.outS` of the
    arguments' launch contents (the pair embedding gathered from the species table), and the nine arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v119) = Stage.outI (m ((c.tc : Thread nD τ).loc main_arg0)) (Stage.pairEmbed (m ((c.tc : Thread nD τ).loc main_arg3)) (m ((c.tc : Thread nD τ).loc main_arg1)) (m ((c.tc : Thread nD τ).loc main_arg2))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v124) = Stage.outA (m ((c.tc : Thread nD τ).loc main_arg0)) (Stage.pairEmbed (m ((c.tc : Thread nD τ).loc main_arg3)) (m ((c.tc : Thread nD τ).loc main_arg1)) (m ((c.tc : Thread nD τ).loc main_arg2))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v129) = Stage.outS (m ((c.tc : Thread nD τ).loc main_arg0)) (Stage.pairEmbed (m ((c.tc : Thread nD τ).loc main_arg3)) (m ((c.tc : Thread nD τ).loc main_arg1)) (m ((c.tc : Thread nD τ).loc main_arg2))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v119).trans (outI_eq _), (h c main_v124).trans (outA_eq _),
      (h c main_v129).trans (outS_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _)⟩)
    (run_seq scopedRefs_eq scopedSems_eq defs main (fun _ => ops) main_eq (fun _ => ops_sub) m ρ)

end Cert.ReferenceIdeal.EdgeRun

end
-- ==== Proof.RefDense.lean ====
/-
  The reference's dense-layer stages read at one index.

  For edge `e` with displacement `v = a0[e, ·]`: the length stage is `√(v₀² + v₁² + v₂²)`; the radial basis at `k` is
  `exp (-βₖ · (e^{-|v|} - μₖ)²)`; the cutoff is the half-cosine inside radius five and zero outside; the dense layer at
  column `j` is `(∑ₖ radialₖ · Wr[k, j] + br[j])` times the cutoff; the pair embedding through `Wz` at channel `c` is
  `∑ₖ h[e, k] · Wz[k, c]`.  The 64 channels are repeated three times along the row, so that column `64 s + c` of the
  coefficient array is the dense result at `64 s + c` times the species channel `c`.

  Every stage is a composition of pointwise operations, broadcasts, one sum over an axis and one rows-by-columns product;
  each is read at an index by naming the operand index it reads, and the float literals are left as the words they are
  (only the zero word is read as `0`).
-/
import proofs.«124262_j40570261078234_1_alg».proof.Proof.Spec
import proofs.«124262_j40570261078234_1_alg».proof.Proof.RefStages
import Idealize.ShloMosaic.Lib.ValueIdx
import Idealize.ShloMosaic.Lib.Pipeline.Value
import Idealize.ShloMosaic.PureOps.Ideal.Laws

noncomputable section

namespace Cert.ReferenceIdeal.EdgeDense

open Idealize.ShloMosaic Idealize.ShloMosaic.ValueIdx Cert.ReferenceIdeal
open Cert

variable [Cert.ReferenceIdeal.Facts]

/-! ## The host's pointwise operations at an index, at the ideal values -/

section Pointwise
variable {s : Shape} {φ : FTy}

private theorem hostSqrt_apply (x : FVec Ideal s φ) (i : s.Idx) : Host.sqrt x i = Ideal.sqrt (x i) := rfl
private theorem hostExp_apply (x : FVec Ideal s φ) (i : s.Idx) : Host.exp x i = Ideal.exp (x i) := rfl
private theorem hostCos_apply (x : FVec Ideal s φ) (i : s.Idx) : Host.cos x i = Ideal.cos (x i) := rfl
private theorem hostNegf_apply (x : FVec Ideal s φ) (i : s.Idx) : Host.negf x i = -(x i) := rfl
private theorem hostDivf_apply (x y : FVec Ideal s φ) (i : s.Idx) : Host.divf x y i = Ideal.div (x i) (y i) := rfl

/-- The host's sum over one axis: the initial value plus the sum over that axis's coordinates. -/
private theorem hostReduceAdd_apply {t u : Shape} {a : Fin s.rank} (x : FVec Ideal s φ) (init : u.Idx → Ideal φ)
    (h' : s.ReducesTo [a] t) (h : s.Reduces [a] t) (hu : 0 < u.numel) (j : t.Idx) :
    Host.reduceAdd x init h' hu j = init (Shape.Idx.first hu) + ∑ k : Fin (s.size a), x (h.lift j k) := by
  unfold Host.reduceAdd
  rw [Ideal.hostReduceAdd_def, Ideal.hostReduceAdd_single h' h]

end Pointwise

/-! ## A rows-by-columns product at an index -/

/-- The host's product of an `m × K` by a `K × n` array, contracting the first's columns with the second's rows, read
    at `(a, b)`: the sum over the contracted coordinate of the products of the entries. -/
private theorem dotGeneral_rows_apply {m K n : Nat}
    (w : DotDims.WF ⟨2, ![m, K]⟩ ⟨2, ![K, n]⟩ ⟨2, ![m, n]⟩ [1] [0] [0] [1] [] [])
    (A : FVec Ideal ⟨2, ![m, K]⟩ .f32) (B : FVec Ideal ⟨2, ![K, n]⟩ .f32) (a : Fin m) (b : Fin n) :
    Host.dotGeneral (⟨[1], [0], [0], [1], [], [], w⟩ : DotDims _ _ _) none A B (ix2 a b)
      = ∑ k : Fin K, A (ix2 a k) * B (ix2 k b) := by
  show FloatOps.dotGeneral _ none _ A B (ix2 a b) = _
  rw [Ideal.dotGeneral_apply,
    ← Equiv.sum_comp (contrEquiv1 (⟨[1], [0], [0], [1], [], [], w⟩ : DotDims _ _ _) K rfl rfl).symm]
  refine Finset.sum_congr rfl fun k _ => ?_
  have ck := contrEquiv1_symm_val
    (⟨[1], [0], [0], [1], [], [], w⟩ : DotDims ⟨2, ![m, K]⟩ ⟨2, ![K, n]⟩ ⟨2, ![m, n]⟩) K rfl rfl k
  have hl : (⟨[1], [0], [0], [1], [], [], w⟩ : DotDims ⟨2, ![m, K]⟩ ⟨2, ![K, n]⟩ ⟨2, ![m, n]⟩).lhsIdx (ix2 a b)
      ((contrEquiv1 _ K rfl rfl).symm k) = ix2 a k := by
    funext ax; apply Fin.ext
    match ax with
    | ⟨0, _⟩ => simp [DotDims.lhsIdx]; rfl
    | ⟨1, _⟩ => simp [DotDims.lhsIdx]; exact ck
  have hr : (⟨[1], [0], [0], [1], [], [], w⟩ : DotDims ⟨2, ![m, K]⟩ ⟨2, ![K, n]⟩ ⟨2, ![m, n]⟩).rhsIdx (ix2 a b)
      ((contrEquiv1 _ K rfl rfl).symm k) = ix2 k b := by
    funext ax; apply Fin.ext
    match ax with
    | ⟨0, _⟩ => simp [DotDims.rhsIdx]; exact ck
    | ⟨1, _⟩ => simp [DotDims.rhsIdx]; rfl
  rw [hl, hr]

/-! ## The length -/

/-- The shape fact that names the index with the summed coordinate put back. -/
private theorem reduces_row3 : S65536x3.Reduces [1] S65536 := by decide

/-- Edge `e` with coordinate `k` put back on the summed axis is the entry `(e, k)`. -/
private theorem lift_row3 (e : Fin 65536) (k : Fin 3) : reduces_row3.lift (ix1 e) k = ix2 e k := by
  funext a
  match a with
  | ⟨0, _⟩ => exact Fin.ext rfl
  | ⟨1, _⟩ => exact Fin.ext rfl

/-- An edge's length is the square root of the sum of its squared coordinates. -/
private theorem norm_apply (a0 : Stage.C Ideal S65536x3 .f32) (e : Fin 65536) :
    Stage.norm a0 (ix1 e) = EdgeSpec.len (fun k => a0 (ix2 e k)) := by
  unfold Stage.norm EdgeSpec.len
  rw [hostSqrt_apply, hostReduceAdd_apply _ _ _ reduces_row3, constant_apply, Ideal.ofBits_zero_f32, zero_add]
  refine congrArg Ideal.sqrt (Finset.sum_congr rfl fun k _ => ?_)
  rw [mulf_apply]
  exact congrArg (fun i => a0 i * a0 i) (lift_row3 e k)

/-! ## The pair embedding through `Wz` -/

/-- The product of the pair embeddings with `Wz`, at edge `e` and channel `c`: the sum over the 128 embedding
    coordinates. -/
private theorem species_apply (hE : Stage.C Ideal S65536x128 .f32) (a4 : Stage.C Ideal S128x64 .f32) (e : Fin 65536) (c : Fin 64) :
    Stage.species hE a4 (ix2 e c) = EdgeSpec.species (fun k => hE (ix2 e k)) (fun k c' => a4 (ix2 k c')) c :=
  dotGeneral_rows_apply Facts₀.dot_S65536x128_S128x64_S65536x64_1_0_0_1_n_n_wf hE a4 e c

/-! ## The reference's broadcasts at an index -/

/-- A float literal splat over the edges reads the literal everywhere. -/
private theorem splat_apply (b : BitVec 32) (e : Fin 65536) : Stage.splat (F := Ideal) b (ix1 e) = Ideal.ofBits .f32 b := by
  unfold Stage.splat
  exact broadcastInDim_apply _ _ _ _ ix0 (fun a => a.elim0)

/-- A per-edge value as a column reads the edge's value. -/
private theorem colB_apply {t : EltTy} (x : Stage.C Ideal S65536 t) (e : Fin 65536) :
    Stage.colB x (ix2 e (0 : Fin 1)) = x (ix1 e) := by
  unfold Stage.colB
  exact broadcastInDim_apply _ _ _ _ (ix1 e) (fun a => match a with | ⟨0, _⟩ => rfl)

/-- A row of 32 over every edge reads the row's entry. -/
private theorem row32_apply (x : Stage.C Ideal S32 .f32) (e : Fin 65536) (k : Fin 32) :
    Stage.row32 x (ix2 e k) = x (ix1 k) := by
  unfold Stage.row32
  refine (broadcastInDim_apply _ _ _ (ix2 e k) (ix2 (0 : Fin 1) k) (fun a => ?_)).trans ?_
  · match a with
    | ⟨0, _⟩ => rfl
    | ⟨1, _⟩ => rfl
  · exact broadcastInDim_apply _ _ _ _ (ix1 k) (fun a => match a with | ⟨0, _⟩ => rfl)

/-! ## The radial basis -/

/-- `e^{-|v|} - μₖ` at edge `e`. -/
private theorem gap_apply (a0 : Stage.C Ideal S65536x3 .f32) (a8 : Stage.C Ideal S32 .f32) (e : Fin 65536) (k : Fin 32) :
    Stage.gap a0 a8 (ix2 e k) = Ideal.exp (-(EdgeSpec.len (fun k => a0 (ix2 e k)))) - a8 (ix1 k) := by
  unfold Stage.gap
  rw [subf_apply, row32_apply]
  refine congrArg (· - a8 (ix1 k)) ?_
  refine (broadcastInDim_apply _ _ _ (ix2 e k) (ix2 e (0 : Fin 1)) (fun a => ?_)).trans ?_
  · match a with
    | ⟨0, _⟩ => rfl
    | ⟨1, _⟩ => rfl
  · rw [colB_apply, hostExp_apply, hostNegf_apply, norm_apply]

/-- The radial basis function `k` at edge `e`. -/
private theorem rbf_apply (a0 : Stage.C Ideal S65536x3 .f32) (a7 a8 : Stage.C Ideal S32 .f32) (e : Fin 65536) (k : Fin 32) :
    Stage.rbf a0 a7 a8 (ix2 e k)
      = EdgeSpec.radial (fun k => a0 (ix2 e k)) (fun k => a7 (ix1 k)) (fun k => a8 (ix1 k)) k := by
  unfold Stage.rbf EdgeSpec.radial
  rw [hostExp_apply, mulf_apply, mulf_apply, row32_apply, hostNegf_apply, gap_apply]

/-! ## The cosine cutoff -/

/-- The cutoff at edge `e`: the half-cosine inside radius five, zero outside. -/
private theorem env_apply (a0 : Stage.C Ideal S65536x3 .f32) (e : Fin 65536) :
    Stage.env a0 (ix1 e) = EdgeSpec.envelope (fun k => a0 (ix2 e k)) := by
  unfold Stage.env EdgeSpec.envelope
  rw [select_apply, cmpf_apply, Ideal.cmpf_def, mulf_apply, addf_apply, hostCos_apply, hostDivf_apply, mulf_apply]
  simp only [splat_apply, norm_apply]
  refine congrArg (Scalar.select _ _) ?_
  refine (broadcastInDim_apply _ _ _ (ix1 e) ix0 (fun a => a.elim0)).trans ?_
  exact Ideal.ofBits_zero_f32

/-! ## The dense layer -/

/-- The bias row over every edge reads the bias entry. -/
private theorem biasRow_apply (a6 : Stage.C Ideal S192 .f32) (e : Fin 65536) (j : Fin 192) :
    broadcastInDim S65536x192 ![0, 1] Facts₀.bcast_S1x192_S65536x192_0_1
        (broadcastInDim S1x192 ![1] Facts₀.bcast_S192_S1x192_1 a6) (ix2 e j) = a6 (ix1 j) := by
  refine (broadcastInDim_apply _ _ _ (ix2 e j) (ix2 (0 : Fin 1) j) (fun a => ?_)).trans ?_
  · match a with
    | ⟨0, _⟩ => rfl
    | ⟨1, _⟩ => rfl
  · exact broadcastInDim_apply _ _ _ _ (ix1 j) (fun a => match a with | ⟨0, _⟩ => rfl)

/-- A per-edge value over the 192 columns reads the edge's value. -/
private theorem col192_apply (x : Stage.C Ideal S65536 .f32) (e : Fin 65536) (j : Fin 192) :
    broadcastInDim S65536x192 ![0, 1] Facts₀.bcast_S65536x1_S65536x192_0_1 (Stage.colB x) (ix2 e j) = x (ix1 e) := by
  refine (broadcastInDim_apply _ _ _ (ix2 e j) (ix2 e (0 : Fin 1)) (fun a => ?_)).trans (colB_apply x e)
  match a with
  | ⟨0, _⟩ => rfl
  | ⟨1, _⟩ => rfl

/-- The dense layer over the radial basis, damped by the cutoff, at edge `e` and column `j`. -/
private theorem dense_apply (a0 : Stage.C Ideal S65536x3 .f32) (a5 : Stage.C Ideal S32x192 .f32) (a6 : Stage.C Ideal S192 .f32)
    (a7 a8 : Stage.C Ideal S32 .f32) (e : Fin 65536) (j : Fin 192) :
    Stage.dense a0 a5 a6 a7 a8 (ix2 e j)
      = EdgeSpec.dense (fun k => a0 (ix2 e k)) (fun k j' => a5 (ix2 k j')) (fun j' => a6 (ix1 j'))
          (fun k => a7 (ix1 k)) (fun k => a8 (ix1 k)) j := by
  unfold Stage.dense EdgeSpec.dense
  rw [mulf_apply, addf_apply, biasRow_apply, col192_apply, env_apply]
  refine congrArg (fun x => (x + a6 (ix1 j)) * EdgeSpec.envelope (fun k => a0 (ix2 e k))) ?_
  refine (dotGeneral_rows_apply Facts₀.dot_S65536x32_S32x192_S65536x192_1_0_0_1_n_n_wf (Stage.rbf a0 a7 a8) a5 e j).trans ?_
  exact Finset.sum_congr rfl fun k _ => by rw [rbf_apply]

/-! ## The 64 channels repeated three times -/

/-- Column `64 s + c` of the repeated array is channel `c`: the array is read as `[1, E, 1, 64]`, repeated along
    the third axis, and read back as `[E, 192]`, whose column `64 s + c` is the entry `(0, e, s, c)`. -/
private theorem tiled_apply (z : Stage.C Ideal S65536x64 .f32) (e : Fin 65536) (s : Fin 3) (c : Fin 64) :
    Stage.tiled z (ix2 e (⟨64 * s.val + c.val, by have := s.isLt; have := c.isLt; omega⟩ : Fin 192)) = z (ix2 e c) := by
  unfold Stage.tiled
  refine (shapeCast_apply _ _ _ (ix4 (0 : Fin 1) e s c) ?_).trans ?_
  · rw [Shape.rowMajor_val_four, Shape.rowMajor_val_two]
    show ((0 * 65536 + e.val) * 3 + s.val) * 64 + c.val = e.val * 192 + (64 * s.val + c.val)
    omega
  refine (broadcastInDim_apply _ _ _ (ix4 (0 : Fin 1) e s c) (ix4 (0 : Fin 1) e (0 : Fin 1) c) (fun a => ?_)).trans ?_
  · match a with
    | ⟨0, _⟩ => rfl
    | ⟨1, _⟩ => rfl
    | ⟨2, _⟩ => rfl
    | ⟨3, _⟩ => rfl
  refine shapeCast_apply _ _ _ (ix2 e c) ?_
  rw [Shape.rowMajor_val_four, Shape.rowMajor_val_two]
  show e.val * 64 + c.val = ((0 * 65536 + e.val) * 1 + 0) * 64 + c.val
  omega

/-! ## The coefficients -/

/-- Column `64 s + c` of an edge's coefficients: the dense result there times the species channel `c`. -/
theorem coefAll_apply (a0 : Stage.C Ideal S65536x3 .f32) (hE : Stage.C Ideal S65536x128 .f32) (a4 : Stage.C Ideal S128x64 .f32)
    (a5 : Stage.C Ideal S32x192 .f32) (a6 : Stage.C Ideal S192 .f32) (a7 a8 : Stage.C Ideal S32 .f32)
    (e : Fin 65536) (s : Fin 3) (c : Fin 64) :
    Stage.coefAll a0 hE a4 a5 a6 a7 a8
        (ix2 e (⟨64 * s.val + c.val, by have := s.isLt; have := c.isLt; omega⟩ : Fin 192))
      = EdgeSpec.coef (fun k => a0 (ix2 e k)) (fun k => hE (ix2 e k)) (fun k c' => a4 (ix2 k c'))
          (fun k j' => a5 (ix2 k j')) (fun j' => a6 (ix1 j')) (fun k => a7 (ix1 k)) (fun k => a8 (ix1 k)) s c := by
  unfold Stage.coefAll EdgeSpec.coef
  rw [mulf_apply, dense_apply, tiled_apply, species_apply]

end Cert.ReferenceIdeal.EdgeDense

end
-- ==== Proof.RefGeom.lean ====
/-
  The reference's geometric stages, read at one index.

  For edge `e` with displacement `v = (a0[e,0], a0[e,1], a0[e,2])`: the length stage is `|v|`, the square root
  of the three squared coordinates summed; the unit stage is `d = v / |v|` coordinate by coordinate; the three
  column stages are `d₀, d₁, d₂`.  The skew stage joins nine columns `0, -d₂, d₁, d₂, 0, -d₀, -d₁, d₀, 0` and cuts
  the row of nine into 3×3, so its entry `(i, j)` is entry `3·i + j` of that row.  The outer stage's entry
  `(i, j)` is `dᵢ · dⱼ`.  The trace stage sums all nine entries of the outer product with the off-diagonal ones
  replaced by zero (the mask's bit is set exactly where `i = j`), which leaves `d₀² + d₁² + d₂²`; a third of it
  is the scalar `t`.  The symmetric stage is `½ (M + Mᵀ) - t · I` with `M` the outer product and `I` the mask
  read as a number (`1` on the diagonal, `0` off it), which is the traceless symmetric matrix entry by entry.
-/
import proofs.«124262_j40570261078234_1_alg».proof.Proof.Spec
import proofs.«124262_j40570261078234_1_alg».proof.Proof.RefStages
import Idealize.ShloMosaic.Lib.ValueIdx
import Idealize.ShloMosaic.Lib.Pipeline.Value
import Idealize.ShloMosaic.PureOps.Ideal.Laws

noncomputable section

namespace Cert.ReferenceIdeal.EdgeGeom

open Idealize.ShloMosaic Idealize.ShloMosaic.ValueIdx Cert.ReferenceIdeal Cert.ReferenceIdeal.Facts₀

variable [Cert.ReferenceIdeal.Facts] (a0 : Stage.C Ideal S65536x3 .f32)

theorem norm_apply (e : Fin 65536) : Stage.norm a0 (ix1 e) = EdgeSpec.len (fun k => a0 (ix2 e k)) := by
  have hR : S65536x3.Reduces [1] S65536 :=
    ⟨reducesTo_S65536x3_S65536_d1.1, Nat.one_pos, reducesTo_S65536x3_S65536_d1.2⟩
  unfold Stage.norm EdgeSpec.len Host.sqrt Host.reduceAdd
  simp only [Ideal.hostUnary_sqrt_def, Ideal.hostReduceAdd_def]
  rw [Ideal.hostReduceAdd_single reducesTo_S65536x3_S65536_d1 hR, constant_apply, Ideal.ofBits_zero_f32, zero_add]
  refine congrArg Ideal.sqrt (Finset.sum_congr rfl fun k _ => ?_)
  have hk : hR.lift (ix1 e) k = ix2 e k := by
    funext c; match c with | ⟨0, _⟩ => rfl | ⟨1, _⟩ => rfl
  rw [hk]; rfl

theorem unit_apply (e : Fin 65536) (k : Fin 3) :
    Stage.unit a0 (ix2 e k) = EdgeSpec.dir (fun k => a0 (ix2 e k)) k := by
  unfold Stage.unit EdgeSpec.dir Stage.colB Host.divf
  simp only [Ideal.hostDivf_def]
  refine congrArg (Ideal.div (a0 (ix2 e k))) ?_
  refine (broadcastInDim_apply _ _ _ (ix2 e k) (ix2 e (0 : Fin 1)) fun a => ?_).trans ?_
  · match a with | ⟨0, _⟩ => rfl | ⟨1, _⟩ => rfl
  refine (broadcastInDim_apply _ _ _ (ix2 e (0 : Fin 1)) (ix1 e) fun a => ?_).trans ?_
  · match a with | ⟨0, _⟩ => rfl
  exact norm_apply a0 e

/-- A per-edge value as a column, read at the edge. -/
private theorem colB_apply (x : Stage.C Ideal S65536 .f32) (e : Fin 65536) :
    Stage.colB x (ix2 e (0 : Fin 1)) = x (ix1 e) := by
  unfold Stage.colB
  refine broadcastInDim_apply _ _ _ (ix2 e (0 : Fin 1)) (ix1 e) fun a => ?_
  match a with | ⟨0, _⟩ => rfl

/-- A splat literal reads the extended real its word denotes. -/
private theorem splat_apply (b : BitVec 32) (e : Fin 65536) :
    Stage.splat (F := Ideal) b (ix1 e) = Ideal.ofBits .f32 b := rfl

/-- Coordinate `k` of the direction, cut out as a column and flattened. -/
private theorem col_read (k : Fin 3) (h : S65536x3.Slices ![0, k.val] S65536x1) (e : Fin 65536) :
    shapeCast S65536 (extractStridedSlice S65536x1 ![0, k.val] (Stage.unit a0) h) shapeCasts_S65536x1_S65536 (ix1 e)
      = EdgeSpec.dir (fun k => a0 (ix2 e k)) k := by
  refine (shapeCast_apply _ _ (ix1 e) (ix2 e (0 : Fin 1)) ?_).trans ?_
  · rw [Shape.rowMajor_val_two, Shape.rowMajor_val_one]
    show e.val * 1 + 0 = e.val
    omega
  refine (extractStridedSlice_apply _ _ _ (ix2 e (0 : Fin 1)) (ix2 e k) fun a => ?_).trans (unit_apply a0 e k)
  match a with
  | ⟨0, _⟩ => show e.val = 0 + e.val; omega
  | ⟨1, _⟩ => show k.val = k.val + 0; omega

private theorem col0_apply (e : Fin 65536) : Stage.col0 a0 (ix1 e) = EdgeSpec.dir (fun k => a0 (ix2 e k)) 0 :=
  col_read a0 0 slices_S65536x3_S65536x1_0_0 e
private theorem col1_apply (e : Fin 65536) : Stage.col1 a0 (ix1 e) = EdgeSpec.dir (fun k => a0 (ix2 e k)) 1 :=
  col_read a0 1 slices_S65536x3_S65536x1_0_1 e
private theorem col2_apply (e : Fin 65536) : Stage.col2 a0 (ix1 e) = EdgeSpec.dir (fun k => a0 (ix2 e k)) 2 :=
  col_read a0 2 slices_S65536x3_S65536x1_0_2 e

/-- The mask's bit at `(i, j)`: set exactly on the diagonal. -/
private theorem eyeMask_apply (i j : Fin 3) :
    Stage.eyeMask (F := Ideal) (ix2 i j) = if i = j then 1#1 else 0#1 := by
  fin_cases i <;> fin_cases j <;> rfl

/-- The identity's entry at `(i, j)`, as the Kronecker delta. -/
private theorem eye3_delta (i j : Fin 3) : Stage.eye3 (F := Ideal) (ix2 i j) = if i = j then 1 else 0 := by
  have h : Stage.eye3 (F := Ideal) (ix2 i j)
      = (((Stage.eyeMask (F := Ideal) (ix2 i j)).toNat : ℝ) : EReal) := rfl
  rw [h, eyeMask_apply]
  split <;> simp

theorem eye3_apply (i j : Fin 3) : Stage.eye3 (F := Ideal) (ix2 i j) = EdgeSpec.eye (EdgeSpec.q9 i j) := by
  rw [eye3_delta]
  fin_cases i <;> fin_cases j <;> simp [EdgeSpec.eye, EdgeSpec.q9]

/-- The outer product's entry `(i, j)` is the product of the direction's coordinates `i` and `j`. -/
private theorem outer_apply (e : Fin 65536) (i j : Fin 3) :
    Stage.outer a0 (ix3 e i j)
      = EdgeSpec.dir (fun k => a0 (ix2 e k)) i * EdgeSpec.dir (fun k => a0 (ix2 e k)) j := by
  unfold Stage.outer
  rw [mulf_apply]
  refine congrArg₂ (· * ·) ?_ ?_
  · refine (broadcastInDim_apply _ _ _ (ix3 e i j) (ix3 e i (0 : Fin 1)) fun a => ?_).trans ?_
    · match a with | ⟨0, _⟩ => rfl | ⟨1, _⟩ => rfl | ⟨2, _⟩ => rfl
    refine (broadcastInDim_apply _ _ _ (ix3 e i (0 : Fin 1)) (ix2 e i) fun a => ?_).trans (unit_apply a0 e i)
    match a with | ⟨0, _⟩ => rfl | ⟨1, _⟩ => rfl
  · refine (broadcastInDim_apply _ _ _ (ix3 e i j) (ix3 e (0 : Fin 1) j) fun a => ?_).trans ?_
    · match a with | ⟨0, _⟩ => rfl | ⟨1, _⟩ => rfl | ⟨2, _⟩ => rfl
    refine (broadcastInDim_apply _ _ _ (ix3 e (0 : Fin 1) j) (ix2 e j) fun a => ?_).trans (unit_apply a0 e j)
    match a with | ⟨0, _⟩ => rfl | ⟨1, _⟩ => rfl

/-- Nine columns joined along the row: entry `q` of row `e` is column `q` at `e`. -/
private theorem cat9_apply (x0 x1 x2 x3 x4 x5 x6 x7 x8 : S65536x1.Idx → EReal)
    (h : Shape.Concatenates [S65536x1, S65536x1, S65536x1, S65536x1, S65536x1, S65536x1, S65536x1, S65536x1, S65536x1] S65536x9 1)
    (e : Fin 65536) (q : Fin 9) :
    concatenate S65536x9 1
        [⟨S65536x1, x0⟩, ⟨S65536x1, x1⟩, ⟨S65536x1, x2⟩, ⟨S65536x1, x3⟩, ⟨S65536x1, x4⟩, ⟨S65536x1, x5⟩,
         ⟨S65536x1, x6⟩, ⟨S65536x1, x7⟩, ⟨S65536x1, x8⟩] h (ix2 e q)
      = ![x0, x1, x2, x3, x4, x5, x6, x7, x8] q (ix2 e (0 : Fin 1)) := by
  refine concatenate_ofFn_unit_apply (t := S65536x9) (s₁ := S65536x1) 1 ![x0, x1, x2, x3, x4, x5, x6, x7, x8] h rfl rfl
    (ix2 e q) q rfl (ix2 e (0 : Fin 1)) fun b hb => ?_
  match b with
  | ⟨0, _⟩ => rfl
  | ⟨1, _⟩ => exact absurd rfl hb

theorem skew3_apply (e : Fin 65536) (i j : Fin 3) :
    Stage.skew3 a0 (ix3 e i j) = EdgeSpec.skew (fun k => a0 (ix2 e k)) (EdgeSpec.q9 i j) := by
  unfold Stage.skew3
  refine (shapeCast_apply _ _ (ix3 e i j) (ix2 e (EdgeSpec.q9 i j)) ?_).trans ?_
  · rw [Shape.rowMajor_val_two, Shape.rowMajor_val_three]
    show e.val * 9 + (3 * i.val + j.val) = (e.val * 3 + i.val) * 3 + j.val
    omega
  refine (cat9_apply _ _ _ _ _ _ _ _ _ _ e (EdgeSpec.q9 i j)).trans ?_
  have z : Stage.colB (Stage.splat (F := Ideal) 0x00000000#32) (ix2 e (0 : Fin 1)) = 0 := by
    rw [colB_apply, splat_apply, Ideal.ofBits_zero_f32]
  have p0 := (colB_apply (Stage.col0 a0) e).trans (col0_apply a0 e)
  have p1 := (colB_apply (Stage.col1 a0) e).trans (col1_apply a0 e)
  have p2 := (colB_apply (Stage.col2 a0) e).trans (col2_apply a0 e)
  have n0 : Stage.colB (Host.negf (Stage.col0 a0)) (ix2 e (0 : Fin 1)) = -(EdgeSpec.dir (fun k => a0 (ix2 e k)) 0) :=
    (colB_apply _ e).trans (congrArg Neg.neg (col0_apply a0 e))
  have n1 : Stage.colB (Host.negf (Stage.col1 a0)) (ix2 e (0 : Fin 1)) = -(EdgeSpec.dir (fun k => a0 (ix2 e k)) 1) :=
    (colB_apply _ e).trans (congrArg Neg.neg (col1_apply a0 e))
  have n2 : Stage.colB (Host.negf (Stage.col2 a0)) (ix2 e (0 : Fin 1)) = -(EdgeSpec.dir (fun k => a0 (ix2 e k)) 2) :=
    (colB_apply _ e).trans (congrArg Neg.neg (col2_apply a0 e))
  generalize EdgeSpec.q9 i j = q
  fin_cases q
  exacts [z, n2, p1, p2, z, n0, n1, p0, z]

/-- The entries of a `[65536, 3, 3]` array that reduce to edge `e` over the two matrix axes are the nine
    `(e, i, j)`: the reduction's filtered sum is the double sum over the matrix's coordinates. -/
private theorem sum_over_edge (x : S65536x3x3.Idx → EReal) (e : Fin 65536) :
    ∑ i ∈ Finset.univ.filter (fun i => reducesTo_S65536x3x3_S65536_d1_2.drop i = ix1 e), x i
      = ∑ i : Fin 3, ∑ j : Fin 3, x (ix3 e i j) := by
  have hd : ∀ i : S65536x3x3.Idx, ((reducesTo_S65536x3x3_S65536_d1_2.drop i) 0).val = (i 0).val := fun i =>
    Shape.ReducesTo.drop_apply_val_of_eq _ i 0 0
  refine (Finset.sum_nbij' (fun i => ((i 1 : Fin 3), (i 2 : Fin 3))) (fun p => ix3 e p.1 p.2) ?_ ?_ ?_ ?_ ?_).trans
    (Fintype.sum_prod_type fun p : Fin 3 × Fin 3 => x (ix3 e p.1 p.2))
  · intro a _; exact Finset.mem_univ _
  · intro p _
    refine Finset.mem_filter.2 ⟨Finset.mem_univ _, ?_⟩
    funext b
    match b with
    | ⟨0, _⟩ => exact Fin.ext (hd _)
  · intro a ha
    have h0 : (a 0).val = e.val := by
      have := congrArg (fun f : S65536.Idx => (f 0).val) (Finset.mem_filter.1 ha).2
      exact (hd a).symm.trans this
    funext c
    match c with
    | ⟨0, _⟩ => exact Fin.ext h0.symm
    | ⟨1, _⟩ => rfl
    | ⟨2, _⟩ => rfl
  · intro p _; rfl
  · intro a ha
    have h0 : (a 0).val = e.val := by
      have := congrArg (fun f : S65536.Idx => (f 0).val) (Finset.mem_filter.1 ha).2
      exact (hd a).symm.trans this
    refine congrArg x ?_
    funext c
    match c with
    | ⟨0, _⟩ => exact Fin.ext h0
    | ⟨1, _⟩ => rfl
    | ⟨2, _⟩ => rfl

/-- The trace: the masked nine-entry sum keeps the diagonal of the outer product. -/
private theorem trace_apply (e : Fin 65536) :
    Stage.trace a0 (ix1 e)
      = EdgeSpec.dir (fun k => a0 (ix2 e k)) 0 * EdgeSpec.dir (fun k => a0 (ix2 e k)) 0
        + EdgeSpec.dir (fun k => a0 (ix2 e k)) 1 * EdgeSpec.dir (fun k => a0 (ix2 e k)) 1
        + EdgeSpec.dir (fun k => a0 (ix2 e k)) 2 * EdgeSpec.dir (fun k => a0 (ix2 e k)) 2 := by
  unfold Stage.trace Host.reduceAdd
  simp only [Ideal.hostReduceAdd_def]
  unfold Ideal.hostReduceAdd
  rw [constant_apply, Ideal.ofBits_zero_f32, zero_add, sum_over_edge]
  refine Eq.trans ?_ (EdgeSpec.sum_diag fun i j =>
    EdgeSpec.dir (fun k => a0 (ix2 e k)) i * EdgeSpec.dir (fun k => a0 (ix2 e k)) j)
  refine Finset.sum_congr rfl fun i _ => Finset.sum_congr rfl fun j _ => ?_
  rw [select_apply, outer_apply]
  have hm : broadcastInDim S65536x3x3 ![1, 2] bcast_S3x3_S65536x3x3_1_2 (Stage.eyeMask (F := Ideal)) (ix3 e i j)
      = if i = j then 1#1 else 0#1 := by
    refine (broadcastInDim_apply _ _ _ (ix3 e i j) (ix2 i j) fun a => ?_).trans (eyeMask_apply i j)
    match a with | ⟨0, _⟩ => rfl | ⟨1, _⟩ => rfl
  have hz : broadcastInDim S65536x3x3 ![] bcast_S_S65536x3x3 (constant (F := Ideal) S_ .f32 0x00000000#32) (ix3 e i j) = 0 :=
    Ideal.ofBits_zero_f32
  rw [hm, hz]
  split
  · exact select_one _ _
  · exact select_zero _ _

/-- A third of the trace. -/
private theorem third_apply (e : Fin 65536) : Stage.third a0 (ix1 e) = EdgeSpec.tr3 (fun k => a0 (ix2 e k)) := by
  unfold Stage.third EdgeSpec.tr3 Host.divf
  simp only [Ideal.hostDivf_def]
  rw [trace_apply, splat_apply]

theorem symm3_apply (e : Fin 65536) (i j : Fin 3) :
    Stage.symm3 a0 (ix3 e i j) = EdgeSpec.sym (fun k => a0 (ix2 e k)) (EdgeSpec.q9 i j) := by
  unfold Stage.symm3
  rw [subf_apply, mulf_apply, mulf_apply, addf_apply, outer_apply]
  have hh : broadcastInDim S65536x3x3 ![] bcast_S_S65536x3x3 (constant (F := Ideal) S_ .f32 0x3F000000#32) (ix3 e i j)
      = EdgeSpec.half := rfl
  have ht : transpose S65536x3x3 [0, 2, 1] (Stage.outer a0) transposes_S65536x3x3_S65536x3x3_0_2_1 (ix3 e i j)
      = EdgeSpec.dir (fun k => a0 (ix2 e k)) j * EdgeSpec.dir (fun k => a0 (ix2 e k)) i := by
    refine (transpose_apply _ _ _ (ix3 e i j) (ix3 e j i) fun b => ?_).trans (outer_apply a0 e j i)
    match b with | ⟨0, _⟩ => rfl | ⟨1, _⟩ => rfl | ⟨2, _⟩ => rfl
  have h3 : broadcastInDim S65536x3x3 ![0, 1, 2] bcast_S65536x1x1_S65536x3x3_0_1_2
      (broadcastInDim S65536x1x1 ![0] bcast_S65536_S65536x1x1_0 (Stage.third a0)) (ix3 e i j)
      = EdgeSpec.tr3 (fun k => a0 (ix2 e k)) := by
    refine (broadcastInDim_apply _ _ _ (ix3 e i j) (ix3 e (0 : Fin 1) (0 : Fin 1)) fun a => ?_).trans ?_
    · match a with | ⟨0, _⟩ => rfl | ⟨1, _⟩ => rfl | ⟨2, _⟩ => rfl
    refine (broadcastInDim_apply _ _ _ (ix3 e (0 : Fin 1) (0 : Fin 1)) (ix1 e) fun a => ?_).trans (third_apply a0 e)
    match a with | ⟨0, _⟩ => rfl
  have he : broadcastInDim S65536x3x3 ![0, 1, 2] bcast_S1x3x3_S65536x3x3_0_1_2
      (broadcastInDim S1x3x3 ![1, 2] bcast_S3x3_S1x3x3_1_2 (Stage.eye3 (F := Ideal))) (ix3 e i j)
      = if i = j then 1 else 0 := by
    refine (broadcastInDim_apply _ _ _ (ix3 e i j) (ix3 (0 : Fin 1) i j) fun a => ?_).trans ?_
    · match a with | ⟨0, _⟩ => rfl | ⟨1, _⟩ => rfl | ⟨2, _⟩ => rfl
    refine (broadcastInDim_apply _ _ _ (ix3 (0 : Fin 1) i j) (ix2 i j) fun a => ?_).trans (eye3_delta i j)
    match a with | ⟨0, _⟩ => rfl | ⟨1, _⟩ => rfl
  rw [hh, ht, h3, he]
  exact EdgeSpec.sym_of_halves _ i j _ _ rfl rfl

end Cert.ReferenceIdeal.EdgeGeom

end
-- ==== Proof.RefRead.lean ====
/-
  The reference's three results read at one index.

  Each result is, at edge `e`, channel `c` and matrix entry `(i, j)`, a product of two factors.  The first factor is
  one third of the coefficient array — its columns `c`, `64 + c`, `128 + c` — repeated over the nine matrix entries.
  The second is a 3×3 matrix repeated over the channels: the identity (the same for every edge), the edge's skew
  matrix, or its traceless symmetric matrix.  Reading the broadcasts and the column slices at an index leaves the
  coefficient at `64 s + c` times the matrix entry `3 i + j`, which is how the specification writes the results.
-/
import proofs.«124262_j40570261078234_1_alg».proof.Proof.Spec
import proofs.«124262_j40570261078234_1_alg».proof.Proof.RefStages
import proofs.«124262_j40570261078234_1_alg».proof.Proof.RefDense
import proofs.«124262_j40570261078234_1_alg».proof.Proof.RefGeom
import Idealize.ShloMosaic.Lib.ValueIdx
import Idealize.ShloMosaic.Lib.Pipeline.Value

noncomputable section

namespace Cert.ReferenceIdeal.EdgeRead

open Idealize.ShloMosaic Idealize.ShloMosaic.ValueIdx Cert.ReferenceIdeal
open Cert

variable [Cert.ReferenceIdeal.Facts]

/-! ## The broadcasts over channels and matrix entries, and the thirds of the coefficient array -/

/-- A per-edge, per-channel value over the 3×3 entries reads the value at its edge and channel. -/
private theorem lift_apply (x : Stage.C Ideal S65536x64 .f32) (e : Fin 65536) (c : Fin 64) (i j : Fin 3) :
    Stage.lift x (ix4 e c i j) = x (ix2 e c) := by
  unfold Stage.lift
  refine (broadcastInDim_apply _ _ _ (ix4 e c i j) (ix4 e c (0 : Fin 1) (0 : Fin 1)) (fun a => ?_)).trans ?_
  · match a with
    | ⟨0, _⟩ => rfl
    | ⟨1, _⟩ => rfl
    | ⟨2, _⟩ => rfl
    | ⟨3, _⟩ => rfl
  · exact broadcastInDim_apply _ _ _ _ (ix2 e c) (fun a => match a with | ⟨0, _⟩ => rfl | ⟨1, _⟩ => rfl)

/-- A per-edge 3×3 matrix over the channels reads the matrix entry at its edge. -/
private theorem spread_apply (M : Stage.C Ideal S65536x3x3 .f32) (e : Fin 65536) (c : Fin 64) (i j : Fin 3) :
    Stage.spread M (ix4 e c i j) = M (ix3 e i j) := by
  unfold Stage.spread
  refine (broadcastInDim_apply _ _ _ (ix4 e c i j) (ix4 e (0 : Fin 1) i j) (fun a => ?_)).trans ?_
  · match a with
    | ⟨0, _⟩ => rfl
    | ⟨1, _⟩ => rfl
    | ⟨2, _⟩ => rfl
    | ⟨3, _⟩ => rfl
  · exact broadcastInDim_apply _ _ _ _ (ix3 e i j)
      (fun a => match a with | ⟨0, _⟩ => rfl | ⟨1, _⟩ => rfl | ⟨2, _⟩ => rfl)

/-- A 3×3 matrix over every edge and channel reads the matrix entry. -/
private theorem overAll_apply (M : Stage.C Ideal S3x3 .f32) (e : Fin 65536) (c : Fin 64) (i j : Fin 3) :
    broadcastInDim S65536x64x3x3 ![0, 1, 2, 3] Facts₀.bcast_S1x1x3x3_S65536x64x3x3_0_1_2_3
        (broadcastInDim S1x1x3x3 ![2, 3] Facts₀.bcast_S3x3_S1x1x3x3_2_3 M) (ix4 e c i j) = M (ix2 i j) := by
  refine (broadcastInDim_apply _ _ _ (ix4 e c i j) (ix4 (0 : Fin 1) (0 : Fin 1) i j) (fun a => ?_)).trans ?_
  · match a with
    | ⟨0, _⟩ => rfl
    | ⟨1, _⟩ => rfl
    | ⟨2, _⟩ => rfl
    | ⟨3, _⟩ => rfl
  · exact broadcastInDim_apply _ _ _ _ (ix2 i j) (fun a => match a with | ⟨0, _⟩ => rfl | ⟨1, _⟩ => rfl)

/-- The 64 columns from offset `64 s` of a 192-column array: column `c` of the slice is column `64 s + c`. -/
private theorem third_apply (X : Stage.C Ideal S65536x192 .f32) (off : Nat) (h : S65536x192.Slices ![0, off] S65536x64)
    (s : Fin 3) (hs : off = 64 * s.val) (e : Fin 65536) (c : Fin 64) :
    extractStridedSlice S65536x64 ![0, off] X h (ix2 e c)
      = X (ix2 e (⟨64 * s.val + c.val, by have := s.isLt; have := c.isLt; omega⟩ : Fin 192)) := by
  subst hs
  refine extractStridedSlice_apply _ _ _ _ _ (fun a => ?_)
  match a with
  | ⟨0, _⟩ => show e.val = 0 + e.val; omega
  | ⟨1, _⟩ => rfl

/-! ## The three results -/

/-- The first result at edge `e`, channel `c`, entry `(i, j)`: the first third's coefficient times the identity's entry. -/
theorem outI_apply (a0 : Stage.C Ideal S65536x3 .f32) (hE : Stage.C Ideal S65536x128 .f32) (a4 : Stage.C Ideal S128x64 .f32)
    (a5 : Stage.C Ideal S32x192 .f32) (a6 : Stage.C Ideal S192 .f32) (a7 a8 : Stage.C Ideal S32 .f32)
    (e : Fin 65536) (c : Fin 64) (i j : Fin 3) :
    Stage.outI a0 hE a4 a5 a6 a7 a8 (ix4 e c i j)
      = EdgeSpec.outI (fun k => a0 (ix2 e k)) (fun k => hE (ix2 e k)) (fun k c' => a4 (ix2 k c'))
          (fun k j' => a5 (ix2 k j')) (fun j' => a6 (ix1 j')) (fun k => a7 (ix1 k)) (fun k => a8 (ix1 k)) c (EdgeSpec.q9 i j) := by
  unfold Stage.outI EdgeSpec.outI
  rw [mulf_apply, lift_apply, third_apply _ 0 _ 0 rfl, EdgeDense.coefAll_apply, overAll_apply, EdgeGeom.eye3_apply]

/-- The second result: the second third's coefficient times the skew matrix's entry. -/
theorem outA_apply (a0 : Stage.C Ideal S65536x3 .f32) (hE : Stage.C Ideal S65536x128 .f32) (a4 : Stage.C Ideal S128x64 .f32)
    (a5 : Stage.C Ideal S32x192 .f32) (a6 : Stage.C Ideal S192 .f32) (a7 a8 : Stage.C Ideal S32 .f32)
    (e : Fin 65536) (c : Fin 64) (i j : Fin 3) :
    Stage.outA a0 hE a4 a5 a6 a7 a8 (ix4 e c i j)
      = EdgeSpec.outA (fun k => a0 (ix2 e k)) (fun k => hE (ix2 e k)) (fun k c' => a4 (ix2 k c'))
          (fun k j' => a5 (ix2 k j')) (fun j' => a6 (ix1 j')) (fun k => a7 (ix1 k)) (fun k => a8 (ix1 k)) c (EdgeSpec.q9 i j) := by
  unfold Stage.outA EdgeSpec.outA
  rw [mulf_apply, lift_apply, third_apply _ 64 _ 1 rfl, EdgeDense.coefAll_apply, spread_apply, EdgeGeom.skew3_apply]

/-- The third result: the last third's coefficient times the traceless symmetric matrix's entry. -/
theorem outS_apply (a0 : Stage.C Ideal S65536x3 .f32) (hE : Stage.C Ideal S65536x128 .f32) (a4 : Stage.C Ideal S128x64 .f32)
    (a5 : Stage.C Ideal S32x192 .f32) (a6 : Stage.C Ideal S192 .f32) (a7 a8 : Stage.C Ideal S32 .f32)
    (e : Fin 65536) (c : Fin 64) (i j : Fin 3) :
    Stage.outS a0 hE a4 a5 a6 a7 a8 (ix4 e c i j)
      = EdgeSpec.outS (fun k => a0 (ix2 e k)) (fun k => hE (ix2 e k)) (fun k c' => a4 (ix2 k c'))
          (fun k j' => a5 (ix2 k j')) (fun j' => a6 (ix1 j')) (fun k => a7 (ix1 k)) (fun k => a8 (ix1 k)) c (EdgeSpec.q9 i j) := by
  unfold Stage.outS EdgeSpec.outS
  rw [mulf_apply, lift_apply, third_apply _ 128 _ 2 rfl, EdgeDense.coefAll_apply, spread_apply, EdgeGeom.symm3_apply]

end Cert.ReferenceIdeal.EdgeRead

end
-- ==== Proof.KerDense.lean ====
/-
  The two dense layers of the kernel body, read entry by entry.

  The body sends the edge's pair embedding (one row of 128 entries) through the matrix `Wz` : a product of a
  128 × 128 block by a 128 × 64 matrix, accumulated into zeros.  At row `p` and column `c` this is the sum over the
  128 contracted positions of the row's entry times the matrix's, which is the specification's `species`.

  From the edge's length `r` (a 128 × 1 column, one entry per edge) the body builds the radial basis
  `exp (-βₖ (e^{-r} - μₖ)²)` as a 128 × 32 block — the column `e^{-r}` repeated along the 32 lanes, the rows `β`
  and `μ` repeated along the 128 edges, the negations written `0 - x` —, multiplies it by the 32 × 192 matrix
  `Wr`, adds the bias row repeated along the edges, and multiplies by the cosine cutoff, a 128 × 1 column
  repeated along the 192 lanes.  At row `p` and column `j` this is the specification's `dense` of the edge whose
  length sits in row `p`.  Changing the float format on the way into the product is the identity on the
  extended reals, and every literal but zero is kept as the word both sides print.
-/
import proofs.«124262_j40570261078234_1_alg».proof.Proof.Gen.KernelIdeal.Skeleton
import proofs.«124262_j40570261078234_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.EdgeDense

open Idealize.ShloMosaic Idealize.ShloMosaic.ValueIdx Cert.KernelIdeal

variable [Cert.KernelIdeal.Facts]

/-! ## A column repeated along the lanes, and the exponential at an entry -/

/-- A 128 × 1 column repeated along 32 lanes reads, at `(p, k)`, the column's entry of row `p`. -/
theorem bcast_col32 {α : Type} (x : S128x1.Idx → α) (h : S128x1.Broadcasts S128x32) (p : Fin 128) (k : Fin 32) :
    broadcastTo S128x32 x h (ix2 p k) = x (ix2 p (0 : Fin 1)) :=
  broadcastTo_apply x h (ix2 p k) (ix2 p (0 : Fin 1)) fun ax => by
    match ax with
    | ⟨0, _⟩ => rfl
    | ⟨1, _⟩ => rfl

/-- A 128 × 1 column repeated along 192 lanes reads, at `(p, j)`, the column's entry of row `p`. -/
theorem bcast_col192 {α : Type} (x : S128x1.Idx → α) (h : S128x1.Broadcasts S128x192) (p : Fin 128) (j : Fin 192) :
    broadcastTo S128x192 x h (ix2 p j) = x (ix2 p (0 : Fin 1)) :=
  broadcastTo_apply x h (ix2 p j) (ix2 p (0 : Fin 1)) fun ax => by
    match ax with
    | ⟨0, _⟩ => rfl
    | ⟨1, _⟩ => rfl

/-- The exponential of a vector, at an entry, is the exponential of the entry. -/
theorem exp_apply {s : Shape} {φ : FTy} (a : FVec Ideal s φ) (i : s.Idx) : exp a i = Ideal.exp (a i) := rfl

/-! ## The pair embedding through `Wz` -/

/-- Entry `(p, c)` of the product of the embedding block by `Wz` is the sum over the 128 contracted positions `k` of
    the block's `(p, k)` times the matrix's `(k, c)`: the contraction's index set is its one coordinate, and the two
    operand indices at position `k` are `(p, k)` and `(k, c)`. -/
theorem pay11_apply (v32 : Vec Ideal S128x128 .bf16) (v34 : Vec Ideal S128x64 .bf16) (p : Fin 128) (c : Fin 64) :
    Gen.k0_pay11 (F := Ideal) v32 v34 (ix2 p c)
      = Cert.EdgeSpec.species (fun k => v32 (ix2 p k)) (fun k c' => v34 (ix2 k c')) c := by
  unfold Gen.k0_pay11 Cert.EdgeSpec.species
  rw [shapeCast_self, shapeCast_self]
  refine (Ideal.matmul_constant_zero_apply (φ₁ := .bf16) (φ₂ := .bf16)
    Cert.KernelIdeal.dot_S128x128_S128x64_S128x64_1_0_0_1_n_n none v32 v34 (ix2 p c)).trans ?_
  rw [← Equiv.sum_comp (contrEquiv1 Cert.KernelIdeal.dot_S128x128_S128x64_S128x64_1_0_0_1_n_n 128 rfl rfl).symm]
  refine Finset.sum_congr rfl fun k _ => ?_
  have ck := contrEquiv1_symm_val Cert.KernelIdeal.dot_S128x128_S128x64_S128x64_1_0_0_1_n_n 128 rfl rfl k
  have hl : Cert.KernelIdeal.dot_S128x128_S128x64_S128x64_1_0_0_1_n_n.lhsIdx (ix2 p c)
      ((contrEquiv1 Cert.KernelIdeal.dot_S128x128_S128x64_S128x64_1_0_0_1_n_n 128 rfl rfl).symm k) = ix2 p k := by
    funext ax; apply Fin.ext
    match ax with
    | ⟨0, _⟩ => simp [DotDims.lhsIdx, Cert.KernelIdeal.dot_S128x128_S128x64_S128x64_1_0_0_1_n_n]; rfl
    | ⟨1, _⟩ => simp [DotDims.lhsIdx, Cert.KernelIdeal.dot_S128x128_S128x64_S128x64_1_0_0_1_n_n]; exact ck
  have hr : Cert.KernelIdeal.dot_S128x128_S128x64_S128x64_1_0_0_1_n_n.rhsIdx (ix2 p c)
      ((contrEquiv1 Cert.KernelIdeal.dot_S128x128_S128x64_S128x64_1_0_0_1_n_n 128 rfl rfl).symm k) = ix2 k c := by
    funext ax; apply Fin.ext
    match ax with
    | ⟨0, _⟩ => simp [DotDims.rhsIdx, Cert.KernelIdeal.dot_S128x128_S128x64_S128x64_1_0_0_1_n_n]; exact ck
    | ⟨1, _⟩ => simp [DotDims.rhsIdx, Cert.KernelIdeal.dot_S128x128_S128x64_S128x64_1_0_0_1_n_n]; rfl
  rw [hl, hr]

/-! ## The radial basis through `Wr`, the bias and the cutoff -/

/-- Entry `(p, j)` of the damped dense layer.  The product splits as (sum + bias) · cutoff.  The sum runs over the 32
    radial functions: its `k`-th term is the radial basis at `(p, k)` — the exponential of `(0 - βₖ)` times the square of
    `e^{0 - r} - μₖ`, with `r` the length in row `p` — times `Wr`'s `(k, j)`; `0 - x` is `-x`.  The bias is the row's
    entry `j`.  The cutoff is the column's entry of row `p`: the comparison of `r` with five selecting between
    `½ (cos (π r / 5) + 1)` and zero. -/
theorem pay14_apply (v4 : FVec Ideal S128x1 .f32) (v38 v40 : FVec Ideal S1x32 .f32) (v67 : Vec Ideal S32x192 .bf16)
    (v70 : Vec Ideal S1x192 .f32) (vrow : Fin 3 → EReal) (p : Fin 128) (j : Fin 192)
    (hlen : v4 (ix2 p (0 : Fin 1)) = Cert.EdgeSpec.len vrow) :
    Gen.k0_pay14 (F := Ideal) v4 v38 v40 (Scalar.ofBits .f32 0x00000000#32) v67 v70 (ix2 p j)
      = Cert.EdgeSpec.dense vrow (fun k j' => v67 (ix2 k j')) (fun j' => v70 (ix2 (0 : Fin 1) j'))
          (fun k => v38 (ix2 (0 : Fin 1) k)) (fun k => v40 (ix2 (0 : Fin 1) k)) j := by
  unfold Gen.k0_pay14 Cert.EdgeSpec.dense
  dsimp only
  rw [mulf_apply, addf_apply]
  refine congrArg₂ (· * ·) (congrArg₂ (· + ·) ?_ ?_) ?_
  · -- the sum over the radial functions
    rw [shapeCast_self]
    refine (Ideal.matmul_constant_zero_apply (φ₁ := .bf16) (φ₂ := .bf16)
      Cert.KernelIdeal.dot_S128x32_S32x192_S128x192_1_0_0_1_n_n none _ v67 (ix2 p j)).trans ?_
    rw [← Equiv.sum_comp (contrEquiv1 Cert.KernelIdeal.dot_S128x32_S32x192_S128x192_1_0_0_1_n_n 32 rfl rfl).symm]
    refine Finset.sum_congr rfl fun k _ => ?_
    have ck := contrEquiv1_symm_val Cert.KernelIdeal.dot_S128x32_S32x192_S128x192_1_0_0_1_n_n 32 rfl rfl k
    have hl : Cert.KernelIdeal.dot_S128x32_S32x192_S128x192_1_0_0_1_n_n.lhsIdx (ix2 p j)
        ((contrEquiv1 Cert.KernelIdeal.dot_S128x32_S32x192_S128x192_1_0_0_1_n_n 32 rfl rfl).symm k) = ix2 p k := by
      funext ax; apply Fin.ext
      match ax with
      | ⟨0, _⟩ => simp [DotDims.lhsIdx, Cert.KernelIdeal.dot_S128x32_S32x192_S128x192_1_0_0_1_n_n]; rfl
      | ⟨1, _⟩ => simp [DotDims.lhsIdx, Cert.KernelIdeal.dot_S128x32_S32x192_S128x192_1_0_0_1_n_n]; exact ck
    have hr : Cert.KernelIdeal.dot_S128x32_S32x192_S128x192_1_0_0_1_n_n.rhsIdx (ix2 p j)
        ((contrEquiv1 Cert.KernelIdeal.dot_S128x32_S32x192_S128x192_1_0_0_1_n_n 32 rfl rfl).symm k) = ix2 k j := by
      funext ax; apply Fin.ext
      match ax with
      | ⟨0, _⟩ => simp [DotDims.rhsIdx, Cert.KernelIdeal.dot_S128x32_S32x192_S128x192_1_0_0_1_n_n]; exact ck
      | ⟨1, _⟩ => simp [DotDims.rhsIdx, Cert.KernelIdeal.dot_S128x32_S32x192_S128x192_1_0_0_1_n_n]; rfl
    rw [hl, hr]
    refine congrArg (· * v67 (ix2 k j)) ?_
    unfold Cert.EdgeSpec.radial
    rw [← hlen]
    simp only [truncf_apply, exp_apply, mulf_apply, subf_apply, broadcast_apply, broadcastTo_1b_ab_apply, bcast_col32]
    simp only [Ideal.ofBits_def, Ideal.ofBits_zero_f32, zero_sub]
  · -- the bias row
    rw [shapeCast_self]
    exact broadcastTo_1b_ab_apply _ _ p j
  · -- the cutoff column
    refine (bcast_col192 _ _ p j).trans ?_
    unfold Cert.EdgeSpec.envelope
    rw [← hlen, ← Ideal.ofBits_zero_f32]
    rfl

end Cert.KernelIdeal.EdgeDense

end
-- ==== Proof.KerGeom.lean ====
/-
  The kernel body's geometric values, read at one edge.

  For the edge in row `p` with displacement `v k = x0 (p, k)`, the body computes the length
  `|v| = √(v₀² + v₁² + v₂²)` as a lane sum kept as a [128, 1] column, the unit direction `d = v / |v|` by
  broadcasting that column back along the lanes, the three columns `d₀, d₁, d₂` as unit-width slices, and two
  [128, 9] matrices as nine columns laid side by side: the skew matrix (its negated entries written `0 - x`) and the
  traceless symmetric matrix `d dᵀ - (tr (d dᵀ) / 3) · I`.  Each theorem below reads one of these values at an index
  and finds the specification's entry for that edge.
-/
import proofs.«124262_j40570261078234_1_alg».proof.Proof.Gen.KernelIdeal.Skeleton
import proofs.«124262_j40570261078234_1_alg».proof.Proof.Spec
import Idealize.ShloMosaic.Lib.ValueIdx
import Idealize.ShloMosaic.Lib.Pipeline.Value
import Idealize.ShloMosaic.PureOps.Ideal.Laws

namespace Cert.KernelIdeal.EdgeGeom

open Idealize.ShloMosaic Idealize.ShloMosaic.ValueIdx Cert.KernelIdeal

variable [Cert.KernelIdeal.Facts] (x0 : Vec Ideal S128x3 .f32)

/-- The row length: the square root of the lane sum of the squared coordinates.  The [128] → [128, 1] cast keeps the
    row-major position `p`, and the reduced index with lane `k` put back is `(p, k)`. -/
theorem pay4_apply (p : Fin 128) :
    Gen.k0_pay4 (F := Ideal) x0 (ix2 p (0 : Fin 1)) = EdgeSpec.len (fun k => x0 (ix2 p k)) := by
  unfold Gen.k0_pay4 EdgeSpec.len
  show Ideal.sqrt _ = Ideal.sqrt _
  refine congrArg Ideal.sqrt ?_
  refine (shapeCast_apply _ Gen.shapeCasts_S128_S128x1 (ix2 p (0 : Fin 1)) (ix1 p) ?_).trans ?_
  · rw [Shape.rowMajor_val_one, Shape.rowMajor_val_two]
    show p.val = p.val * 1 + 0
    omega
  refine (Ideal.multiReduction_add_single (mulf x0 x0) _ Gen.reduces_S128x3_S128 _ _ (ix1 p)).trans ?_
  refine Finset.sum_congr rfl fun k _ => ?_
  have e : Gen.reduces_S128x3_S128.lift (ix1 p) k = ix2 p k :=
    funext fun a => Fin.ext (by match a with | ⟨0, _⟩ => rfl | ⟨1, _⟩ => rfl)
  rw [e]
  rfl

/-- The unit direction: each coordinate divided by the row length, which the broadcast reads at `(p, 0)`. -/
theorem pay5_apply (p : Fin 128) (k : Fin 3) :
    Gen.k0_pay5 (F := Ideal) x0 (ix2 p k) = EdgeSpec.dir (fun k => x0 (ix2 p k)) k := by
  unfold Gen.k0_pay5 EdgeSpec.dir
  show Ideal.div (x0 (ix2 p k)) _ = Ideal.div (x0 (ix2 p k)) _
  refine congrArg (Ideal.div (x0 (ix2 p k))) ?_
  refine (broadcastTo_apply _ Gen.broadcasts_S128x1_S128x3 (ix2 p k) (ix2 p (0 : Fin 1)) ?_).trans (pay4_apply x0 p)
  intro a
  match a with
  | ⟨0, _⟩ => rfl
  | ⟨1, _⟩ => rfl

/-- Column 0 of the direction: the slice at lane offset 0 reads `(p, 0)`. -/
private theorem pay6_apply (p : Fin 128) :
    Gen.k0_pay6 (F := Ideal) x0 (ix2 p (0 : Fin 1)) = EdgeSpec.dir (fun k => x0 (ix2 p k)) 0 := by
  unfold Gen.k0_pay6
  refine (extractStridedSlice_apply _ _ Gen.slices_S128x3_o0_0_S128x1 (ix2 p (0 : Fin 1)) (ix2 p (0 : Fin 3)) ?_).trans
    (pay5_apply x0 p 0)
  intro a
  match a with
  | ⟨0, _⟩ => exact (Nat.zero_add _).symm
  | ⟨1, _⟩ => rfl

/-- Column 1 of the direction: the slice at lane offset 1 reads `(p, 1)`. -/
private theorem pay7_apply (p : Fin 128) :
    Gen.k0_pay7 (F := Ideal) x0 (ix2 p (0 : Fin 1)) = EdgeSpec.dir (fun k => x0 (ix2 p k)) 1 := by
  unfold Gen.k0_pay7
  refine (extractStridedSlice_apply _ _ Gen.slices_S128x3_o0_1_S128x1 (ix2 p (0 : Fin 1)) (ix2 p (1 : Fin 3)) ?_).trans
    (pay5_apply x0 p 1)
  intro a
  match a with
  | ⟨0, _⟩ => exact (Nat.zero_add _).symm
  | ⟨1, _⟩ => rfl

/-- Column 2 of the direction: the slice at lane offset 2 reads `(p, 2)`. -/
private theorem pay8_apply (p : Fin 128) :
    Gen.k0_pay8 (F := Ideal) x0 (ix2 p (0 : Fin 1)) = EdgeSpec.dir (fun k => x0 (ix2 p k)) 2 := by
  unfold Gen.k0_pay8
  refine (extractStridedSlice_apply _ _ Gen.slices_S128x3_o0_2_S128x1 (ix2 p (0 : Fin 1)) (ix2 p (2 : Fin 3)) ?_).trans
    (pay5_apply x0 p 2)
  intro a
  match a with
  | ⟨0, _⟩ => exact (Nat.zero_add _).symm
  | ⟨1, _⟩ => rfl

/-- Nine [128, 1] columns laid side by side along the lanes, read at `(p, q)`: column `q` at `(p, 0)`. -/
private theorem cat9_apply (c0 c1 c2 c3 c4 c5 c6 c7 c8 : FVec Ideal S128x1 .f32)
    (h : Shape.Concatenates [S128x1, S128x1, S128x1, S128x1, S128x1, S128x1, S128x1, S128x1, S128x1] S128x9 1)
    (p : Fin 128) (q : Fin 9) :
    concatenate S128x9 1 [⟨S128x1, c0⟩, ⟨S128x1, c1⟩, ⟨S128x1, c2⟩, ⟨S128x1, c3⟩, ⟨S128x1, c4⟩, ⟨S128x1, c5⟩,
        ⟨S128x1, c6⟩, ⟨S128x1, c7⟩, ⟨S128x1, c8⟩] h (ix2 p q)
      = (![c0, c1, c2, c3, c4, c5, c6, c7, c8] q) (ix2 p (0 : Fin 1)) := by
  refine concatenate_ofFn_unit_apply (t := S128x9) (s₁ := S128x1) (1 : Fin 2) (N := 9)
    (fun n => ![c0, c1, c2, c3, c4, c5, c6, c7, c8] n) h rfl rfl (ix2 p q) q rfl (ix2 p (0 : Fin 1)) ?_
  intro b hb
  match b with
  | ⟨0, _⟩ => rfl
  | ⟨1, _⟩ => exact absurd rfl hb

/-- The skew matrix's nine columns read at one row: a zero column reads 0, and `0 - x` reads `-x`. -/
private theorem skew_cols (a b c : FVec Ideal S128x1 .f32) (i : S128x1.Idx) (q : Fin 9) :
    (![broadcast S128x1 (FloatOps.ofBits (F := Ideal) .f32 0x00000000#32),
        subf (broadcast S128x1 (FloatOps.ofBits (F := Ideal) .f32 0x00000000#32)) c, b, c,
        broadcast S128x1 (FloatOps.ofBits (F := Ideal) .f32 0x00000000#32),
        subf (broadcast S128x1 (FloatOps.ofBits (F := Ideal) .f32 0x00000000#32)) a,
        subf (broadcast S128x1 (FloatOps.ofBits (F := Ideal) .f32 0x00000000#32)) b, a,
        broadcast S128x1 (FloatOps.ofBits (F := Ideal) .f32 0x00000000#32)] q) i
      = ![0, -(c i), b i, c i, 0, -(a i), -(b i), a i, 0] q := by
  have hz : Ideal.ofBits .f32 0x00000000#32 = 0 := Ideal.ofBits_zero_f32
  have hn : ∀ y : EReal, Ideal.ofBits .f32 0x00000000#32 - y = -y := fun y => by rw [hz, zero_sub]
  fin_cases q
  · exact hz
  · exact hn (c i)
  · rfl
  · rfl
  · exact hz
  · exact hn (a i)
  · exact hn (b i)
  · rfl
  · exact hz

/-- The symmetric matrix's nine columns read at one row, from the three direction columns there: the products, and on
    the diagonal the product less a third of `(a² + b²) + c²`, the divisor kept as its word. -/
private theorem sym_cols (a b c : FVec Ideal S128x1 .f32) (i : S128x1.Idx) (q : Fin 9) :
    (![subf (mulf a a) (divf (addf (addf (mulf a a) (mulf b b)) (mulf c c))
          (broadcast S128x1 (FloatOps.ofBits (F := Ideal) .f32 0x40400000#32))),
        mulf a b, mulf a c, mulf a b,
        subf (mulf b b) (divf (addf (addf (mulf a a) (mulf b b)) (mulf c c))
          (broadcast S128x1 (FloatOps.ofBits (F := Ideal) .f32 0x40400000#32))),
        mulf b c, mulf a c, mulf b c,
        subf (mulf c c) (divf (addf (addf (mulf a a) (mulf b b)) (mulf c c))
          (broadcast S128x1 (FloatOps.ofBits (F := Ideal) .f32 0x40400000#32)))] q) i
      = ![a i * a i - Ideal.div (a i * a i + b i * b i + c i * c i) EdgeSpec.three, a i * b i, a i * c i,
          a i * b i, b i * b i - Ideal.div (a i * a i + b i * b i + c i * c i) EdgeSpec.three, b i * c i,
          a i * c i, b i * c i, c i * c i - Ideal.div (a i * a i + b i * b i + c i * c i) EdgeSpec.three] q := by
  fin_cases q <;> rfl

/-- The skew matrix of the direction, row-major. -/
theorem pay9_apply (p : Fin 128) (q : Fin 9) :
    Gen.k0_pay9 (F := Ideal) x0 (ix2 p q) = EdgeSpec.skew (fun k => x0 (ix2 p k)) q := by
  unfold Gen.k0_pay9
  refine (cat9_apply _ _ _ _ _ _ _ _ _ _ p q).trans ?_
  refine (skew_cols (Gen.k0_pay6 x0) (Gen.k0_pay7 x0) (Gen.k0_pay8 x0) (ix2 p (0 : Fin 1)) q).trans ?_
  rw [pay6_apply x0 p, pay7_apply x0 p, pay8_apply x0 p]
  rfl

/-- The traceless symmetric matrix of the direction, row-major. -/
theorem pay10_apply (p : Fin 128) (q : Fin 9) :
    Gen.k0_pay10 (F := Ideal) x0 (ix2 p q) = EdgeSpec.sym (fun k => x0 (ix2 p k)) q := by
  unfold Gen.k0_pay10
  refine (cat9_apply _ _ _ _ _ _ _ _ _ _ p q).trans ?_
  refine (sym_cols (Gen.k0_pay6 x0) (Gen.k0_pay7 x0) (Gen.k0_pay8 x0) (ix2 p (0 : Fin 1)) q).trans ?_
  rw [pay6_apply x0 p, pay7_apply x0 p, pay8_apply x0 p]
  rfl

end Cert.KernelIdeal.EdgeGeom
-- ==== Proof.KerPay.lean ====
/-
  The three blocks the kernel body stores, read entry by entry.

  Each stored block is 128 edges × 64 channels × 9 matrix entries, written by one store through the whole buffer, so
  the buffer afterwards is that store's value, and the value's inputs are the input blocks read through their whole
  rectangles, which are the blocks themselves.

  At edge `p`, channel `c`, matrix entry `q` the stored value is a product of two factors.  The first is the
  coefficient: entry `(p, 64 s + c)` of the damped dense layer — the dense layer's 192 columns are cut into three
  slices of 64 at offsets 0, 64, 128, one per output — times entry `(p, c)` of the pair embedding sent through `Wz`;
  the 128 × 64 product is viewed as 128 × 64 × 1 and repeated along the nine matrix entries.  The second factor
  does not depend on the channel: for the first output it is the flattened identity's entry `q` (a 1 × 9 row viewed
  as 1 × 1 × 9 and repeated along edges and channels), for the other two the skew and the symmetric matrix of the
  edge's direction at `q` (a 128 × 9 block viewed as 128 × 1 × 9 and repeated along the channels).
-/
import proofs.«124262_j40570261078234_1_alg».proof.Proof.Gen.KernelIdeal.Frame
import proofs.«124262_j40570261078234_1_alg».proof.Proof.Spec
import proofs.«124262_j40570261078234_1_alg».proof.Proof.KerDense
import proofs.«124262_j40570261078234_1_alg».proof.Proof.KerGeom
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.EdgePay

open Idealize.ShloMosaic Idealize.ShloMosaic.ValueIdx Cert.KernelIdeal

variable [Cert.KernelIdeal.Facts]

/-! ## Whole-buffer rectangles -/

/-- The zero offsets of a rank-2 rectangle, as the constant function. -/
theorem zeros2 : (![0, 0] : Fin 2 → Nat) = fun _ => 0 := funext fun a => by fin_cases a <;> rfl
/-- The zero offsets of a rank-3 rectangle, as the constant function. -/
theorem zeros3 : (![0, 0, 0] : Fin 3 → Nat) = fun _ => 0 := funext fun a => by fin_cases a <;> rfl

/-! ## Layout operations of the stored blocks, at an entry -/

/-- A 1 × 1 × 9 row repeated along edges and channels reads, at `(p, c, q)`, the row's entry `q`. -/
theorem bcast_row9 {α : Type} (x : S1x1x9.Idx → α) (h : S1x1x9.Broadcasts S128x64x9) (p : Fin 128) (c : Fin 64) (q : Fin 9) :
    broadcastTo S128x64x9 x h (ix3 p c q) = x (ix3 (0 : Fin 1) (0 : Fin 1) q) :=
  broadcastTo_apply x h (ix3 p c q) (ix3 (0 : Fin 1) (0 : Fin 1) q) fun ax => by
    match ax with
    | ⟨0, _⟩ => rfl
    | ⟨1, _⟩ => rfl
    | ⟨2, _⟩ => rfl

/-- A 128 × 64 × 1 block repeated along the nine matrix entries reads, at `(p, c, q)`, the block's `(p, c)`. -/
theorem bcast_chan {α : Type} (x : S128x64x1.Idx → α) (h : S128x64x1.Broadcasts S128x64x9) (p : Fin 128) (c : Fin 64) (q : Fin 9) :
    broadcastTo S128x64x9 x h (ix3 p c q) = x (ix3 p c (0 : Fin 1)) :=
  broadcastTo_apply x h (ix3 p c q) (ix3 p c (0 : Fin 1)) fun ax => by
    match ax with
    | ⟨0, _⟩ => rfl
    | ⟨1, _⟩ => rfl
    | ⟨2, _⟩ => rfl

/-- A 128 × 1 × 9 block repeated along the 64 channels reads, at `(p, c, q)`, the block's `(p, q)`. -/
theorem bcast_mat {α : Type} (x : S128x1x9.Idx → α) (h : S128x1x9.Broadcasts S128x64x9) (p : Fin 128) (c : Fin 64) (q : Fin 9) :
    broadcastTo S128x64x9 x h (ix3 p c q) = x (ix3 p (0 : Fin 1) q) :=
  broadcastTo_apply x h (ix3 p c q) (ix3 p (0 : Fin 1) q) fun ax => by
    match ax with
    | ⟨0, _⟩ => rfl
    | ⟨1, _⟩ => rfl
    | ⟨2, _⟩ => rfl

/-- A 128 × 64 matrix viewed as 128 × 64 × 1 keeps its entries: the row-major position of `(p, c, 0)` is that of
    `(p, c)`. -/
theorem cast_chan {α : Type} (x : S128x64.Idx → α) (h : S128x64.ShapeCasts S128x64x1) (p : Fin 128) (c : Fin 64) (u : Fin 1) :
    shapeCast S128x64x1 x h (ix3 p c u) = x (ix2 p c) :=
  shapeCast_apply x h _ _ (by
    have hu : u.val = 0 := by omega
    rw [Shape.rowMajor_val_three, Shape.rowMajor_val_two]
    show p.val * 64 + c.val = (p.val * 64 + c.val) * 1 + u.val
    omega)

/-- A 128 × 9 matrix viewed as 128 × 1 × 9 keeps its entries: the row-major position of `(p, 0, q)` is that of
    `(p, q)`. -/
theorem cast_mat {α : Type} (x : S128x9.Idx → α) (h : S128x9.ShapeCasts S128x1x9) (p : Fin 128) (u : Fin 1) (q : Fin 9) :
    shapeCast S128x1x9 x h (ix3 p u q) = x (ix2 p q) :=
  shapeCast_apply x h _ _ (by
    have hu : u.val = 0 := by omega
    rw [Shape.rowMajor_val_three, Shape.rowMajor_val_two]
    show p.val * 9 + q.val = (p.val * 1 + u.val) * 9 + q.val
    omega)

/-! ## The payloads of the stores, at an entry -/

/-- The `β` row passes through a cast to its own shape unchanged. -/
theorem pay12_eq (v37 : Vec Ideal S1x32 .f32) : Gen.k0_pay12 (F := Ideal) v37 = v37 := by
  unfold Gen.k0_pay12; exact shapeCast_self _ _

/-- The `μ` row passes through a cast to its own shape unchanged. -/
theorem pay13_eq (v39 : Vec Ideal S1x32 .f32) : Gen.k0_pay13 (F := Ideal) v39 = v39 := by
  unfold Gen.k0_pay13; exact shapeCast_self _ _

/-- The flattened identity viewed as 1 × 1 × 9 reads, at `(0, 0, q)`, the row's entry `q`. -/
theorem pay17_apply (v82 : Vec Ideal S1x9 .f32) (q : Fin 9) :
    Gen.k0_pay17 (F := Ideal) v82 (ix3 (0 : Fin 1) (0 : Fin 1) q) = v82 (ix2 (0 : Fin 1) q) := by
  unfold Gen.k0_pay17
  rw [shapeCast_self]
  exact shapeCast_ab_1ab_apply _ _ 0 0 q

/-- The first stored block: the channel-wise coefficient block times the identity row repeated over it. -/
theorem pay1_apply (v85 : FVec Ideal S1x1x9 .f32) (v86 : FVec Ideal S128x64x9 .f32) (p : Fin 128) (c : Fin 64) (q : Fin 9) :
    Gen.k0_pay1 (F := Ideal) v85 v86 (ix3 p c q) = v86 (ix3 p c q) * v85 (ix3 (0 : Fin 1) (0 : Fin 1) q) := by
  unfold Gen.k0_pay1
  rw [mulf_apply, bcast_row9]

/-- The second stored block: the coefficient at `(p, c)` times the skew block's `(p, q)`. -/
theorem pay2_apply (v17 : FVec Ideal S128x9 .f32) (v79 : FVec Ideal S128x64 .f32) (p : Fin 128) (c : Fin 64) (q : Fin 9) :
    Gen.k0_pay2 (F := Ideal) v17 v79 (ix3 p c q) = v79 (ix2 p c) * v17 (ix2 p q) := by
  unfold Gen.k0_pay2
  rw [mulf_apply, bcast_chan, bcast_mat, cast_chan, cast_mat]

/-- The third stored block: the coefficient at `(p, c)` times the symmetric block's `(p, q)`. -/
theorem pay3_apply (v31 : FVec Ideal S128x9 .f32) (v81 : FVec Ideal S128x64 .f32) (p : Fin 128) (c : Fin 64) (q : Fin 9) :
    Gen.k0_pay3 (F := Ideal) v31 v81 (ix3 p c q) = v81 (ix2 p c) * v31 (ix2 p q) := by
  unfold Gen.k0_pay3
  rw [mulf_apply, bcast_chan, bcast_mat, cast_chan, cast_mat]

/-- The first coefficient block, already repeated along the matrix entries: at `(p, c, q)` it is the dense layer's
    entry `(p, k)` with `k = 0 + c` (the slice at column offset 0) times the `Wz` product's `(p, c)`. -/
theorem pay18_apply (v4 : FVec Ideal S128x1 .f32) (v36 : FVec Ideal S128x64 .f32) (v38 v40 : FVec Ideal S1x32 .f32)
    (w : Ideal .f32) (v67 : Vec Ideal S32x192 .bf16) (v70 : Vec Ideal S1x192 .f32) (p : Fin 128) (c : Fin 64) (q : Fin 9)
    (k : Fin 192) (hk : k.val = 0 + c.val) :
    Gen.k0_pay18 (F := Ideal) v4 v36 v38 v40 w v67 v70 (ix3 p c q)
      = Gen.k0_pay14 (F := Ideal) v4 v38 v40 w v67 v70 (ix2 p k) * v36 (ix2 p c) := by
  unfold Gen.k0_pay18
  rw [bcast_chan, cast_chan, mulf_apply, slice2_axis1_apply 0 _ _ p c k hk]

/-- The second coefficient block: the dense layer's entry `(p, k)` with `k = 64 + c` (the slice at column offset 64)
    times the `Wz` product's `(p, c)`. -/
theorem pay15_apply (v4 : FVec Ideal S128x1 .f32) (v36 : FVec Ideal S128x64 .f32) (v38 v40 : FVec Ideal S1x32 .f32)
    (w : Ideal .f32) (v67 : Vec Ideal S32x192 .bf16) (v70 : Vec Ideal S1x192 .f32) (p : Fin 128) (c : Fin 64)
    (k : Fin 192) (hk : k.val = 64 + c.val) :
    Gen.k0_pay15 (F := Ideal) v4 v36 v38 v40 w v67 v70 (ix2 p c)
      = Gen.k0_pay14 (F := Ideal) v4 v38 v40 w v67 v70 (ix2 p k) * v36 (ix2 p c) := by
  unfold Gen.k0_pay15
  rw [mulf_apply, slice2_axis1_apply 64 _ _ p c k hk]

/-- The third coefficient block: the dense layer's entry `(p, k)` with `k = 128 + c` (the slice at column offset 128)
    times the `Wz` product's `(p, c)`. -/
theorem pay16_apply (v4 : FVec Ideal S128x1 .f32) (v36 : FVec Ideal S128x64 .f32) (v38 v40 : FVec Ideal S1x32 .f32)
    (w : Ideal .f32) (v67 : Vec Ideal S32x192 .bf16) (v70 : Vec Ideal S1x192 .f32) (p : Fin 128) (c : Fin 64)
    (k : Fin 192) (hk : k.val = 128 + c.val) :
    Gen.k0_pay16 (F := Ideal) v4 v36 v38 v40 w v67 v70 (ix2 p c)
      = Gen.k0_pay14 (F := Ideal) v4 v38 v40 w v67 v70 (ix2 p k) * v36 (ix2 p c) := by
  unfold Gen.k0_pay16
  rw [mulf_apply, slice2_axis1_apply 128 _ _ p c k hk]

/-! ## The three stored blocks, at an entry -/

section Stored
variable (x0 : Vec Ideal S128x3 .f32) (x1 : Vec Ideal S128x128 .bf16) (x2 : Vec Ideal S128x64 .bf16)
  (x3 : Vec Ideal S32x192 .bf16) (x4 : Vec Ideal S1x192 .f32) (x5 x6 : Vec Ideal S1x32 .f32) (x7 : Vec Ideal S1x9 .f32)
  (p : Fin 128) (c : Fin 64) (q : Fin 9)

/-- The coefficient of third `s`: the dense layer at column `64 s + c`, fed the edge's length, the `β` and `μ` rows,
    `Wr` and the bias, times the pair embedding through `Wz` at channel `c`, is the specification's `coef`. -/
theorem coef_apply (s : Fin 3) (k : Fin 192) (hk : k.val = 64 * s.val + c.val) :
    Gen.k0_pay14 (F := Ideal) (Gen.k0_pay4 x0) (Gen.k0_pay12 x5) (Gen.k0_pay13 x6) (Scalar.ofBits .f32 0x00000000#32) x3 x4 (ix2 p k)
        * Gen.k0_pay11 (F := Ideal) x1 x2 (ix2 p c)
      = Cert.EdgeSpec.coef (fun k => x0 (ix2 p k)) (fun k => x1 (ix2 p k)) (fun k c' => x2 (ix2 k c'))
          (fun k j' => x3 (ix2 k j')) (fun j' => x4 (ix2 (0 : Fin 1) j')) (fun k => x5 (ix2 (0 : Fin 1) k))
          (fun k => x6 (ix2 (0 : Fin 1) k)) s c := by
  have hb : 64 * s.val + c.val < 192 := by have := s.isLt; have := c.isLt; omega
  have e : k = ⟨64 * s.val + c.val, hb⟩ := Fin.ext hk
  rw [e]
  unfold Cert.EdgeSpec.coef
  rw [pay12_eq, pay13_eq, EdgeDense.pay11_apply,
    EdgeDense.pay14_apply _ _ _ _ _ (fun k => x0 (ix2 p k)) p _ (EdgeGeom.pay4_apply x0 p)]

/-- The first output's buffer after the body, at `(p, c, q)`: the coefficient of the first third times the flattened
    identity's entry `q`. -/
theorem out8_apply :
    Gen.out0_8 (F := Ideal) x0 x1 x2 x3 x4 x5 x6 x7 (ix3 p c q)
      = Cert.EdgeSpec.coef (fun k => x0 (ix2 p k)) (fun k => x1 (ix2 p k)) (fun k c' => x2 (ix2 k c'))
          (fun k j' => x3 (ix2 k j')) (fun j' => x4 (ix2 (0 : Fin 1) j')) (fun k => x5 (ix2 (0 : Fin 1) k))
          (fun k => x6 (ix2 (0 : Fin 1) k)) 0 c * x7 (ix2 (0 : Fin 1) q) := by
  unfold Gen.out0_8
  rw [View.canon_unit_zero zeros3]
  simp only [View.ld_unit_zero (S := S128x3) zeros2, View.ld_unit_zero (S := S128x128) zeros2,
    View.ld_unit_zero (S := S128x64) zeros2, View.ld_unit_zero (S := S32x192) zeros2,
    View.ld_unit_zero (S := S1x192) zeros2, View.ld_unit_zero (S := S1x32) zeros2, View.ld_unit_zero (S := S1x9) zeros2]
  rw [pay1_apply, pay17_apply,
    pay18_apply _ _ _ _ _ _ _ p c q ⟨64 * (0 : Fin 3).val + c.val, by have := c.isLt; simp; omega⟩ (by simp),
    coef_apply x0 x1 x2 x3 x4 x5 x6 p c 0 _ rfl]

/-- The second output's buffer after the body, at `(p, c, q)`: the coefficient of the second third times the skew
    matrix of the edge's direction at `q`. -/
theorem out9_apply :
    Gen.out0_9 (F := Ideal) x0 x1 x2 x3 x4 x5 x6 x7 (ix3 p c q)
      = Cert.EdgeSpec.coef (fun k => x0 (ix2 p k)) (fun k => x1 (ix2 p k)) (fun k c' => x2 (ix2 k c'))
          (fun k j' => x3 (ix2 k j')) (fun j' => x4 (ix2 (0 : Fin 1) j')) (fun k => x5 (ix2 (0 : Fin 1) k))
          (fun k => x6 (ix2 (0 : Fin 1) k)) 1 c * Cert.EdgeSpec.skew (fun k => x0 (ix2 p k)) q := by
  unfold Gen.out0_9
  rw [View.canon_unit_zero zeros3]
  simp only [View.ld_unit_zero (S := S128x3) zeros2, View.ld_unit_zero (S := S128x128) zeros2,
    View.ld_unit_zero (S := S128x64) zeros2, View.ld_unit_zero (S := S32x192) zeros2,
    View.ld_unit_zero (S := S1x192) zeros2, View.ld_unit_zero (S := S1x32) zeros2, View.ld_unit_zero (S := S1x9) zeros2]
  rw [pay2_apply, EdgeGeom.pay9_apply,
    pay15_apply _ _ _ _ _ _ _ p c ⟨64 * (1 : Fin 3).val + c.val, by have := c.isLt; simp; omega⟩ (by simp),
    coef_apply x0 x1 x2 x3 x4 x5 x6 p c 1 _ rfl]

/-- The third output's buffer after the body, at `(p, c, q)`: the coefficient of the last third times the traceless
    symmetric matrix of the edge's direction at `q`. -/
theorem out10_apply :
    Gen.out0_10 (F := Ideal) x0 x1 x2 x3 x4 x5 x6 x7 (ix3 p c q)
      = Cert.EdgeSpec.coef (fun k => x0 (ix2 p k)) (fun k => x1 (ix2 p k)) (fun k c' => x2 (ix2 k c'))
          (fun k j' => x3 (ix2 k j')) (fun j' => x4 (ix2 (0 : Fin 1) j')) (fun k => x5 (ix2 (0 : Fin 1) k))
          (fun k => x6 (ix2 (0 : Fin 1) k)) 2 c * Cert.EdgeSpec.sym (fun k => x0 (ix2 p k)) q := by
  unfold Gen.out0_10
  rw [View.canon_unit_zero zeros3]
  simp only [View.ld_unit_zero (S := S128x3) zeros2, View.ld_unit_zero (S := S128x128) zeros2,
    View.ld_unit_zero (S := S128x64) zeros2, View.ld_unit_zero (S := S32x192) zeros2,
    View.ld_unit_zero (S := S1x192) zeros2, View.ld_unit_zero (S := S1x32) zeros2, View.ld_unit_zero (S := S1x9) zeros2]
  rw [pay3_apply, EdgeGeom.pay10_apply,
    pay16_apply _ _ _ _ _ _ _ p c ⟨64 * (2 : Fin 3).val + c.val, by have := c.isLt; simp; omega⟩ (by simp),
    coef_apply x0 x1 x2 x3 x4 x5 x6 p c 2 _ rfl]

end Stored

end Cert.KernelIdeal.EdgePay

end
-- ==== Proof.KerBlocks.lean ====
/-
  Where each block of the edge kernel sits in its array.

  The kernel's grid has 512 points; point t works on edge tile t, the 128 edges 128·t … 128·t + 127.  Two inputs are
  tiled along the edge axis (the displacements, [65536, 3], and the pair embeddings, [65536, 128]): their block at point t
  is rows 128·t … 128·t + 127 of the array.  The six other inputs (the two weight matrices, the bias row, the radial
  basis's two parameter rows and the identity row) are staged whole: their block at every point is the array itself.
  Each of the three outputs, [65536, 64, 9], is written back tile by tile: the block at point t is rows
  128·t … 128·t + 127, all 64 channels, all 9 matrix entries.

  A block's element sits in the array, on each axis, at block index × block size + its own coordinate; the block indices
  are read off the printed index maps once, over the whole grid.  From that: each input block read at a coordinate is the
  array read at the edge's row; each output block's element is the array's element of that edge; and every index of an
  output array lies in the block of the point its edge's tile names, e / 128.
-/
import proofs.«124262_j40570261078234_1_alg».proof.Proof.Gen.KernelIdeal.Frame
import Idealize.ShloMosaic.Lib.ValueIdx
import Idealize.ShloMosaic.Lib.Pipeline.Value

noncomputable section

namespace Cert.KernelIdeal.EdgeValue

open Idealize.ShloMosaic Idealize.ShloMosaic.ValueIdx Idealize.ShloMosaic.TcCoe Idealize.SL.Sem
open Cert.KernelIdeal Cert.KernelIdeal.Gen
open Idealize.ShloMosaic.Pipeline (Dat)

variable (m : (ℓ : Loc nD τ sig) → Buf (Elt Ideal) ℓ)

/-! ## The block indices, over the grid -/

/-- The two tiled inputs move with the grid point along the edge axis; the six small inputs stay at block (0, 0). -/
theorem input_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- Each output's block at point t is edge tile t: block index (t, 0, 0). -/
theorem output_index : ∀ t : Fin cfg0.N,
    (win0_8.index t (0 : Fin 3) = t.val ∧ win0_8.index t (1 : Fin 3) = 0 ∧ win0_8.index t (2 : Fin 3) = 0)
    ∧ (win0_9.index t (0 : Fin 3) = t.val ∧ win0_9.index t (1 : Fin 3) = 0 ∧ win0_9.index t (2 : Fin 3) = 0)
    ∧ (win0_10.index t (0 : Fin 3) = t.val ∧ win0_10.index t (1 : Fin 3) = 0 ∧ win0_10.index t (2 : Fin 3) = 0) :=
  (by decide +kernel : ∀ t : Fin grid0.N, _)

/-- The grid has 512 points, one per edge tile. -/
theorem grid_points : cfg0.N = 512 := N_0

/-- Row p of edge tile t is edge 128·t + p. -/
def tileRow (t : Fin cfg0.N) (p : Fin 128) : Fin 65536 :=
  ⟨128 * t.val + p.val, by have h1 := t.isLt; have h2 : cfg0.N = 512 := grid_points; have h3 := p.isLt; omega⟩

theorem tileRow_val (t : Fin cfg0.N) (p : Fin 128) : (tileRow t p).val = 128 * t.val + p.val := rfl

/-- The tile that holds edge e is e / 128. -/
def tileOf (e : Nat) (he : e < 65536) : Fin cfg0.N :=
  ⟨e / 128, by have h2 : cfg0.N = 512 := grid_points; omega⟩

theorem tileOf_val (e : Nat) (he : e < 65536) : (tileOf e he).val = e / 128 := rfl

/-! ## The input blocks, read at a coordinate -/

/-- The displacement block at point t, row p, is the displacement of edge 128·t + p. -/
theorem disp_row (c : Dev nD) (t : Fin cfg0.N) (p : Fin 128) (k : Fin 3) :
    (iblk m c 0 t : Vec Ideal S128x3 .f32) (ix2 p k) = V m c main_arg0 (ix2 (tileRow t p) k) := by
  obtain ⟨⟨e0, e1⟩, -⟩ := input_index t
  unfold iblk
  rw [View.read_apply]
  show V m c main_arg0 _ = V m c main_arg0 _
  refine congrArg _ (funext fun a => Fin.ext ?_)
  match a with
  | ⟨0, _⟩ => show win0_0.index t 0 * 128 + 1 * p.val = 128 * t.val + p.val; rw [e0]; omega
  | ⟨1, _⟩ => show win0_0.index t 1 * 3 + 1 * k.val = k.val; rw [e1]; omega

/-- The pair-embedding block at point t, row p, is the pair embedding of edge 128·t + p. -/
theorem pair_row (c : Dev nD) (t : Fin cfg0.N) (p : Fin 128) (k : Fin 128) :
    (iblk m c 1 t : Vec Ideal S128x128 .bf16) (ix2 p k) = V m c main_v26 (ix2 (tileRow t p) k) := by
  obtain ⟨-, ⟨e0, e1⟩, -⟩ := input_index t
  unfold iblk
  rw [View.read_apply]
  show V m c main_v26 _ = V m c main_v26 _
  refine congrArg _ (funext fun a => Fin.ext ?_)
  match a with
  | ⟨0, _⟩ => show win0_1.index t 0 * 128 + 1 * p.val = 128 * t.val + p.val; rw [e0]; omega
  | ⟨1, _⟩ => show win0_1.index t 1 * 128 + 1 * k.val = k.val; rw [e1]; omega

/-- The pair weights are staged whole: their block at any point is the matrix. -/
theorem wz_block (c : Dev nD) (t : Fin cfg0.N) (k : Fin 128) (ch : Fin 64) :
    (iblk m c 2 t : Vec Ideal S128x64 .bf16) (ix2 k ch) = V m c main_v27 (ix2 k ch) := by
  obtain ⟨-, -, ⟨e0, e1⟩, -⟩ := input_index t
  unfold iblk
  rw [View.read_apply]
  show V m c main_v27 _ = V m c main_v27 _
  refine congrArg _ (funext fun a => Fin.ext ?_)
  match a with
  | ⟨0, _⟩ => show win0_2.index t 0 * 128 + 1 * k.val = k.val; rw [e0]; omega
  | ⟨1, _⟩ => show win0_2.index t 1 * 64 + 1 * ch.val = ch.val; rw [e1]; omega

/-- The radial weights are staged whole. -/
theorem wr_block (c : Dev nD) (t : Fin cfg0.N) (k : Fin 32) (j : Fin 192) :
    (iblk m c 3 t : Vec Ideal S32x192 .bf16) (ix2 k j) = V m c main_v28 (ix2 k j) := by
  obtain ⟨-, -, -, ⟨e0, e1⟩, -⟩ := input_index t
  unfold iblk
  rw [View.read_apply]
  show V m c main_v28 _ = V m c main_v28 _
  refine congrArg _ (funext fun a => Fin.ext ?_)
  match a with
  | ⟨0, _⟩ => show win0_3.index t 0 * 32 + 1 * k.val = k.val; rw [e0]; omega
  | ⟨1, _⟩ => show win0_3.index t 1 * 192 + 1 * j.val = j.val; rw [e1]; omega

/-- The bias row is staged whole. -/
theorem bias_block (c : Dev nD) (t : Fin cfg0.N) (z : Fin 1) (j : Fin 192) :
    (iblk m c 4 t : Vec Ideal S1x192 .f32) (ix2 z j) = V m c main_v38 (ix2 z j) := by
  obtain ⟨-, -, -, -, ⟨e0, e1⟩, -⟩ := input_index t
  unfold iblk
  rw [View.read_apply]
  show V m c main_v38 _ = V m c main_v38 _
  refine congrArg _ (funext fun a => Fin.ext ?_)
  match a with
  | ⟨0, _⟩ => show win0_4.index t 0 * 1 + 1 * z.val = z.val; rw [e0]; omega
  | ⟨1, _⟩ => show win0_4.index t 1 * 192 + 1 * j.val = j.val; rw [e1]; omega

/-- The radial basis's widths are staged whole. -/
theorem beta_block (c : Dev nD) (t : Fin cfg0.N) (z : Fin 1) (k : Fin 32) :
    (iblk m c 5 t : Vec Ideal S1x32 .f32) (ix2 z k) = V m c main_v36 (ix2 z k) := by
  obtain ⟨-, -, -, -, -, ⟨e0, e1⟩, -⟩ := input_index t
  unfold iblk
  rw [View.read_apply]
  show V m c main_v36 _ = V m c main_v36 _
  refine congrArg _ (funext fun a => Fin.ext ?_)
  match a with
  | ⟨0, _⟩ => show win0_5.index t 0 * 1 + 1 * z.val = z.val; rw [e0]; omega
  | ⟨1, _⟩ => show win0_5.index t 1 * 32 + 1 * k.val = k.val; rw [e1]; omega

/-- The radial basis's centres are staged whole. -/
theorem mu_block (c : Dev nD) (t : Fin cfg0.N) (z : Fin 1) (k : Fin 32) :
    (iblk m c 6 t : Vec Ideal S1x32 .f32) (ix2 z k) = V m c main_v37 (ix2 z k) := by
  obtain ⟨-, -, -, -, -, -, ⟨e0, e1⟩, -⟩ := input_index t
  unfold iblk
  rw [View.read_apply]
  show V m c main_v37 _ = V m c main_v37 _
  refine congrArg _ (funext fun a => Fin.ext ?_)
  match a with
  | ⟨0, _⟩ => show win0_6.index t 0 * 1 + 1 * z.val = z.val; rw [e0]; omega
  | ⟨1, _⟩ => show win0_6.index t 1 * 32 + 1 * k.val = k.val; rw [e1]; omega

/-- The identity row is staged whole. -/
theorem eye_block (c : Dev nD) (t : Fin cfg0.N) (z : Fin 1) (q : Fin 9) :
    (iblk m c 7 t : Vec Ideal S1x9 .f32) (ix2 z q) = V m c main_v35 (ix2 z q) := by
  obtain ⟨-, -, -, -, -, -, -, ⟨e0, e1⟩⟩ := input_index t
  unfold iblk
  rw [View.read_apply]
  show V m c main_v35 _ = V m c main_v35 _
  refine congrArg _ (funext fun a => Fin.ext ?_)
  match a with
  | ⟨0, _⟩ => show win0_7.index t 0 * 1 + 1 * z.val = z.val; rw [e0]; omega
  | ⟨1, _⟩ => show win0_7.index t 1 * 9 + 1 * q.val = q.val; rw [e1]; omega

/-! ## The output blocks: where an element sits, and which indices a block holds -/

/-- Entry (p, ch, q) of the first output's block at point t sits in the array at (128·t + p, ch, q). -/
theorem tile8_emb (t : Fin cfg0.N) (p : Fin 128) (ch : Fin 64) (q : Fin 9) :
    ((cfg0.win 8).blk t).view.emb (ix3 p ch q : S128x64x9.Idx) = (ix3 (tileRow t p) ch q : S65536x64x9.Idx) := by
  obtain ⟨⟨e0, e1, e2⟩, -⟩ := output_index t
  refine funext fun a => Fin.ext ?_
  match a with
  | ⟨0, _⟩ => show win0_8.index t 0 * 128 + 1 * p.val = 128 * t.val + p.val; rw [e0]; omega
  | ⟨1, _⟩ => show win0_8.index t 1 * 64 + 1 * ch.val = ch.val; rw [e1]; omega
  | ⟨2, _⟩ => show win0_8.index t 2 * 9 + 1 * q.val = q.val; rw [e2]; omega

/-- The same for the second output. -/
theorem tile9_emb (t : Fin cfg0.N) (p : Fin 128) (ch : Fin 64) (q : Fin 9) :
    ((cfg0.win 9).blk t).view.emb (ix3 p ch q : S128x64x9.Idx) = (ix3 (tileRow t p) ch q : S65536x64x9.Idx) := by
  obtain ⟨-, ⟨e0, e1, e2⟩, -⟩ := output_index t
  refine funext fun a => Fin.ext ?_
  match a with
  | ⟨0, _⟩ => show win0_9.index t 0 * 128 + 1 * p.val = 128 * t.val + p.val; rw [e0]; omega
  | ⟨1, _⟩ => show win0_9.index t 1 * 64 + 1 * ch.val = ch.val; rw [e1]; omega
  | ⟨2, _⟩ => show win0_9.index t 2 * 9 + 1 * q.val = q.val; rw [e2]; omega

/-- The same for the third output. -/
theorem tile10_emb (t : Fin cfg0.N) (p : Fin 128) (ch : Fin 64) (q : Fin 9) :
    ((cfg0.win 10).blk t).view.emb (ix3 p ch q : S128x64x9.Idx) = (ix3 (tileRow t p) ch q : S65536x64x9.Idx) := by
  obtain ⟨-, -, ⟨e0, e1, e2⟩⟩ := output_index t
  refine funext fun a => Fin.ext ?_
  match a with
  | ⟨0, _⟩ => show win0_10.index t 0 * 128 + 1 * p.val = 128 * t.val + p.val; rw [e0]; omega
  | ⟨1, _⟩ => show win0_10.index t 1 * 64 + 1 * ch.val = ch.val; rw [e1]; omega
  | ⟨2, _⟩ => show win0_10.index t 2 * 9 + 1 * q.val = q.val; rw [e2]; omega

/-- An index of the first output array is in point t's block iff each coordinate is in the block's range on its axis. -/
theorem mem_tile8 (t : Fin cfg0.N) (i : S65536x64x9.Idx) :
    i ∈ ((cfg0.win 8).blk t).view.set ↔ ∀ a : Fin 3, win0_8.index t a * S128x64x9.size a ≤ (i a).val
      ∧ (i a).val < win0_8.index t a * S128x64x9.size a + S128x64x9.size a := by
  show i ∈ ((View.whole main_v39_0).slice (win0_8.rect t)).set ↔ _
  rw [View.set_slice_whole, Rect.mem_set_unit]
  exact Iff.rfl

theorem mem_tile9 (t : Fin cfg0.N) (i : S65536x64x9.Idx) :
    i ∈ ((cfg0.win 9).blk t).view.set ↔ ∀ a : Fin 3, win0_9.index t a * S128x64x9.size a ≤ (i a).val
      ∧ (i a).val < win0_9.index t a * S128x64x9.size a + S128x64x9.size a := by
  show i ∈ ((View.whole main_v39_1).slice (win0_9.rect t)).set ↔ _
  rw [View.set_slice_whole, Rect.mem_set_unit]
  exact Iff.rfl

theorem mem_tile10 (t : Fin cfg0.N) (i : S65536x64x9.Idx) :
    i ∈ ((cfg0.win 10).blk t).view.set ↔ ∀ a : Fin 3, win0_10.index t a * S128x64x9.size a ≤ (i a).val
      ∧ (i a).val < win0_10.index t a * S128x64x9.size a + S128x64x9.size a := by
  show i ∈ ((View.whole main_v39_2).slice (win0_10.rect t)).set ↔ _
  rw [View.set_slice_whole, Rect.mem_set_unit]
  exact Iff.rfl

/-! ## The cover: edge e's entries are written back by point e / 128 -/

/-- Every index of the first output array is in the block of the point its edge's tile names. -/
theorem cover8 (i : S65536x64x9.Idx) :
    ∃ t : Fin cfg0.N, (cfg0.win 8).flush t = true ∧ i ∈ ((cfg0.win 8).blk t).view.set := by
  have h0 : (i 0).val < 65536 := (i 0).isLt
  have h1 : (i 1).val < 64 := (i 1).isLt
  have h2 : (i 2).val < 9 := (i 2).isLt
  refine ⟨tileOf (i 0).val h0, flush0_8 _, ?_⟩
  obtain ⟨⟨e0, e1, e2⟩, -⟩ := output_index (tileOf (i 0).val h0)
  rw [mem_tile8]
  intro a
  match a with
  | ⟨0, _⟩ =>
    show win0_8.index (tileOf (i 0).val h0) 0 * 128 ≤ (i 0).val
      ∧ (i 0).val < win0_8.index (tileOf (i 0).val h0) 0 * 128 + 128
    rw [e0, tileOf_val]; omega
  | ⟨1, _⟩ =>
    show win0_8.index (tileOf (i 0).val h0) 1 * 64 ≤ (i 1).val
      ∧ (i 1).val < win0_8.index (tileOf (i 0).val h0) 1 * 64 + 64
    rw [e1]; omega
  | ⟨2, _⟩ =>
    show win0_8.index (tileOf (i 0).val h0) 2 * 9 ≤ (i 2).val
      ∧ (i 2).val < win0_8.index (tileOf (i 0).val h0) 2 * 9 + 9
    rw [e2]; omega

/-- The same for the second output. -/
theorem cover9 (i : S65536x64x9.Idx) :
    ∃ t : Fin cfg0.N, (cfg0.win 9).flush t = true ∧ i ∈ ((cfg0.win 9).blk t).view.set := by
  have h0 : (i 0).val < 65536 := (i 0).isLt
  have h1 : (i 1).val < 64 := (i 1).isLt
  have h2 : (i 2).val < 9 := (i 2).isLt
  refine ⟨tileOf (i 0).val h0, flush0_9 _, ?_⟩
  obtain ⟨-, ⟨e0, e1, e2⟩, -⟩ := output_index (tileOf (i 0).val h0)
  rw [mem_tile9]
  intro a
  match a with
  | ⟨0, _⟩ =>
    show win0_9.index (tileOf (i 0).val h0) 0 * 128 ≤ (i 0).val
      ∧ (i 0).val < win0_9.index (tileOf (i 0).val h0) 0 * 128 + 128
    rw [e0, tileOf_val]; omega
  | ⟨1, _⟩ =>
    show win0_9.index (tileOf (i 0).val h0) 1 * 64 ≤ (i 1).val
      ∧ (i 1).val < win0_9.index (tileOf (i 0).val h0) 1 * 64 + 64
    rw [e1]; omega
  | ⟨2, _⟩ =>
    show win0_9.index (tileOf (i 0).val h0) 2 * 9 ≤ (i 2).val
      ∧ (i 2).val < win0_9.index (tileOf (i 0).val h0) 2 * 9 + 9
    rw [e2]; omega

/-- The same for the third output. -/
theorem cover10 (i : S65536x64x9.Idx) :
    ∃ t : Fin cfg0.N, (cfg0.win 10).flush t = true ∧ i ∈ ((cfg0.win 10).blk t).view.set := by
  have h0 : (i 0).val < 65536 := (i 0).isLt
  have h1 : (i 1).val < 64 := (i 1).isLt
  have h2 : (i 2).val < 9 := (i 2).isLt
  refine ⟨tileOf (i 0).val h0, flush0_10 _, ?_⟩
  obtain ⟨-, -, ⟨e0, e1, e2⟩⟩ := output_index (tileOf (i 0).val h0)
  rw [mem_tile10]
  intro a
  match a with
  | ⟨0, _⟩ =>
    show win0_10.index (tileOf (i 0).val h0) 0 * 128 ≤ (i 0).val
      ∧ (i 0).val < win0_10.index (tileOf (i 0).val h0) 0 * 128 + 128
    rw [e0, tileOf_val]; omega
  | ⟨1, _⟩ =>
    show win0_10.index (tileOf (i 0).val h0) 1 * 64 ≤ (i 1).val
      ∧ (i 1).val < win0_10.index (tileOf (i 0).val h0) 1 * 64 + 64
    rw [e1]; omega
  | ⟨2, _⟩ =>
    show win0_10.index (tileOf (i 0).val h0) 2 * 9 ≤ (i 2).val
      ∧ (i 2).val < win0_10.index (tileOf (i 0).val h0) 2 * 9 + 9
    rw [e2]; omega

end Cert.KernelIdeal.EdgeValue

end
-- ==== Proof.KerEye.lean ====
/-
  The identity row the edge kernel is handed.

  Before the kernel runs, the host builds the 3×3 identity matrix as a compare: entry (a, b) is the bit "row iota a (plus
  a zero) equals column iota b", converted to a float, and the matrix is flattened row-major to one row of nine.  On the
  extended reals the conversion of a bit is the number the bit denotes, so entry q of the row is 1 when q / 3 = q % 3
  and 0 otherwise: the specification's `eye`.
-/
import proofs.«124262_j40570261078234_1_alg».proof.Proof.Spec
import proofs.«124262_j40570261078234_1_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.EdgeValue

open Idealize.ShloMosaic Idealize.ShloMosaic.ValueIdx Idealize.ShloMosaic.TcCoe Idealize.SL.Sem
open Cert.KernelIdeal Cert.KernelIdeal.Gen
open Idealize.ShloMosaic.StableHlo
open Cert

variable (m : (ℓ : Loc nD τ sig) → Buf (Elt Ideal) ℓ)

set_option maxRecDepth 16384 in
/-- The identity row as the host computes it before the region: the 3×3 compare of the row iota with the column
    iota, converted to a float and flattened to [1, 9]. -/
theorem eyeRow_fn (c : Dev nD) : (Gen.V m c main_v35 : S1x9.Idx → EReal)
    = shapeCast S1x9 (uitofp (F := Ideal) .f32 (cmpi .eq (addi (iotaInDim S3x3 32 0)
        (broadcastInDim S3x3 ![] bcast_S_S3x3 (constantI S_ 32 0#32))) (iotaInDim S3x3 32 1))) shapeCasts_S3x3_S1x9 := by
  show StableHlo.after hostOps0 (fun b => m (c, b)) (Proc.devRef .tc main_v35) = _
  after_results_simp
  rfl

/-- The compare bit of row a against column b, read as a number, is the identity matrix's entry. -/
theorem bit_eye (a b : Fin 3) :
    (((IntOp.cmpi .eq (IntOp.addi (BitVec.ofNat 32 a.val) 0#32) (BitVec.ofNat 32 b.val)).toNat : ℝ) : EReal)
      = if a.val = b.val then 1 else 0 := by
  fin_cases a <;> fin_cases b <;> simp [IntOp.cmpi, IntOp.addi]

/-- The identity row the region finds: entry q of the flattened matrix is entry (q / 3, q % 3) of the 3×3 one, the two
    having the same row-major position. -/
theorem eyeRow (c : Dev nD) (q : Fin 9) : Gen.V m c main_v35 (ix2 (0 : Fin 1) q) = EdgeSpec.eye q := by
  have hq := q.isLt
  rw [eyeRow_fn]
  rw [shapeCast_apply _ shapeCasts_S3x3_S1x9 (ix2 (0 : Fin 1) q)
    (ix2 (⟨q.val / 3, by omega⟩ : Fin 3) (⟨q.val % 3, by omega⟩ : Fin 3))
    (by rw [Shape.rowMajor_val_two, Shape.rowMajor_val_two]
        show q.val / 3 * 3 + q.val % 3 = 0 * 9 + q.val
        omega)]
  exact bit_eye ⟨q.val / 3, by omega⟩ ⟨q.val % 3, by omega⟩

end Cert.KernelIdeal.EdgeValue

end
-- ==== Proof.KerValue.lean ====
/-
  From what each grid point stores to the three results of the edge kernel's program.

  The program runs the kernel over 512 grid points and then reshapes each of its three outputs, [65536, 64, 9], to
  [65536, 64, 3, 3].  At point t the kernel stores, into each output's block, for row p, channel ch and matrix entry q,
  a coefficient — a function of row p of the two tiled inputs and of the six small inputs — times an entry of a 3×3
  matrix read row-major: the identity's for the first output, the skew matrix's of the edge's direction for the second,
  the traceless symmetric matrix's for the third.  That is assumed here (`StoresI`, `StoresA`, `StoresS`).

  Row p of the blocks at point t is edge 128·t + p of the arrays, so what point t writes back is edge tile t of ONE
  function of the arrays, index by index (`arrI`, `arrA`, `arrS`); the tiles cover the array, so each output array
  ends as that function; and entry (e, ch, i, j) of a reshaped result is entry (e, ch, 3·i + j) of the array.  Hence
  the three results are the specification's `outI`, `outA`, `outS` of each edge's data, and the argument arrays are
  left as they were.
-/
import proofs.«124262_j40570261078234_1_alg».proof.Proof.Spec
import proofs.«124262_j40570261078234_1_alg».proof.Proof.KerBlocks
import proofs.«124262_j40570261078234_1_alg».proof.Proof.KerEye
import Idealize.ShloMosaic.Lib.StableHlo.Run

noncomputable section

namespace Cert.KernelIdeal.EdgeValue

open Idealize.ShloMosaic Idealize.ShloMosaic.ValueIdx Idealize.ShloMosaic.TcCoe Idealize.SL.Sem
open Cert.KernelIdeal Cert.KernelIdeal.Gen
open Idealize.ShloMosaic.Pipeline (Dat)
open Idealize.ShloMosaic.StableHlo
open Cert

/-! ## What a grid point stores -/

/-- The first output's block: at row p, channel c, entry q, the first third's coefficient of the tile's row p times
    entry q of the identity row the kernel is handed. -/
def StoresI : Prop :=
  ∀ (x0 : Vec Ideal S128x3 .f32) (x1 : Vec Ideal S128x128 .bf16) (x2 : Vec Ideal S128x64 .bf16)
    (x3 : Vec Ideal S32x192 .bf16) (x4 : Vec Ideal S1x192 .f32) (x5 x6 : Vec Ideal S1x32 .f32)
    (x7 : Vec Ideal S1x9 .f32) (p : Fin 128) (c : Fin 64) (q : Fin 9),
    Gen.out0_8 (F := Ideal) x0 x1 x2 x3 x4 x5 x6 x7 (ix3 p c q)
      = EdgeSpec.coef (fun k => x0 (ix2 p k)) (fun k => x1 (ix2 p k)) (fun k c' => x2 (ix2 k c'))
          (fun k j' => x3 (ix2 k j')) (fun j' => x4 (ix2 (0 : Fin 1) j')) (fun k => x5 (ix2 (0 : Fin 1) k))
          (fun k => x6 (ix2 (0 : Fin 1) k)) 0 c * x7 (ix2 (0 : Fin 1) q)

/-- The second output's block: the second third's coefficient times the skew matrix of the row's displacement. -/
def StoresA : Prop :=
  ∀ (x0 : Vec Ideal S128x3 .f32) (x1 : Vec Ideal S128x128 .bf16) (x2 : Vec Ideal S128x64 .bf16)
    (x3 : Vec Ideal S32x192 .bf16) (x4 : Vec Ideal S1x192 .f32) (x5 x6 : Vec Ideal S1x32 .f32)
    (x7 : Vec Ideal S1x9 .f32) (p : Fin 128) (c : Fin 64) (q : Fin 9),
    Gen.out0_9 (F := Ideal) x0 x1 x2 x3 x4 x5 x6 x7 (ix3 p c q)
      = EdgeSpec.coef (fun k => x0 (ix2 p k)) (fun k => x1 (ix2 p k)) (fun k c' => x2 (ix2 k c'))
          (fun k j' => x3 (ix2 k j')) (fun j' => x4 (ix2 (0 : Fin 1) j')) (fun k => x5 (ix2 (0 : Fin 1) k))
          (fun k => x6 (ix2 (0 : Fin 1) k)) 1 c * EdgeSpec.skew (fun k => x0 (ix2 p k)) q

/-- The third output's block: the last third's coefficient times the traceless symmetric matrix of the row's
    displacement. -/
def StoresS : Prop :=
  ∀ (x0 : Vec Ideal S128x3 .f32) (x1 : Vec Ideal S128x128 .bf16) (x2 : Vec Ideal S128x64 .bf16)
    (x3 : Vec Ideal S32x192 .bf16) (x4 : Vec Ideal S1x192 .f32) (x5 x6 : Vec Ideal S1x32 .f32)
    (x7 : Vec Ideal S1x9 .f32) (p : Fin 128) (c : Fin 64) (q : Fin 9),
    Gen.out0_10 (F := Ideal) x0 x1 x2 x3 x4 x5 x6 x7 (ix3 p c q)
      = EdgeSpec.coef (fun k => x0 (ix2 p k)) (fun k => x1 (ix2 p k)) (fun k c' => x2 (ix2 k c'))
          (fun k j' => x3 (ix2 k j')) (fun j' => x4 (ix2 (0 : Fin 1) j')) (fun k => x5 (ix2 (0 : Fin 1) k))
          (fun k => x6 (ix2 (0 : Fin 1) k)) 2 c * EdgeSpec.sym (fun k => x0 (ix2 p k)) q

section Arrays

variable (m : (ℓ : Loc nD τ sig) → Buf (Elt Ideal) ℓ)

/-! ## The whole-array functions -/

/-- The displacement of edge e, from the array the region finds. -/
def edgeDisp (c : Dev nD) (e : Fin 65536) : Fin 3 → EReal := fun k => Gen.V m c main_arg0 (ix2 e k)

/-- The coefficient of edge e: third s, channel ch, from the arrays the region finds. -/
def edgeCoef (c : Dev nD) (e : Fin 65536) (s : Fin 3) (ch : Fin 64) : EReal :=
  EdgeSpec.coef (fun k => Gen.V m c main_arg0 (ix2 e k)) (fun k => Gen.V m c main_v26 (ix2 e k))
    (fun k c' => Gen.V m c main_v27 (ix2 k c')) (fun k j' => Gen.V m c main_v28 (ix2 k j'))
    (fun j' => Gen.V m c main_v38 (ix2 (0 : Fin 1) j')) (fun k => Gen.V m c main_v36 (ix2 (0 : Fin 1) k))
    (fun k => Gen.V m c main_v37 (ix2 (0 : Fin 1) k)) s ch

/-- Row p of the displacement block at point t is the displacement of edge 128·t + p. -/
theorem disp_tile (c : Dev nD) (t : Fin cfg0.N) (p : Fin 128) :
    (fun k => (iblk m c 0 t : Vec Ideal S128x3 .f32) (ix2 p k)) = edgeDisp m c (tileRow t p) :=
  funext fun k => disp_row m c t p k

/-- The coefficient the body computes from the blocks at point t, row p, is the coefficient of edge 128·t + p. -/
theorem coef_tile (c : Dev nD) (t : Fin cfg0.N) (p : Fin 128) (s : Fin 3) (ch : Fin 64) :
    EdgeSpec.coef (fun k => (iblk m c 0 t : Vec Ideal S128x3 .f32) (ix2 p k))
        (fun k => (iblk m c 1 t : Vec Ideal S128x128 .bf16) (ix2 p k))
        (fun k c' => (iblk m c 2 t : Vec Ideal S128x64 .bf16) (ix2 k c'))
        (fun k j' => (iblk m c 3 t : Vec Ideal S32x192 .bf16) (ix2 k j'))
        (fun j' => (iblk m c 4 t : Vec Ideal S1x192 .f32) (ix2 (0 : Fin 1) j'))
        (fun k => (iblk m c 5 t : Vec Ideal S1x32 .f32) (ix2 (0 : Fin 1) k))
        (fun k => (iblk m c 6 t : Vec Ideal S1x32 .f32) (ix2 (0 : Fin 1) k)) s ch
      = edgeCoef m c (tileRow t p) s ch := by
  unfold edgeCoef
  simp only [disp_row, pair_row, wz_block, wr_block, bias_block, beta_block, mu_block]

/-- The first output array: at edge e, channel ch, entry q, the first third's coefficient times the identity's entry. -/
def arrI (c : Dev nD) : S65536x64x9.Idx → EReal :=
  fun i => edgeCoef m c (i 0) 0 (i 1) * EdgeSpec.eye (i 2)

/-- The second output array: the second third's coefficient times the skew matrix's entry. -/
def arrA (c : Dev nD) : S65536x64x9.Idx → EReal :=
  fun i => edgeCoef m c (i 0) 1 (i 1) * EdgeSpec.skew (edgeDisp m c (i 0)) (i 2)

/-- The third output array: the last third's coefficient times the symmetric matrix's entry. -/
def arrS (c : Dev nD) : S65536x64x9.Idx → EReal :=
  fun i => edgeCoef m c (i 0) 2 (i 1) * EdgeSpec.sym (edgeDisp m c (i 0)) (i 2)

theorem arrI_apply (c : Dev nD) (e : Fin 65536) (ch : Fin 64) (q : Fin 9) :
    arrI m c (ix3 e ch q) = edgeCoef m c e 0 ch * EdgeSpec.eye q := rfl

theorem arrA_apply (c : Dev nD) (e : Fin 65536) (ch : Fin 64) (q : Fin 9) :
    arrA m c (ix3 e ch q) = edgeCoef m c e 1 ch * EdgeSpec.skew (edgeDisp m c e) q := rfl

theorem arrS_apply (c : Dev nD) (e : Fin 65536) (ch : Fin 64) (q : Fin 9) :
    arrS m c (ix3 e ch q) = edgeCoef m c e 2 ch * EdgeSpec.sym (edgeDisp m c e) q := rfl

/-! ## What a point writes back is its edge tile of the whole array -/

/-- Point t writes back edge tile t of the first output array. -/
theorem tileI_eq (hI : StoresI) (c : Dev nD) (t : Fin cfg0.N) :
    (dats m 0 c).flushed 8 t = ((cfg0.win 8).blk t).view.read (Elt Ideal) (arrI m c) := by
  show (cfg0.win 8).cut (grid0.coords t) ((dats m 0 c).after 8 t) = _
  rw [after0_8]
  funext j
  obtain ⟨p, ch, q, rfl⟩ : ∃ (p : Fin 128) (ch : Fin 64) (q : Fin 9), j = (ix3 p ch q : S128x64x9.Idx) :=
    ⟨j 0, j 1, j 2, eq_ix3 (n0 := 128) (n1 := 64) (n2 := 9) j⟩
  rw [View.read_apply, tile8_emb, arrI_apply, ← coef_tile, ← eyeRow m c q, ← eye_block m c t]
  exact hI (iblk m c 0 t) (iblk m c 1 t) (iblk m c 2 t) (iblk m c 3 t) (iblk m c 4 t) (iblk m c 5 t) (iblk m c 6 t)
    (iblk m c 7 t) p ch q

/-- Point t writes back edge tile t of the second output array. -/
theorem tileA_eq (hA : StoresA) (c : Dev nD) (t : Fin cfg0.N) :
    (dats m 0 c).flushed 9 t = ((cfg0.win 9).blk t).view.read (Elt Ideal) (arrA m c) := by
  show (cfg0.win 9).cut (grid0.coords t) ((dats m 0 c).after 9 t) = _
  rw [after0_9]
  funext j
  obtain ⟨p, ch, q, rfl⟩ : ∃ (p : Fin 128) (ch : Fin 64) (q : Fin 9), j = (ix3 p ch q : S128x64x9.Idx) :=
    ⟨j 0, j 1, j 2, eq_ix3 (n0 := 128) (n1 := 64) (n2 := 9) j⟩
  rw [View.read_apply, tile9_emb, arrA_apply, ← coef_tile, ← disp_tile]
  exact hA (iblk m c 0 t) (iblk m c 1 t) (iblk m c 2 t) (iblk m c 3 t) (iblk m c 4 t) (iblk m c 5 t) (iblk m c 6 t)
    (iblk m c 7 t) p ch q

/-- Point t writes back edge tile t of the third output array. -/
theorem tileS_eq (hS : StoresS) (c : Dev nD) (t : Fin cfg0.N) :
    (dats m 0 c).flushed 10 t = ((cfg0.win 10).blk t).view.read (Elt Ideal) (arrS m c) := by
  show (cfg0.win 10).cut (grid0.coords t) ((dats m 0 c).after 10 t) = _
  rw [after0_10]
  funext j
  obtain ⟨p, ch, q, rfl⟩ : ∃ (p : Fin 128) (ch : Fin 64) (q : Fin 9), j = (ix3 p ch q : S128x64x9.Idx) :=
    ⟨j 0, j 1, j 2, eq_ix3 (n0 := 128) (n1 := 64) (n2 := 9) j⟩
  rw [View.read_apply, tile10_emb, arrS_apply, ← coef_tile, ← disp_tile]
  exact hS (iblk m c 0 t) (iblk m c 1 t) (iblk m c 2 t) (iblk m c 3 t) (iblk m c 4 t) (iblk m c 5 t) (iblk m c 6 t)
    (iblk m c 7 t) p ch q

/-! ## The output arrays after the region -/

theorem finalI (hI : StoresI) (c : Dev nD) : (dats m 0 c).arrAt 8 cfg0.N = arrI m c :=
  (dats m 0 c).arrAt_eq_of_cover 8 (arrI m c) (fun t _ => tileI_eq m hI c t) cover8

theorem finalA (hA : StoresA) (c : Dev nD) : (dats m 0 c).arrAt 9 cfg0.N = arrA m c :=
  (dats m 0 c).arrAt_eq_of_cover 9 (arrA m c) (fun t _ => tileA_eq m hA c t) cover9

theorem finalS (hS : StoresS) (c : Dev nD) : (dats m 0 c).arrAt 10 cfg0.N = arrS m c :=
  (dats m 0 c).arrAt_eq_of_cover 10 (arrS m c) (fun t _ => tileS_eq m hS c t) cover10

/-! ## The reshapes after the region -/

/-- Entry (e, ch, i, j) of the [65536,64,3,3] reshape is entry (e, ch, 3·i + j) of the [65536,64,9] array: the two have
    the same row-major position. -/
theorem unflatten_apply (A : S65536x64x9.Idx → EReal) (e : Fin 65536) (ch : Fin 64) (i j : Fin 3) :
    shapeCast S65536x64x3x3 A shapeCasts_S65536x64x9_S65536x64x3x3 (ix4 e ch i j) = A (ix3 e ch (EdgeSpec.q9 i j)) := by
  refine shapeCast_apply A _ (ix4 e ch i j) (ix3 e ch (EdgeSpec.q9 i j)) ?_
  rw [Shape.rowMajor_val_three, Shape.rowMajor_val_four]
  show (e.val * 64 + ch.val) * 9 + (3 * i.val + j.val) = ((e.val * 64 + ch.val) * 3 + i.val) * 3 + j.val
  omega

/-- The first result: the host's reshape of the first output array, whatever that array ended as. -/
theorem tail40 (c : Dev nD) (A : S65536x64x9.Idx → EReal) (hA : (dats m 0 c).arrAt 8 cfg0.N = A)
    (e : Fin 65536) (ch : Fin 64) (i j : Fin 3) :
    (Pipeline.afterTail₀ cfgs (dats m) 0 (V0 m) [hostOps1] c main_v40 : S65536x64x3x3.Idx → EReal) (ix4 e ch i j)
      = A (ix3 e ch (EdgeSpec.q9 i j)) := by
  have e0 : Pipeline.withArrays (cfgs 0).spec c (V0 m c) (fun w => (dats m 0 c).arrAt w (cfgs 0).N)
      (Proc.devRef .tc main_v39_0) = A :=
    (Pipeline.withArrays_arr spec0 launch0.win.arr_inj c _ _ 8).trans hA
  unfold Pipeline.afterTail₀
  show StableHlo.after hostOps1 _ (Proc.devRef .tc main_v40) _ = _
  after_results
  rw [e0]
  exact unflatten_apply A e ch i j

/-- The second result: the reshape of the second output array. -/
theorem tail41 (c : Dev nD) (A : S65536x64x9.Idx → EReal) (hA : (dats m 0 c).arrAt 9 cfg0.N = A)
    (e : Fin 65536) (ch : Fin 64) (i j : Fin 3) :
    (Pipeline.afterTail₀ cfgs (dats m) 0 (V0 m) [hostOps1] c main_v41 : S65536x64x3x3.Idx → EReal) (ix4 e ch i j)
      = A (ix3 e ch (EdgeSpec.q9 i j)) := by
  have e0 : Pipeline.withArrays (cfgs 0).spec c (V0 m c) (fun w => (dats m 0 c).arrAt w (cfgs 0).N)
      (Proc.devRef .tc main_v39_1) = A :=
    (Pipeline.withArrays_arr spec0 launch0.win.arr_inj c _ _ 9).trans hA
  unfold Pipeline.afterTail₀
  show StableHlo.after hostOps1 _ (Proc.devRef .tc main_v41) _ = _
  after_results
  rw [e0]
  exact unflatten_apply A e ch i j

/-- The third result: the reshape of the third output array. -/
theorem tail42 (c : Dev nD) (A : S65536x64x9.Idx → EReal) (hA : (dats m 0 c).arrAt 10 cfg0.N = A)
    (e : Fin 65536) (ch : Fin 64) (i j : Fin 3) :
    (Pipeline.afterTail₀ cfgs (dats m) 0 (V0 m) [hostOps1] c main_v42 : S65536x64x3x3.Idx → EReal) (ix4 e ch i j)
      = A (ix3 e ch (EdgeSpec.q9 i j)) := by
  have e0 : Pipeline.withArrays (cfgs 0).spec c (V0 m c) (fun w => (dats m 0 c).arrAt w (cfgs 0).N)
      (Proc.devRef .tc main_v39_2) = A :=
    (Pipeline.withArrays_arr spec0 launch0.win.arr_inj c _ _ 10).trans hA
  unfold Pipeline.afterTail₀
  show StableHlo.after hostOps1 _ (Proc.devRef .tc main_v42) _ = _
  after_results
  rw [e0]
  exact unflatten_apply A e ch i j

end Arrays

/-! ## The run -/

/-- Every execution of the program ends with the three results at the specification's three outputs of each edge's data
    as the region found it — channel by channel, the coefficient times the identity, the skew matrix and the symmetric
    matrix, entry (i, j) read at 3·i + j — and with the nine argument arrays as launched. -/
theorem run (hI : StoresI) (hA : StoresA) (hS : StoresS) (m : (ℓ : Loc nD τ sig) → Buf (Elt Ideal) ℓ)
    (ρ : Dev nD → PrngReg) :
    θ_run defs (onTc (τ := τ) (main (F := Ideal))) ⟨m, fun _ => 0, ρ⟩ fun r => ∀ c : Dev nD,
      (∀ (e : Fin 65536) (ch : Fin 64) (i j : Fin 3),
        (r.2.mem ((c.tc : Thread nD τ).loc main_v40) : S65536x64x3x3.Idx → EReal) (ix4 e ch i j)
          = EdgeSpec.outI (fun k => Gen.V m c main_arg0 (ix2 e k)) (fun k => Gen.V m c main_v26 (ix2 e k))
              (fun k c' => Gen.V m c main_v27 (ix2 k c')) (fun k j' => Gen.V m c main_v28 (ix2 k j'))
              (fun j' => Gen.V m c main_v38 (ix2 (0 : Fin 1) j')) (fun k => Gen.V m c main_v36 (ix2 (0 : Fin 1) k))
              (fun k => Gen.V m c main_v37 (ix2 (0 : Fin 1) k)) ch (EdgeSpec.q9 i j))
      ∧ (∀ (e : Fin 65536) (ch : Fin 64) (i j : Fin 3),
        (r.2.mem ((c.tc : Thread nD τ).loc main_v41) : S65536x64x3x3.Idx → EReal) (ix4 e ch i j)
          = EdgeSpec.outA (fun k => Gen.V m c main_arg0 (ix2 e k)) (fun k => Gen.V m c main_v26 (ix2 e k))
              (fun k c' => Gen.V m c main_v27 (ix2 k c')) (fun k j' => Gen.V m c main_v28 (ix2 k j'))
              (fun j' => Gen.V m c main_v38 (ix2 (0 : Fin 1) j')) (fun k => Gen.V m c main_v36 (ix2 (0 : Fin 1) k))
              (fun k => Gen.V m c main_v37 (ix2 (0 : Fin 1) k)) ch (EdgeSpec.q9 i j))
      ∧ (∀ (e : Fin 65536) (ch : Fin 64) (i j : Fin 3),
        (r.2.mem ((c.tc : Thread nD τ).loc main_v42) : S65536x64x3x3.Idx → EReal) (ix4 e ch i j)
          = EdgeSpec.outS (fun k => Gen.V m c main_arg0 (ix2 e k)) (fun k => Gen.V m c main_v26 (ix2 e k))
              (fun k c' => Gen.V m c main_v27 (ix2 k c')) (fun k j' => Gen.V m c main_v28 (ix2 k j'))
              (fun j' => Gen.V m c main_v38 (ix2 (0 : Fin 1) j')) (fun k => Gen.V m c main_v36 (ix2 (0 : Fin 1) k))
              (fun k => Gen.V m c main_v37 (ix2 (0 : Fin 1) k)) ch (EdgeSpec.q9 i j))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
    ⟨fun e ch i j =>
        (congrFun ((h c).2 main_v40 (Pipeline.mem_restRefs_of main_v40 (by decide) (by decide))) (ix4 e ch i j)).trans
          (tail40 m c (arrI m c) (finalI m hI c) e ch i j),
      fun e ch i j =>
        (congrFun ((h c).2 main_v41 (Pipeline.mem_restRefs_of main_v41 (by decide) (by decide))) (ix4 e ch i j)).trans
          (tail41 m c (arrA m c) (finalA m hA c) e ch i j),
      fun e ch i j =>
        (congrFun ((h c).2 main_v42 (Pipeline.mem_restRefs_of main_v42 (by decide) (by decide))) (ix4 e ch i j)).trans
          (tail42 m c (arrS m c) (finalS m hS c) e ch i j),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (Gen.run_main m ρ)

end Cert.KernelIdeal.EdgeValue

end
-- ==== Proof.HostChain.lean ====
/-
  What the kernel program's region finds in its input arrays, as functions of the program's arguments:
  the host lines before the region only narrow two weight matrices and the pair embedding to sixteen bits
  (no change on the extended reals), lay three vectors out as single rows, and gather the pair embedding
  from the species table exactly as the reference's host lines do.
-/
import proofs.«124262_j40570261078234_1_alg».proof.Proof.Gen.KernelIdeal.Frame
import proofs.«124262_j40570261078234_1_alg».proof.Proof.RefStages
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.EdgeHost

open Idealize.ShloMosaic Idealize.ShloMosaic.TcCoe Idealize.ShloMosaic.ValueIdx Idealize.ShloMosaic.StableHlo Idealize.SL.Sem
open Cert.KernelIdeal Cert.KernelIdeal.Gen

variable [Cert.KernelIdeal.Facts] [Cert.ReferenceIdeal.Facts]
variable (m : (ℓ : Loc nD τ sig) → Buf (Elt Ideal) ℓ) (c : Dev nD)

/-- `Wz` narrowed to sixteen bits is `Wz`. -/
theorem wz_eq : (V m c main_v27 : S128x64.Idx → EReal) = m ((c : Thread nD τ).loc main_arg4) := by
  show StableHlo.after hostOps0 (fun b => m (c, b)) (Proc.devRef .tc main_v27) = _
  after_results_simp
  rfl

/-- `Wr` narrowed to sixteen bits is `Wr`. -/
theorem wr_eq : (V m c main_v28 : S32x192.Idx → EReal) = m ((c : Thread nD τ).loc main_arg5) := by
  show StableHlo.after hostOps0 (fun b => m (c, b)) (Proc.devRef .tc main_v28) = _
  after_results_simp
  rfl

/-- The bias laid out as one row. -/
theorem bias_eq : (V m c main_v38 : S1x192.Idx → EReal)
    = shapeCast S1x192 (m ((c : Thread nD τ).loc main_arg6) : S192.Idx → EReal) Facts₀.shapeCasts_S192_S1x192 := by
  show StableHlo.after hostOps0 (fun b => m (c, b)) (Proc.devRef .tc main_v38) = _
  after_results_simp
  rfl

/-- The widths `β` laid out as one row. -/
theorem beta_eq : (V m c main_v36 : S1x32.Idx → EReal)
    = shapeCast S1x32 (m ((c : Thread nD τ).loc main_arg7) : S32.Idx → EReal) Facts₀.shapeCasts_S32_S1x32 := by
  show StableHlo.after hostOps0 (fun b => m (c, b)) (Proc.devRef .tc main_v36) = _
  after_results_simp
  rfl

/-- The centres `μ` laid out as one row. -/
theorem mu_eq : (V m c main_v37 : S1x32.Idx → EReal)
    = shapeCast S1x32 (m ((c : Thread nD τ).loc main_arg8) : S32.Idx → EReal) Facts₀.shapeCasts_S32_S1x32 := by
  show StableHlo.after hostOps0 (fun b => m (c, b)) (Proc.devRef .tc main_v37) = _
  after_results_simp
  rfl

/-- A vector laid out as one row, read at column `j`, is the vector at `j`. -/
theorem row_apply {n : Nat} (x : (⟨1, ![n]⟩ : Shape).Idx → EReal) (h : (⟨1, ![n]⟩ : Shape).ShapeCasts ⟨2, ![1, n]⟩) (j : Fin n) :
    shapeCast (⟨2, ![1, n]⟩ : Shape) x h (ix2 (0 : Fin 1) j) = x (ix1 j) :=
  shapeCast_apply x h _ _ (by
    rw [Shape.rowMajor_val_one, Shape.rowMajor_val_two]
    show j.val = 0 * n + j.val
    omega)

/-- The pair embedding the region finds is the reference's gathered pair embedding of the same arguments. -/
theorem pair_eq : (V m c main_v26 : S65536x128.Idx → EReal)
    = Cert.ReferenceIdeal.Stage.pairEmbed (F := Ideal) (m ((c : Thread nD τ).loc main_arg3)) (m ((c : Thread nD τ).loc main_arg1))
        (m ((c : Thread nD τ).loc main_arg2)) := by
  show StableHlo.after hostOps0 (fun b => m (c, b)) (Proc.devRef .tc main_v26) = _
  after_results_simp
  rfl

end Cert.KernelIdeal.EdgeHost

end
-- ==== Proof.lean ====
/-
  The kernel and its reference compute, for every edge, the same three tensors.

  An edge with displacement `v` has unit direction `d = v / |v|`.  Per channel the two programs multiply a
  coefficient — a dense layer over the radial basis `exp (-β (e^{-|v|} - μ)²)`, damped by the cosine cutoff,
  times the pair embedding sent through `Wz` — by the 3×3 identity, by the skew matrix of `d`, and by the
  traceless symmetric matrix `d dᵀ - (tr (d dᵀ) / 3) I`.  The kernel does this tile by tile over 128 edges,
  with its matrix products taken in sixteen-bit operands and the symmetric matrix written entry by entry; the
  reference does it over all edges at once and writes the symmetric matrix as `½ (M + Mᵀ) - (tr M / 3) I`.  On
  the extended reals neither the tiling, nor the narrowing, nor the order of a sum changes a value, and the two
  spellings of the symmetric matrix agree everywhere (`EdgeSpec.sym_of_halves`), so no argument needs to be
  finite for the results to agree.

  The modules: `Spec` (one edge's tensors as functions of its rows of the arguments), `RefStages` /
  `RefRun` / `RefGeom` / `RefDense` / `RefRead` (the reference's run, stage by stage, and each stage read at an
  index), `KerGeom` / `KerDense` / `KerPay` (what one grid point of the kernel stores, read at an index),
  `KerValue` (from the stored tiles to the kernel program's result arrays), `HostChain` (what the kernel's
  region finds in its input arrays).  Here the rows the region finds are identified with the arguments' rows
  and the five claims are assembled.
-/
import proofs.«124262_j40570261078234_1_alg».proof.Defs
import proofs.«124262_j40570261078234_1_alg».proof.Proof.Gen.Kernel
import proofs.«124262_j40570261078234_1_alg».proof.Proof.Gen.Kernel.Skeleton
import proofs.«124262_j40570261078234_1_alg».proof.Proof.Gen.Kernel.Launch
import proofs.«124262_j40570261078234_1_alg».proof.Proof.Gen.Kernel.Points
import proofs.«124262_j40570261078234_1_alg».proof.Proof.Gen.Kernel.Frame
import proofs.«124262_j40570261078234_1_alg».proof.Proof.Gen.KernelIdeal
import proofs.«124262_j40570261078234_1_alg».proof.Proof.Gen.KernelIdeal.Skeleton
import proofs.«124262_j40570261078234_1_alg».proof.Proof.Gen.KernelIdeal.Launch
import proofs.«124262_j40570261078234_1_alg».proof.Proof.Gen.KernelIdeal.Points
import proofs.«124262_j40570261078234_1_alg».proof.Proof.Gen.KernelIdeal.Frame
import proofs.«124262_j40570261078234_1_alg».proof.Proof.Gen.ReferenceIdeal
import proofs.«124262_j40570261078234_1_alg».proof.Proof.Gen.Pre_finite_inputs
import proofs.«124262_j40570261078234_1_alg».proof.Proof.Spec
import proofs.«124262_j40570261078234_1_alg».proof.Proof.RefStages
import proofs.«124262_j40570261078234_1_alg».proof.Proof.RefRun
import proofs.«124262_j40570261078234_1_alg».proof.Proof.RefRead
import proofs.«124262_j40570261078234_1_alg».proof.Proof.KerPay
import proofs.«124262_j40570261078234_1_alg».proof.Proof.KerValue
import proofs.«124262_j40570261078234_1_alg».proof.Proof.HostChain
import Idealize.ShloMosaic.Lib.ValueIdx
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem
open Cert

section Rows
open Cert.KernelIdeal.EdgeHost

variable (m : (ℓ : Loc Cert.KernelIdeal.nD Cert.KernelIdeal.τ Cert.KernelIdeal.sig) → Buf (Elt Ideal) ℓ) (c : Dev Cert.KernelIdeal.nD)

/-- The bias row the region finds, read at column `j`, is the bias at `j`. -/
theorem bias_row : (fun j' : Fin 192 => Cert.KernelIdeal.Gen.V m c Cert.KernelIdeal.main_v38 (ix2 (0 : Fin 1) j'))
    = fun j' => (m ((c : Thread Cert.KernelIdeal.nD Cert.KernelIdeal.τ).loc Cert.KernelIdeal.main_arg6)) (ix1 j') := funext fun j' => by rw [bias_eq]; exact row_apply _ _ j'
/-- Likewise the widths `β`. -/
theorem beta_row : (fun k : Fin 32 => Cert.KernelIdeal.Gen.V m c Cert.KernelIdeal.main_v36 (ix2 (0 : Fin 1) k))
    = fun k => (m ((c : Thread Cert.KernelIdeal.nD Cert.KernelIdeal.τ).loc Cert.KernelIdeal.main_arg7)) (ix1 k) := funext fun k => by rw [beta_eq]; exact row_apply _ _ k
/-- Likewise the centres `μ`. -/
theorem mu_row : (fun k : Fin 32 => Cert.KernelIdeal.Gen.V m c Cert.KernelIdeal.main_v37 (ix2 (0 : Fin 1) k))
    = fun k => (m ((c : Thread Cert.KernelIdeal.nD Cert.KernelIdeal.τ).loc Cert.KernelIdeal.main_arg8)) (ix1 k) := funext fun k => by rw [mu_eq]; exact row_apply _ _ k

/-- One edge's rows of the arrays the region finds are that edge's rows of the arguments. -/
theorem rows_outI (e : Fin 65536) (ch : Fin 64) (q : Fin 9) :
    EdgeSpec.outI (fun k => Cert.KernelIdeal.Gen.V m c Cert.KernelIdeal.main_arg0 (ix2 e k)) (fun k => Cert.KernelIdeal.Gen.V m c Cert.KernelIdeal.main_v26 (ix2 e k)) (fun k c' => Cert.KernelIdeal.Gen.V m c Cert.KernelIdeal.main_v27 (ix2 k c')) (fun k j' => Cert.KernelIdeal.Gen.V m c Cert.KernelIdeal.main_v28 (ix2 k j')) (fun j' => Cert.KernelIdeal.Gen.V m c Cert.KernelIdeal.main_v38 (ix2 (0 : Fin 1) j')) (fun k => Cert.KernelIdeal.Gen.V m c Cert.KernelIdeal.main_v36 (ix2 (0 : Fin 1) k)) (fun k => Cert.KernelIdeal.Gen.V m c Cert.KernelIdeal.main_v37 (ix2 (0 : Fin 1) k)) ch q
    = EdgeSpec.outI (fun k => (m ((c : Thread Cert.KernelIdeal.nD Cert.KernelIdeal.τ).loc Cert.KernelIdeal.main_arg0)) (ix2 e k)) (fun k => (Cert.ReferenceIdeal.Stage.pairEmbed (F := Ideal) (m ((c : Thread Cert.KernelIdeal.nD Cert.KernelIdeal.τ).loc Cert.KernelIdeal.main_arg3)) (m ((c : Thread Cert.KernelIdeal.nD Cert.KernelIdeal.τ).loc Cert.KernelIdeal.main_arg1)) (m ((c : Thread Cert.KernelIdeal.nD Cert.KernelIdeal.τ).loc Cert.KernelIdeal.main_arg2))) (ix2 e k)) (fun k c' => (m ((c : Thread Cert.KernelIdeal.nD Cert.KernelIdeal.τ).loc Cert.KernelIdeal.main_arg4)) (ix2 k c')) (fun k j' => (m ((c : Thread Cert.KernelIdeal.nD Cert.KernelIdeal.τ).loc Cert.KernelIdeal.main_arg5)) (ix2 k j')) (fun j' => (m ((c : Thread Cert.KernelIdeal.nD Cert.KernelIdeal.τ).loc Cert.KernelIdeal.main_arg6)) (ix1 j')) (fun k => (m ((c : Thread Cert.KernelIdeal.nD Cert.KernelIdeal.τ).loc Cert.KernelIdeal.main_arg7)) (ix1 k)) (fun k => (m ((c : Thread Cert.KernelIdeal.nD Cert.KernelIdeal.τ).loc Cert.KernelIdeal.main_arg8)) (ix1 k)) ch q := by
  rw [Cert.KernelIdeal.Gen.V_main_arg0, pair_eq, wz_eq, wr_eq, bias_row m c, beta_row m c, mu_row m c]

/-- One edge's rows of the arrays the region finds are that edge's rows of the arguments. -/
theorem rows_outA (e : Fin 65536) (ch : Fin 64) (q : Fin 9) :
    EdgeSpec.outA (fun k => Cert.KernelIdeal.Gen.V m c Cert.KernelIdeal.main_arg0 (ix2 e k)) (fun k => Cert.KernelIdeal.Gen.V m c Cert.KernelIdeal.main_v26 (ix2 e k)) (fun k c' => Cert.KernelIdeal.Gen.V m c Cert.KernelIdeal.main_v27 (ix2 k c')) (fun k j' => Cert.KernelIdeal.Gen.V m c Cert.KernelIdeal.main_v28 (ix2 k j')) (fun j' => Cert.KernelIdeal.Gen.V m c Cert.KernelIdeal.main_v38 (ix2 (0 : Fin 1) j')) (fun k => Cert.KernelIdeal.Gen.V m c Cert.KernelIdeal.main_v36 (ix2 (0 : Fin 1) k)) (fun k => Cert.KernelIdeal.Gen.V m c Cert.KernelIdeal.main_v37 (ix2 (0 : Fin 1) k)) ch q
    = EdgeSpec.outA (fun k => (m ((c : Thread Cert.KernelIdeal.nD Cert.KernelIdeal.τ).loc Cert.KernelIdeal.main_arg0)) (ix2 e k)) (fun k => (Cert.ReferenceIdeal.Stage.pairEmbed (F := Ideal) (m ((c : Thread Cert.KernelIdeal.nD Cert.KernelIdeal.τ).loc Cert.KernelIdeal.main_arg3)) (m ((c : Thread Cert.KernelIdeal.nD Cert.KernelIdeal.τ).loc Cert.KernelIdeal.main_arg1)) (m ((c : Thread Cert.KernelIdeal.nD Cert.KernelIdeal.τ).loc Cert.KernelIdeal.main_arg2))) (ix2 e k)) (fun k c' => (m ((c : Thread Cert.KernelIdeal.nD Cert.KernelIdeal.τ).loc Cert.KernelIdeal.main_arg4)) (ix2 k c')) (fun k j' => (m ((c : Thread Cert.KernelIdeal.nD Cert.KernelIdeal.τ).loc Cert.KernelIdeal.main_arg5)) (ix2 k j')) (fun j' => (m ((c : Thread Cert.KernelIdeal.nD Cert.KernelIdeal.τ).loc Cert.KernelIdeal.main_arg6)) (ix1 j')) (fun k => (m ((c : Thread Cert.KernelIdeal.nD Cert.KernelIdeal.τ).loc Cert.KernelIdeal.main_arg7)) (ix1 k)) (fun k => (m ((c : Thread Cert.KernelIdeal.nD Cert.KernelIdeal.τ).loc Cert.KernelIdeal.main_arg8)) (ix1 k)) ch q := by
  rw [Cert.KernelIdeal.Gen.V_main_arg0, pair_eq, wz_eq, wr_eq, bias_row m c, beta_row m c, mu_row m c]

/-- One edge's rows of the arrays the region finds are that edge's rows of the arguments. -/
theorem rows_outS (e : Fin 65536) (ch : Fin 64) (q : Fin 9) :
    EdgeSpec.outS (fun k => Cert.KernelIdeal.Gen.V m c Cert.KernelIdeal.main_arg0 (ix2 e k)) (fun k => Cert.KernelIdeal.Gen.V m c Cert.KernelIdeal.main_v26 (ix2 e k)) (fun k c' => Cert.KernelIdeal.Gen.V m c Cert.KernelIdeal.main_v27 (ix2 k c')) (fun k j' => Cert.KernelIdeal.Gen.V m c Cert.KernelIdeal.main_v28 (ix2 k j')) (fun j' => Cert.KernelIdeal.Gen.V m c Cert.KernelIdeal.main_v38 (ix2 (0 : Fin 1) j')) (fun k => Cert.KernelIdeal.Gen.V m c Cert.KernelIdeal.main_v36 (ix2 (0 : Fin 1) k)) (fun k => Cert.KernelIdeal.Gen.V m c Cert.KernelIdeal.main_v37 (ix2 (0 : Fin 1) k)) ch q
    = EdgeSpec.outS (fun k => (m ((c : Thread Cert.KernelIdeal.nD Cert.KernelIdeal.τ).loc Cert.KernelIdeal.main_arg0)) (ix2 e k)) (fun k => (Cert.ReferenceIdeal.Stage.pairEmbed (F := Ideal) (m ((c : Thread Cert.KernelIdeal.nD Cert.KernelIdeal.τ).loc Cert.KernelIdeal.main_arg3)) (m ((c : Thread Cert.KernelIdeal.nD Cert.KernelIdeal.τ).loc Cert.KernelIdeal.main_arg1)) (m ((c : Thread Cert.KernelIdeal.nD Cert.KernelIdeal.τ).loc Cert.KernelIdeal.main_arg2))) (ix2 e k)) (fun k c' => (m ((c : Thread Cert.KernelIdeal.nD Cert.KernelIdeal.τ).loc Cert.KernelIdeal.main_arg4)) (ix2 k c')) (fun k j' => (m ((c : Thread Cert.KernelIdeal.nD Cert.KernelIdeal.τ).loc Cert.KernelIdeal.main_arg5)) (ix2 k j')) (fun j' => (m ((c : Thread Cert.KernelIdeal.nD Cert.KernelIdeal.τ).loc Cert.KernelIdeal.main_arg6)) (ix1 j')) (fun k => (m ((c : Thread Cert.KernelIdeal.nD Cert.KernelIdeal.τ).loc Cert.KernelIdeal.main_arg7)) (ix1 k)) (fun k => (m ((c : Thread Cert.KernelIdeal.nD Cert.KernelIdeal.τ).loc Cert.KernelIdeal.main_arg8)) (ix1 k)) ch q := by
  rw [Cert.KernelIdeal.Gen.V_main_arg0, pair_eq, wz_eq, wr_eq, bias_row m c, beta_row m c, mu_row m c]

end Rows

/-! ## The claims -/

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference has no kernel: its frame is its run with the results dropped. -/
theorem frame_ri : @Cert.frame_ReferenceIdeal Cert.ReferenceIdeal.Gen.facts Cert.Pre_finite_inputs.Gen.facts :=
  fun m ρ _ => (θ_run _ _ _).mono (fun _ h c => (h c).2.2.2) (Cert.ReferenceIdeal.EdgeRun.run (F := Ideal) m ρ)

/-- What each grid point stores, from the payload lemmas. -/
theorem storesI : Cert.KernelIdeal.EdgeValue.StoresI := fun x0 x1 x2 x3 x4 x5 x6 x7 p c q =>
  Cert.KernelIdeal.EdgePay.out8_apply x0 x1 x2 x3 x4 x5 x6 x7 p c q
theorem storesA : Cert.KernelIdeal.EdgeValue.StoresA := fun x0 x1 x2 x3 x4 x5 x6 x7 p c q =>
  Cert.KernelIdeal.EdgePay.out9_apply x0 x1 x2 x3 x4 x5 x6 x7 p c q
theorem storesS : Cert.KernelIdeal.EdgeValue.StoresS := fun x0 x1 x2 x3 x4 x5 x6 x7 p c q =>
  Cert.KernelIdeal.EdgePay.out10_apply x0 x1 x2 x3 x4 x5 x6 x7 p c q

/-- Both programs end with each result array at the reference's stage term of the (agreeing) arguments: the
    kernel's array agrees with it entry by entry — the stored tiles' entries are one edge's tensors of the rows
    the region finds, those rows are the arguments' rows, and the stage term read at the same entry is the same
    tensor —, and the reference's run ends at it by construction. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.Stage.outI (F := Ideal) (m ((c : Thread Cert.KernelIdeal.nD Cert.KernelIdeal.τ).loc Cert.KernelIdeal.main_arg0)) (Cert.ReferenceIdeal.Stage.pairEmbed (F := Ideal) (m ((c : Thread Cert.KernelIdeal.nD Cert.KernelIdeal.τ).loc Cert.KernelIdeal.main_arg3)) (m ((c : Thread Cert.KernelIdeal.nD Cert.KernelIdeal.τ).loc Cert.KernelIdeal.main_arg1)) (m ((c : Thread Cert.KernelIdeal.nD Cert.KernelIdeal.τ).loc Cert.KernelIdeal.main_arg2))) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)),
    fun c => Cert.ReferenceIdeal.Stage.outA (F := Ideal) (m ((c : Thread Cert.KernelIdeal.nD Cert.KernelIdeal.τ).loc Cert.KernelIdeal.main_arg0)) (Cert.ReferenceIdeal.Stage.pairEmbed (F := Ideal) (m ((c : Thread Cert.KernelIdeal.nD Cert.KernelIdeal.τ).loc Cert.KernelIdeal.main_arg3)) (m ((c : Thread Cert.KernelIdeal.nD Cert.KernelIdeal.τ).loc Cert.KernelIdeal.main_arg1)) (m ((c : Thread Cert.KernelIdeal.nD Cert.KernelIdeal.τ).loc Cert.KernelIdeal.main_arg2))) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)),
    fun c => Cert.ReferenceIdeal.Stage.outS (F := Ideal) (m ((c : Thread Cert.KernelIdeal.nD Cert.KernelIdeal.τ).loc Cert.KernelIdeal.main_arg0)) (Cert.ReferenceIdeal.Stage.pairEmbed (F := Ideal) (m ((c : Thread Cert.KernelIdeal.nD Cert.KernelIdeal.τ).loc Cert.KernelIdeal.main_arg3)) (m ((c : Thread Cert.KernelIdeal.nD Cert.KernelIdeal.τ).loc Cert.KernelIdeal.main_arg1)) (m ((c : Thread Cert.KernelIdeal.nD Cert.KernelIdeal.τ).loc Cert.KernelIdeal.main_arg2))) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)), ?_, ?_⟩
  · refine (θ_run _ _ _).mono (fun r h c => ?_) (Cert.KernelIdeal.EdgeValue.run storesI storesA storesS m ρ)
    obtain ⟨h0, h1, h2, hargs⟩ := h c
    refine ⟨?_, ?_, ?_, hargs⟩
    · funext j
      obtain ⟨e, ch, i, k, rfl⟩ : ∃ (e : Fin 65536) (ch : Fin 64) (i k : Fin 3), j = ix4 e ch i k := ⟨j 0, j 1, j 2, j 3, eq_ix4 j⟩
      exact (h0 e ch i k).trans ((rows_outI m c e ch _).trans (Cert.ReferenceIdeal.EdgeRead.outI_apply _ _ _ _ _ _ _ e ch i k).symm)
    · funext j
      obtain ⟨e, ch, i, k, rfl⟩ : ∃ (e : Fin 65536) (ch : Fin 64) (i k : Fin 3), j = ix4 e ch i k := ⟨j 0, j 1, j 2, j 3, eq_ix4 j⟩
      exact (h1 e ch i k).trans ((rows_outA m c e ch _).trans (Cert.ReferenceIdeal.EdgeRead.outA_apply _ _ _ _ _ _ _ e ch i k).symm)
    · funext j
      obtain ⟨e, ch, i, k, rfl⟩ : ∃ (e : Fin 65536) (ch : Fin 64) (i k : Fin 3), j = ix4 e ch i k := ⟨j 0, j 1, j 2, j 3, eq_ix4 j⟩
      exact (h2 e ch i k).trans ((rows_outS m c e ch _).trans (Cert.ReferenceIdeal.EdgeRead.outS_apply _ _ _ _ _ _ _ e ch i k).symm)
  · refine (θ_run _ _ _).mono (fun r h c => ?_) (Cert.ReferenceIdeal.EdgeRun.run (F := Ideal) m' ρ')
    obtain ⟨h0, h1, h2, hargs⟩ := h c
    obtain ⟨e0, e1, e2, e3, e4, e5, e6, e7, e8⟩ := hagree c
    refine ⟨h0.trans ?_, h1.trans ?_, h2.trans ?_, hargs⟩ <;>
      rw [e0, e1, e2, e3, e4, e5, e6, e7, e8]

/-- The five claims, behind the witnesses of the programs' stated facts. The idealization rewrote nothing, so
    there is nothing for `preserves` to say. -/
theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
